-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v47)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v67)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v67) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v90) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S20000x128 : Shape := ⟨2, ![20000, 128]⟩
abbrev S1000000 : Shape := ⟨1, ![1000000]⟩
abbrev S500000 : Shape := ⟨1, ![500000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S20000x128 : S_.BroadcastsInDim S20000x128 (![] : Fin 0 → Fin S20000x128.rank)
  reducesTo_S20000x128_S_d0_1 : S20000x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg18 : FVec F S256x128 .f32) (main_arg19 : FVec F S128 .f32) (main_arg20 : FVec F S128x1 .f32) (main_arg21 : FVec F S1 .f32) (main_v63 : IVec S_ 1) (main_v67 : IVec S_ 1) : IVec S_ 1 :=
  let main_v68 : IVec S_ 1 := andi main_v63 main_v67
  let main_v69 : FVec F S256x128 .f32 := Host.absf main_arg18
  let main_cst_26 : FVec F S_ .f32 := constant S_ .f32 0x7F800000#32
  let main_v70 : FVec F S256x128 .f32 := broadcastInDim S256x128 ![] bcast_S_S256x128 main_cst_26
  let main_v71 : IVec S256x128 1 := cmpf .olt main_v69 main_v70
  let main_c_27 : IVec S_ 1 := constantI S_ 1 1#1
  let main_v72 : IVec S_ 1 := (fun x v => Host.reduce IntOp.andi x v reducesTo_S256x128_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x1 .f32 := Host.absf main_arg20
  let main_cst_30 : FVec F S_ .f32 := constant S_ .f32 0x7F800000#32
  let main_v80 : FVec F S128x1 .f32 := broadcastInDim S128x1 ![] bcast_S_S128x1 main_cst_30
  let main_v81 : IVec S128x1 1 := cmpf .olt main_v79 main_v80
  let main_c_31 : IVec S_ 1 := constantI S_ 1 1#1
  let main_v82 : IVec S_ 1 := (fun x v => Host.reduce IntOp.andi x v reducesTo_S128x1_S_d0_1 h_S_) main_v81 main_c_31
  let main_v83 : IVec S_ 1 := andi main_v78 main_v82
  let main_v84 : FVec F S1 .f32 := Host.absf main_arg21
  let main_cst_32 : FVec F S_ .f32 := constant S_ .f32 0x7F800000#32
  fn_part5 (F := F) main_v83 main_v84 main_cst_32

def fn_part3 {F : FTy → Type} [FloatOps F] (main_arg15 : FVec F S128x128 .f32) (main_arg16 : FVec F S128 .f32) (main_arg17 : FVec F S128x128 .f32) (main_arg18 : FVec F S256x128 .f32) (main_arg19 : FVec F S128 .f32) (main_arg20 : FVec F S128x1 .f32) (main_arg21 : FVec F S1 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg17
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg18 main_arg19 main_arg20 main_arg21 main_v63 main_v67

def fn_part2 {F : FTy → Type} [FloatOps F] (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S256x128 .f32) (main_arg19 : FVec F S128 .f32) (main_arg20 : FVec F S128x1 .f32) (main_arg21 : FVec F S1 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg15 main_arg16 main_arg17 main_arg18 main_arg19 main_arg20 main_arg21 main_v48 main_v49 main_v50

def fn_part1 {F : FTy → Type} [FloatOps F] (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S256x128 .f32) (main_arg19 : FVec F S128 .f32) (main_arg20 : FVec F S128x1 .f32) (main_arg21 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg8
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg9
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg10
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg11 main_arg12 main_arg13 main_arg14 main_arg15 main_arg16 main_arg17 main_arg18 main_arg19 main_arg20 main_arg21 main_v33

def fn {F : FTy → Type} [FloatOps F] (main_arg0 : FVec F S10000x128 .f32) (main_arg1 : FVec F S20000x128 .f32) (main_arg2 : IVec S1000000 32) (main_arg3 : IVec S1000000 32) (main_arg4 : IVec S500000 32) (main_arg5 : IVec S500000 32) (main_arg6 : FVec F S128x128 .f32) (main_arg7 : FVec F S128 .f32) (main_arg8 : FVec F S128x128 .f32) (main_arg9 : FVec F S128x128 .f32) (main_arg10 : FVec F S128 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S256x128 .f32) (main_arg19 : FVec F S128 .f32) (main_arg20 : FVec F S128x1 .f32) (main_arg21 : FVec F S1 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S20000x128 .f32 := Host.absf main_arg1
  let main_cst_0 : FVec F S_ .f32 := constant S_ .f32 0x7F800000#32
  let main_v5 : FVec F S20000x128 .f32 := broadcastInDim S20000x128 ![] bcast_S_S20000x128 main_cst_0
  let main_v6 : IVec S20000x128 1 := cmpf .olt main_v4 main_v5
  let main_c_1 : IVec S_ 1 := constantI S_ 1 1#1
  let main_v7 : IVec S_ 1 := (fun x v => Host.reduce IntOp.andi x v reducesTo_S20000x128_S_d0_1 h_S_) main_v6 main_c_1
  let main_v8 : IVec S_ 1 := andi main_v3 main_v7
  let main_v9 : FVec F S128x128 .f32 := Host.absf main_arg6
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg7
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg8 main_arg9 main_arg10 main_arg11 main_arg12 main_arg13 main_arg14 main_arg15 main_arg16 main_arg17 main_arg18 main_arg19 main_arg20 main_arg21 main_v13 main_v16
-- ==== Kernel.lean ====
abbrev S10000x128 : Shape := ⟨2, ![10000, 128]⟩
abbrev S20000x128 : Shape := ⟨2, ![20000, 128]⟩
abbrev S1000000 : Shape := ⟨1, ![1000000]⟩
abbrev S500000 : Shape := ⟨1, ![500000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩
abbrev S1000000x1 : Shape := ⟨2, ![1000000, 1]⟩
abbrev S1000000x128 : Shape := ⟨2, ![1000000, 128]⟩
abbrev S1x128 : Shape := ⟨2, ![1, 128]⟩
abbrev S2000x128 : Shape := ⟨2, ![2000, 128]⟩
abbrev S500000x1 : Shape := ⟨2, ![500000, 1]⟩
abbrev S500000x128 : Shape := ⟨2, ![500000, 128]⟩
abbrev S1x1 : Shape := ⟨2, ![1, 1]⟩
abbrev S5000x128 : Shape := ⟨2, ![5000, 128]⟩
abbrev S5000x1 : Shape := ⟨2, ![5000, 1]⟩

abbrev nBuf : Space → Nat
  | .hbm => 106
  | .vmem => 47
  | .smem => 0
  | _ => 0

abbrev bufTy : (tb : Table) → Fin (tcTables nBuf tb) → BufTy
  | .hbm, ⟨0, _⟩ => ⟨S10000x128, .f32⟩
  | .hbm, ⟨1, _⟩ => ⟨S20000x128, .f32⟩
  | .hbm, ⟨2, _⟩ => ⟨S1000000, .i32⟩
  | .hbm, ⟨3, _⟩ => ⟨S1000000, .i32⟩
  | .hbm, ⟨4, _⟩ => ⟨S500000, .i32⟩
  | .hbm, ⟨5, _⟩ => ⟨S500000, .i32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S128x128, .f32⟩
  | .hbm, ⟨12, _⟩ => ⟨S128x128, .f32⟩
  | .hbm, ⟨13, _⟩ => ⟨S128, .f32⟩
  | .hbm, ⟨14, _⟩ => ⟨S128x128, .f32⟩
  | .hbm, ⟨15, _⟩ => ⟨S128x128, .f32⟩
  | .hbm, ⟨16, _⟩ => ⟨S128, .f32⟩
  | .hbm, ⟨17, _⟩ => ⟨S128x128, .f32⟩
  | .hbm, ⟨18, _⟩ => ⟨S256x128, .f32⟩
  | .hbm, ⟨19, _⟩ => ⟨S128, .f32⟩
  | .hbm, ⟨20, _⟩ => ⟨S128x1, .f32⟩
  | .hbm, ⟨21, _⟩ => ⟨S1, .f32⟩
  | .hbm, ⟨22, _⟩ => ⟨S_, .i32⟩
  | .hbm, ⟨23, _⟩ => ⟨S1000000, .i32⟩
  | .hbm, ⟨24, _⟩ => ⟨S1000000, .i1⟩
  | .hbm, ⟨25, _⟩ => ⟨S_, .i32⟩
  | .hbm, ⟨26, _⟩ => ⟨S1000000, .i32⟩
  | .hbm, ⟨27, _⟩ => ⟨S1000000, .i32⟩
  | .hbm, ⟨28, _⟩ => ⟨S1000000, .i32⟩
  | .hbm, ⟨29, _⟩ => ⟨S1000000x1, .i32⟩
  | .hbm, ⟨30, _⟩ => ⟨S1000000x128, .f32⟩
  | .hbm, ⟨31, _⟩ => ⟨S_, .f32⟩
  | .hbm, ⟨32, _⟩ => ⟨S20000x128, .f32⟩
  | .hbm, ⟨33, _⟩ => ⟨S1000000x1, .i32⟩
  | .hbm, ⟨34, _⟩ => ⟨S20000x128, .f32⟩
  | .hbm, ⟨35, _⟩ => ⟨S1x128, .f32⟩
  | .hbm, ⟨36, _⟩ => ⟨S20000x128, .f32⟩
  | .hbm, ⟨37, _⟩ => ⟨S_, .i32⟩
  | .hbm, ⟨38, _⟩ => ⟨S1000000, .i32⟩
  | .hbm, ⟨39, _⟩ => ⟨S1000000, .i1⟩
  | .hbm, ⟨40, _⟩ => ⟨S_, .i32⟩
  | .hbm, ⟨41, _⟩ => ⟨S1000000, .i32⟩
  | .hbm, ⟨42, _⟩ => ⟨S1000000, .i32⟩
  | .hbm, ⟨43, _⟩ => ⟨S1000000, .i32⟩
  | .hbm, ⟨44, _⟩ => ⟨S1000000x1, .i32⟩
  | .hbm, ⟨45, _⟩ => ⟨S1000000x128, .f32⟩
  | .hbm, ⟨46, _⟩ => ⟨S_, .f32⟩
  | .hbm, ⟨47, _⟩ => ⟨S10000x128, .f32⟩
  | .hbm, ⟨48, _⟩ => ⟨S1000000x1, .i32⟩
  | .hbm, ⟨49, _⟩ => ⟨S10000x128, .f32⟩
  | .hbm, ⟨50, _⟩ => ⟨S1x128, .f32⟩
  | .hbm, ⟨51, _⟩ => ⟨S10000x128, .f32⟩
  | .hbm, ⟨52, _⟩ => ⟨S_, .i32⟩
  | .hbm, ⟨53, _⟩ => ⟨S1000000, .i32⟩
  | .hbm, ⟨54, _⟩ => ⟨S1000000, .i1⟩
  | .hbm, ⟨55, _⟩ => ⟨S_, .i32⟩
  | .hbm, ⟨56, _⟩ => ⟨S1000000, .i32⟩
  | .hbm, ⟨57, _⟩ => ⟨S1000000, .i32⟩
  | .hbm, ⟨58, _⟩ => ⟨S1000000, .i32⟩
  | .hbm, ⟨59, _⟩ => ⟨S1000000x1, .i32⟩
  | .hbm, ⟨60, _⟩ => ⟨S1000000x128, .f32⟩
  | .hbm, ⟨61, _⟩ => ⟨S_, .f32⟩
  | .hbm, ⟨62, _⟩ => ⟨S20000x128, .f32⟩
  | .hbm, ⟨63, _⟩ => ⟨S1000000x1, .i32⟩
  | .hbm, ⟨64, _⟩ => ⟨S20000x128, .f32⟩
  | .hbm, ⟨65, _⟩ => ⟨S1x128, .f32⟩
  | .hbm, ⟨66, _⟩ => ⟨S20000x128, .f32⟩
  | .hbm, ⟨67, _⟩ => ⟨S_, .i32⟩
  | .hbm, ⟨68, _⟩ => ⟨S1000000, .i32⟩
  | .hbm, ⟨69, _⟩ => ⟨S1000000, .i1⟩
  | .hbm, ⟨70, _⟩ => ⟨S_, .i32⟩
  | .hbm, ⟨71, _⟩ => ⟨S1000000, .i32⟩
  | .hbm, ⟨72, _⟩ => ⟨S1000000, .i32⟩
  | .hbm, ⟨73, _⟩ => ⟨S1000000, .i32⟩
  | .hbm, ⟨74, _⟩ => ⟨S1000000x1, .i32⟩
  | .hbm, ⟨75, _⟩ => ⟨S1000000x128, .f32⟩
  | .hbm, ⟨76, _⟩ => ⟨S_, .f32⟩
  | .hbm, ⟨77, _⟩ => ⟨S10000x128, .f32⟩
  | .hbm, ⟨78, _⟩ => ⟨S1000000x1, .i32⟩
  | .hbm, ⟨79, _⟩ => ⟨S10000x128, .f32⟩
  | .hbm, ⟨80, _⟩ => ⟨S1x128, .f32⟩
  | .hbm, ⟨81, _⟩ => ⟨S10000x128, .f32⟩
  | .hbm, ⟨82, _⟩ => ⟨S_, .i32⟩
  | .hbm, ⟨83, _⟩ => ⟨S500000, .i32⟩
  | .hbm, ⟨84, _⟩ => ⟨S500000, .i1⟩
  | .hbm, ⟨85, _⟩ => ⟨S_, .i32⟩
  | .hbm, ⟨86, _⟩ => ⟨S500000, .i32⟩
  | .hbm, ⟨87, _⟩ => ⟨S500000, .i32⟩
  | .hbm, ⟨88, _⟩ => ⟨S500000, .i32⟩
  | .hbm, ⟨89, _⟩ => ⟨S500000x1, .i32⟩
  | .hbm, ⟨90, _⟩ => ⟨S500000x128, .f32⟩
  | .hbm, ⟨91, _⟩ => ⟨S_, .i32⟩
  | .hbm, ⟨92, _⟩ => ⟨S500000, .i32⟩
  | .hbm, ⟨93, _⟩ => ⟨S500000, .i1⟩
  | .hbm, ⟨94, _⟩ => ⟨S_, .i32⟩
  | .hbm, ⟨95, _⟩ => ⟨S500000, .i32⟩
  | .hbm, ⟨96, _⟩ => ⟨S500000, .i32⟩
  | .hbm, ⟨97, _⟩ => ⟨S500000, .i32⟩
  | .hbm, ⟨98, _⟩ => ⟨S500000x1, .i32⟩
  | .hbm, ⟨99, _⟩ => ⟨S500000x128, .f32⟩
  | .hbm, ⟨100, _⟩ => ⟨S128x128, .f32⟩
  | .hbm, ⟨101, _⟩ => ⟨S128x128, .f32⟩
  | .hbm, ⟨102, _⟩ => ⟨S1x128, .f32⟩
  | .hbm, ⟨103, _⟩ => ⟨S1x1, .f32⟩
  | .hbm, ⟨104, _⟩ => ⟨S500000x1, .f32⟩
  | .hbm, ⟨105, _⟩ => ⟨S500000, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S2000x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S1x128, .f32⟩
  | .local _ .vmem, ⟨24, _⟩ => ⟨S128x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S128x128, .f32⟩
  | .local _ .vmem, ⟨32, _⟩ => ⟨S1x128, .f32⟩
  | .local _ .vmem, ⟨33, _⟩ => ⟨S128x128, .f32⟩
  | .local _ .vmem, ⟨34, _⟩ => ⟨S2000x128, .f32⟩
  | .local _ .vmem, ⟨35, _⟩ => ⟨S2000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S128x128, .f32⟩
  | .local _ .vmem, ⟨42, _⟩ => ⟨S1x128, .f32⟩
  | .local _ .vmem, ⟨43, _⟩ => ⟨S128x1, .f32⟩
  | .local _ .vmem, ⟨44, _⟩ => ⟨S1x1, .f32⟩
  | .local _ .vmem, ⟨45, _⟩ => ⟨S5000x1, .f32⟩
  | .local _ .vmem, ⟨46, _⟩ => ⟨S5000x1, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_1 : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_cst_3 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_c_4 : Ref sig .tc := ⟨.hbm, 52, rfl⟩
abbrev main_v24 : Ref sig .tc := ⟨.hbm, 53, rfl⟩
abbrev main_v25 : Ref sig .tc := ⟨.hbm, 54, rfl⟩
abbrev main_c_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_6 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_c_7 : Ref sig .tc := ⟨.hbm, 67, rfl⟩
abbrev main_v36 : Ref sig .tc := ⟨.hbm, 68, rfl⟩
abbrev main_v37 : Ref sig .tc := ⟨.hbm, 69, rfl⟩
abbrev main_c_8 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_9 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_v47 : Ref sig .tc := ⟨.hbm, 81, rfl⟩
abbrev main_c_10 : Ref sig .tc := ⟨.hbm, 82, rfl⟩
abbrev main_v48 : Ref sig .tc := ⟨.hbm, 83, rfl⟩
abbrev main_v49 : Ref sig .tc := ⟨.hbm, 84, rfl⟩
abbrev main_c_11 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_c_12 : Ref sig .tc := ⟨.hbm, 91, rfl⟩
abbrev main_v55 : Ref sig .tc := ⟨.hbm, 92, rfl⟩
abbrev main_v56 : Ref sig .tc := ⟨.hbm, 93, rfl⟩
abbrev main_c_13 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg5_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg5_0 : Ref sig .tc := ⟨.vmem, 43, rfl⟩
abbrev cc4_stg6_0 : Ref sig .tc := ⟨.vmem, 44, rfl⟩
abbrev cc4_stg7_0 : Ref sig .tc := ⟨.vmem, 45, rfl⟩
abbrev cc4_stg7_1 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem5_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem5_0 : DmaSem sig := 43
abbrev cc4_sem6_0 : DmaSem sig := 44
abbrev cc4_sem7_0 : DmaSem sig := 45
abbrev cc4_sem7_1 : DmaSem sig := 46

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![100], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x1 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x1 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S10000x128 : S_.BroadcastsInDim S10000x128 (![] : Fin 0 → Fin S10000x128.rank)
  bcast_S_S500000 : S_.BroadcastsInDim S500000 (![] : Fin 0 → Fin S500000.rank)
  bcast_S500000_S500000x1_0 : S500000.BroadcastsInDim S500000x1 (![0] : Fin 1 → Fin S500000x1.rank)
  slices_S256x128_S128x128_0_0 : S256x128.Slices ![0, 0] S128x128
  slices_S256x128_S128x128_128_0 : S256x128.Slices ![128, 0] S128x128
  shapeCasts_S1_S1x1 : S1.ShapeCasts S1x1
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  shapeCasts_S128x128_S128x128 : S128x128.ShapeCasts S128x128
  broadcasts_S1x128_S5000x128 : S1x128.Broadcasts S5000x128
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  shapeCasts_S500000x1_S500000 : S500000x1.ShapeCasts S500000
  gather_S10000x128_S1000000x1_S1000000x128_1_0_n_n_0_1_1128_wf : GatherDims.WF S10000x128 S1000000x1 S1000000x128 [1] [0] [] [0] [] 1 ![1, 128]
  scatter_S20000x128_S1000000x1_S1000000x128_1_0_0_1_wf : ScatterDims.WF S20000x128 S1000000x1 S1000000x128 [1] [0] [0] 1
  dot_S2000x128_S128x128_S2000x128_1_0_0_1_n_n_wf : DotDims.WF S2000x128 S128x128 S2000x128 [1] [0] [0] [1] [] []
  gather_S20000x128_S1000000x1_S1000000x128_1_0_n_n_0_1_1128_wf : GatherDims.WF S20000x128 S1000000x1 S1000000x128 [1] [0] [] [0] [] 1 ![1, 128]
  scatter_S10000x128_S1000000x1_S1000000x128_1_0_0_1_wf : ScatterDims.WF S10000x128 S1000000x1 S1000000x128 [1] [0] [0] 1
  gather_S10000x128_S500000x1_S500000x128_1_0_n_n_0_1_1128_wf : GatherDims.WF S10000x128 S500000x1 S500000x128 [1] [0] [] [0] [] 1 ![1, 128]
  gather_S20000x128_S500000x1_S500000x128_1_0_n_n_0_1_1128_wf : GatherDims.WF S20000x128 S500000x1 S500000x128 [1] [0] [] [0] [] 1 ![1, 128]
  dot_S5000x128_S128x128_S5000x128_1_0_0_1_n_n_wf : DotDims.WF S5000x128 S128x128 S5000x128 [1] [0] [0] [1] [] []
  dot_S5000x128_S128x1_S5000x1_1_0_0_1_n_n_wf : DotDims.WF S5000x128 S128x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S20000x128.size a
  hwx0_0 : ∀ i : grid0.Coords, EltTy.bits .f32 = 32 ∨ (Rect.block (s := S20000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S20000x128.size a
  hwx0_1 : ∀ i : grid0.Coords, EltTy.bits .f32 = 32 ∨ (Rect.block (s := S20000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S20000x128.size a
  hwx0_5 : ∀ i : grid0.Coords, EltTy.bits .f32 = 32 ∨ (Rect.block (s := S20000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S10000x128.size a
  hwx1_0 : ∀ i : grid1.Coords, EltTy.bits .f32 = 32 ∨ (Rect.block (s := S10000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S10000x128.size a
  hwx1_1 : ∀ i : grid1.Coords, EltTy.bits .f32 = 32 ∨ (Rect.block (s := S10000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S10000x128.size a
  hwx1_5 : ∀ i : grid1.Coords, EltTy.bits .f32 = 32 ∨ (Rect.block (s := S10000x128) S2000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S20000x128.size a
  hwx2_0 : ∀ i : grid2.Coords, EltTy.bits .f32 = 32 ∨ (Rect.block (s := S20000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S20000x128.size a
  hwx2_1 : ∀ i : grid2.Coords, EltTy.bits .f32 = 32 ∨ (Rect.block (s := S20000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S20000x128.size a
  hwx2_5 : ∀ i : grid2.Coords, EltTy.bits .f32 = 32 ∨ (Rect.block (s := S20000x128) S2000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S10000x128.size a
  hwx3_0 : ∀ i : grid3.Coords, EltTy.bits .f32 = 32 ∨ (Rect.block (s := S10000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S10000x128.size a
  hwx3_1 : ∀ i : grid3.Coords, EltTy.bits .f32 = 32 ∨ (Rect.block (s := S10000x128) S2000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x128.size a ≤ S10000x128.size a
  hwx3_5 : ∀ i : grid3.Coords, EltTy.bits .f32 = 32 ∨ (Rect.block (s := S10000x128) S2000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S500000x128.size a
  hwx4_0 : ∀ i : grid4.Coords, EltTy.bits .f32 = 32 ∨ (Rect.block (s := S500000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S500000x128.size a
  hwx4_1 : ∀ i : grid4.Coords, EltTy.bits .f32 = 32 ∨ (Rect.block (s := S500000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x1.size a ≤ S128x1.size a
  hwx4_5 : ∀ i : grid4.Coords, EltTy.bits .f32 = 32 ∨ (Rect.block (s := S128x1) S128x1.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x1.size a ≤ S500000x1.size a
  hwx4_7 : ∀ i : grid4.Coords, EltTy.bits .f32 = 32 ∨ (Rect.block (s := S500000x1) S5000x1.size (cc4_transform_7 i) (hinb4_7 i)).WholeWords (EltTy.packing .f32)

variable [Facts₀]

def gather_S10000x128_S1000000x1_S1000000x128_1_0_n_n_0_1_1128 : GatherDims S10000x128 S1000000x1 S1000000x128 where
  offsetDims := [1]
  collapsedSliceDims := [0]
  operandBatchingDims := []
  startIndicesBatchingDims := []
  startIndexMap := [0]
  indexVectorDim := 1
  sliceSizes := ![1, 128]
  wf := gather_S10000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S10000x128_S1000000x1_S1000000x128_1_0_0_1 : ScatterDims S10000x128 S1000000x1 S1000000x128 where
  updateWindowDims := [1]
  insertedWindowDims := [0]
  scatterDimsToOperandDims := [0]
  indexVectorDim := 1
  wf := scatter_S10000x128_S1000000x1_S1000000x128_1_0_0_1_wf
def gather_S10000x128_S500000x1_S500000x128_1_0_n_n_0_1_1128 : GatherDims S10000x128 S500000x1 S500000x128 where
  offsetDims := [1]
  collapsedSliceDims := [0]
  operandBatchingDims := []
  startIndicesBatchingDims := []
  startIndexMap := [0]
  indexVectorDim := 1
  sliceSizes := ![1, 128]
  wf := gather_S10000x128_S500000x1_S500000x128_1_0_n_n_0_1_1128_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x1_S5000x1_1_0_0_1_n_n : DotDims S5000x128 S128x1 S5000x1 where
  lhsContracting := [1]
  rhsContracting := [0]
  lhsNonContracting := [0]
  rhsNonContracting := [1]
  lhsBatch := []
  rhsBatch := []
  wf := dot_S5000x128_S128x1_S5000x1_1_0_0_1_n_n_wf

abbrev win0_0 : Pipeline.Window sig grid0 :=
  Pipeline.Window.ofSpec (Memref.whole main_v9) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg9) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v22) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg11) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v23) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v33) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v35) S2000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v45) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg15) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v46) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg17) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v47) S2000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v54) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v61) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v62) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v63) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v64) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg20) S128x1.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v65) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v66) S5000x1.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S10000x128 : Shape := ⟨2, ![10000, 128]⟩
abbrev S20000x128 : Shape := ⟨2, ![20000, 128]⟩
abbrev S1000000 : Shape := ⟨1, ![1000000]⟩
abbrev S500000 : Shape := ⟨1, ![500000]⟩
abbrev S128x128 : Shape := ⟨2, ![128, 128]⟩
abbrev S128 : Shape := ⟨1, ![128]⟩
abbrev S256x128 : Shape := ⟨2, ![256, 128]⟩
abbrev S128x1 : Shape := ⟨2, ![128, 1]⟩
abbrev S1 : Shape := ⟨1, ![1]⟩
abbrev S_ : Shape := ⟨0, ![]⟩
abbrev S1000000x1 : Shape := ⟨2, ![1000000, 1]⟩
abbrev S1000000x128 : Shape := ⟨2, ![1000000, 128]⟩
abbrev S1x128 : Shape := ⟨2, ![1, 128]⟩
abbrev S500000x1 : Shape := ⟨2, ![500000, 1]⟩
abbrev S500000x128 : Shape := ⟨2, ![500000, 128]⟩
abbrev S500000x256 : Shape := ⟨2, ![500000, 256]⟩
abbrev S1x1 : Shape := ⟨2, ![1, 1]⟩

abbrev nBuf : Space → Nat
  | .hbm => 135
  | .vmem => 0
  | .smem => 0
  | _ => 0

abbrev hbmTy0_0 (i : Nat) : BufTy := match i % 128 with
  | 0 => ⟨S10000x128, .f32⟩
  | 1 => ⟨S20000x128, .f32⟩
  | 2 => ⟨S1000000, .i32⟩
  | 3 => ⟨S1000000, .i32⟩
  | 4 => ⟨S500000, .i32⟩
  | 5 => ⟨S500000, .i32⟩
  | 6 => ⟨S128x128, .f32⟩
  | 7 => ⟨S128, .f32⟩
  | 8 => ⟨S128x128, .f32⟩
  | 9 => ⟨S128x128, .f32⟩
  | 10 => ⟨S128, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S256x128, .f32⟩
  | 19 => ⟨S128, .f32⟩
  | 20 => ⟨S128x1, .f32⟩
  | 21 => ⟨S1, .f32⟩
  | 22 => ⟨S_, .i32⟩
  | 23 => ⟨S1000000, .i32⟩
  | 24 => ⟨S1000000, .i1⟩
  | 25 => ⟨S_, .i32⟩
  | 26 => ⟨S1000000, .i32⟩
  | 27 => ⟨S1000000, .i32⟩
  | 28 => ⟨S1000000, .i32⟩
  | 29 => ⟨S1000000x1, .i32⟩
  | 30 => ⟨S1000000x128, .f32⟩
  | 31 => ⟨S_, .f32⟩
  | 32 => ⟨S20000x128, .f32⟩
  | 33 => ⟨S1000000x1, .i32⟩
  | 34 => ⟨S20000x128, .f32⟩
  | 35 => ⟨S20000x128, .f32⟩
  | 36 => ⟨S1x128, .f32⟩
  | 37 => ⟨S20000x128, .f32⟩
  | 38 => ⟨S20000x128, .f32⟩
  | 39 => ⟨S20000x128, .f32⟩
  | 40 => ⟨S20000x128, .f32⟩
  | 41 => ⟨S_, .f32⟩
  | 42 => ⟨S20000x128, .f32⟩
  | 43 => ⟨S20000x128, .f32⟩
  | 44 => ⟨S_, .i32⟩
  | 45 => ⟨S1000000, .i32⟩
  | 46 => ⟨S1000000, .i1⟩
  | 47 => ⟨S_, .i32⟩
  | 48 => ⟨S1000000, .i32⟩
  | 49 => ⟨S1000000, .i32⟩
  | 50 => ⟨S1000000, .i32⟩
  | 51 => ⟨S1000000x1, .i32⟩
  | 52 => ⟨S1000000x128, .f32⟩
  | 53 => ⟨S_, .f32⟩
  | 54 => ⟨S10000x128, .f32⟩
  | 55 => ⟨S1000000x1, .i32⟩
  | 56 => ⟨S10000x128, .f32⟩
  | 57 => ⟨S10000x128, .f32⟩
  | 58 => ⟨S1x128, .f32⟩
  | 59 => ⟨S10000x128, .f32⟩
  | 60 => ⟨S10000x128, .f32⟩
  | 61 => ⟨S10000x128, .f32⟩
  | 62 => ⟨S10000x128, .f32⟩
  | 63 => ⟨S_, .f32⟩
  | 64 => ⟨S10000x128, .f32⟩
  | 65 => ⟨S10000x128, .f32⟩
  | 66 => ⟨S_, .i32⟩
  | 67 => ⟨S1000000, .i32⟩
  | 68 => ⟨S1000000, .i1⟩
  | 69 => ⟨S_, .i32⟩
  | 70 => ⟨S1000000, .i32⟩
  | 71 => ⟨S1000000, .i32⟩
  | 72 => ⟨S1000000, .i32⟩
  | 73 => ⟨S1000000x1, .i32⟩
  | 74 => ⟨S1000000x128, .f32⟩
  | 75 => ⟨S_, .f32⟩
  | 76 => ⟨S20000x128, .f32⟩
  | 77 => ⟨S1000000x1, .i32⟩
  | 78 => ⟨S20000x128, .f32⟩
  | 79 => ⟨S20000x128, .f32⟩
  | 80 => ⟨S1x128, .f32⟩
  | 81 => ⟨S20000x128, .f32⟩
  | 82 => ⟨S20000x128, .f32⟩
  | 83 => ⟨S20000x128, .f32⟩
  | 84 => ⟨S20000x128, .f32⟩
  | 85 => ⟨S_, .i32⟩
  | 86 => ⟨S1000000, .i32⟩
  | 87 => ⟨S1000000, .i1⟩
  | 88 => ⟨S_, .i32⟩
  | 89 => ⟨S1000000, .i32⟩
  | 90 => ⟨S1000000, .i32⟩
  | 91 => ⟨S1000000, .i32⟩
  | 92 => ⟨S1000000x1, .i32⟩
  | 93 => ⟨S1000000x128, .f32⟩
  | 94 => ⟨S_, .f32⟩
  | 95 => ⟨S10000x128, .f32⟩
  | 96 => ⟨S1000000x1, .i32⟩
  | 97 => ⟨S10000x128, .f32⟩
  | 98 => ⟨S10000x128, .f32⟩
  | 99 => ⟨S1x128, .f32⟩
  | 100 => ⟨S10000x128, .f32⟩
  | 101 => ⟨S10000x128, .f32⟩
  | 102 => ⟨S10000x128, .f32⟩
  | 103 => ⟨S10000x128, .f32⟩
  | 104 => ⟨S_, .i32⟩
  | 105 => ⟨S500000, .i32⟩
  | 106 => ⟨S500000, .i1⟩
  | 107 => ⟨S_, .i32⟩
  | 108 => ⟨S500000, .i32⟩
  | 109 => ⟨S500000, .i32⟩
  | 110 => ⟨S500000, .i32⟩
  | 111 => ⟨S500000x1, .i32⟩
  | 112 => ⟨S500000x128, .f32⟩
  | 113 => ⟨S_, .i32⟩
  | 114 => ⟨S500000, .i32⟩
  | 115 => ⟨S500000, .i1⟩
  | 116 => ⟨S_, .i32⟩
  | 117 => ⟨S500000, .i32⟩
  | 118 => ⟨S500000, .i32⟩
  | 119 => ⟨S500000, .i32⟩
  | 120 => ⟨S500000x1, .i32⟩
  | 121 => ⟨S500000x128, .f32⟩
  | 122 => ⟨S500000x256, .f32⟩
  | 123 => ⟨S500000x128, .f32⟩
  | 124 => ⟨S1x128, .f32⟩
  | 125 => ⟨S500000x128, .f32⟩
  | 126 => ⟨S500000x128, .f32⟩
  | 127 => ⟨S_, .f32⟩
  | _ => ⟨S10000x128, .f32⟩

abbrev hbmTy0_1 (i : Nat) : BufTy := match i % 128 with
  | 0 => ⟨S500000x128, .f32⟩
  | 1 => ⟨S500000x128, .f32⟩
  | 2 => ⟨S500000x1, .f32⟩
  | 3 => ⟨S1x1, .f32⟩
  | 4 => ⟨S500000x1, .f32⟩
  | 5 => ⟨S500000x1, .f32⟩
  | 6 => ⟨S500000, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_c : Ref sig .tc := ⟨.hbm, 22, rfl⟩
abbrev main_v0 : Ref sig .tc := ⟨.hbm, 23, rfl⟩
abbrev main_v1 : Ref sig .tc := ⟨.hbm, 24, rfl⟩
abbrev main_c_0 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_cst : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_call0_cst : Ref sig .tc := ⟨.hbm, 41, rfl⟩
abbrev main_call0_v0 : Ref sig .tc := ⟨.hbm, 42, rfl⟩
abbrev main_v16 : Ref sig .tc := ⟨.hbm, 43, rfl⟩
abbrev main_c_1 : Ref sig .tc := ⟨.hbm, 44, rfl⟩
abbrev main_v17 : Ref sig .tc := ⟨.hbm, 45, rfl⟩
abbrev main_v18 : Ref sig .tc := ⟨.hbm, 46, rfl⟩
abbrev main_c_2 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_cst_3 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call1_cst : Ref sig .tc := ⟨.hbm, 63, rfl⟩
abbrev main_call1_v0 : Ref sig .tc := ⟨.hbm, 64, rfl⟩
abbrev main_v33 : Ref sig .tc := ⟨.hbm, 65, rfl⟩
abbrev main_c_4 : Ref sig .tc := ⟨.hbm, 66, rfl⟩
abbrev main_v34 : Ref sig .tc := ⟨.hbm, 67, rfl⟩
abbrev main_v35 : Ref sig .tc := ⟨.hbm, 68, rfl⟩
abbrev main_c_5 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_cst_6 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_c_7 : Ref sig .tc := ⟨.hbm, 85, rfl⟩
abbrev main_v50 : Ref sig .tc := ⟨.hbm, 86, rfl⟩
abbrev main_v51 : Ref sig .tc := ⟨.hbm, 87, rfl⟩
abbrev main_c_8 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_cst_9 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_c_10 : Ref sig .tc := ⟨.hbm, 104, rfl⟩
abbrev main_v66 : Ref sig .tc := ⟨.hbm, 105, rfl⟩
abbrev main_v67 : Ref sig .tc := ⟨.hbm, 106, rfl⟩
abbrev main_c_11 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_c_12 : Ref sig .tc := ⟨.hbm, 113, rfl⟩
abbrev main_v73 : Ref sig .tc := ⟨.hbm, 114, rfl⟩
abbrev main_v74 : Ref sig .tc := ⟨.hbm, 115, rfl⟩
abbrev main_c_13 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_call2_cst : Ref sig .tc := ⟨.hbm, 127, rfl⟩
abbrev main_call2_v0 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S_S20000x128 : S_.BroadcastsInDim S20000x128 (![] : Fin 0 → Fin S20000x128.rank)
  bcast_S128_S1x128_1 : S128.BroadcastsInDim S1x128 (![1] : Fin 1 → Fin S1x128.rank)
  bcast_S1x128_S20000x128_0_1 : S1x128.BroadcastsInDim S20000x128 (![0, 1] : Fin 2 → Fin S20000x128.rank)
  bcast_S_S10000x128 : S_.BroadcastsInDim S10000x128 (![] : Fin 0 → Fin S10000x128.rank)
  bcast_S1x128_S10000x128_0_1 : S1x128.BroadcastsInDim S10000x128 (![0, 1] : Fin 2 → Fin S10000x128.rank)
  bcast_S_S500000 : S_.BroadcastsInDim S500000 (![] : Fin 0 → Fin S500000.rank)
  bcast_S500000_S500000x1_0 : S500000.BroadcastsInDim S500000x1 (![0] : Fin 1 → Fin S500000x1.rank)
  concatenates_S500000x128_S500000x128_S500000x256_d1 : Shape.Concatenates [S500000x128, S500000x128] S500000x256 1
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  shapeCasts_S500000x1_S500000 : S500000x1.ShapeCasts S500000
  gather_S10000x128_S1000000x1_S1000000x128_1_0_n_n_0_1_1128_wf : GatherDims.WF S10000x128 S1000000x1 S1000000x128 [1] [0] [] [0] [] 1 ![1, 128]
  scatter_S20000x128_S1000000x1_S1000000x128_1_0_0_1_wf : ScatterDims.WF S20000x128 S1000000x1 S1000000x128 [1] [0] [0] 1
  dot_S20000x128_S128x128_S20000x128_1_0_0_1_n_n_wf : DotDims.WF S20000x128 S128x128 S20000x128 [1] [0] [0] [1] [] []
  gather_S20000x128_S1000000x1_S1000000x128_1_0_n_n_0_1_1128_wf : GatherDims.WF S20000x128 S1000000x1 S1000000x128 [1] [0] [] [0] [] 1 ![1, 128]
  scatter_S10000x128_S1000000x1_S1000000x128_1_0_0_1_wf : ScatterDims.WF S10000x128 S1000000x1 S1000000x128 [1] [0] [0] 1
  dot_S10000x128_S128x128_S10000x128_1_0_0_1_n_n_wf : DotDims.WF S10000x128 S128x128 S10000x128 [1] [0] [0] [1] [] []
  gather_S10000x128_S500000x1_S500000x128_1_0_n_n_0_1_1128_wf : GatherDims.WF S10000x128 S500000x1 S500000x128 [1] [0] [] [0] [] 1 ![1, 128]
  gather_S20000x128_S500000x1_S500000x128_1_0_n_n_0_1_1128_wf : GatherDims.WF S20000x128 S500000x1 S500000x128 [1] [0] [] [0] [] 1 ![1, 128]
  dot_S500000x256_S256x128_S500000x128_1_0_0_1_n_n_wf : DotDims.WF S500000x256 S256x128 S500000x128 [1] [0] [0] [1] [] []
  dot_S500000x128_S128x1_S500000x1_1_0_0_1_n_n_wf : DotDims.WF S500000x128 S128x1 S500000x1 [1] [0] [0] [1] [] []

variable [Facts₀]

def gather_S10000x128_S1000000x1_S1000000x128_1_0_n_n_0_1_1128 : GatherDims S10000x128 S1000000x1 S1000000x128 where
  offsetDims := [1]
  collapsedSliceDims := [0]
  operandBatchingDims := []
  startIndicesBatchingDims := []
  startIndexMap := [0]
  indexVectorDim := 1
  sliceSizes := ![1, 128]
  wf := gather_S10000x128_S1000000x1_S1000000x128_1_0_n_n_0_1_1128_wf
def scatter_S20000x128_S1000000x1_S1000000x128_1_0_0_1 : ScatterDims S20000x128 S1000000x1 S1000000x128 where
  updateWindowDims := [1]
  insertedWindowDims := [0]
  scatterDimsToOperandDims := [0]
  indexVectorDim := 1
  wf := scatter_S20000x128_S1000000x1_S1000000x128_1_0_0_1_wf
def dot_S20000x128_S128x128_S20000x128_1_0_0_1_n_n : DotDims S20000x128 S128x128 S20000x128 where
  lhsContracting := [1]
  rhsContracting := [0]
  lhsNonContracting := [0]
  rhsNonContracting := [1]
  lhsBatch := []
  rhsBatch := []
  wf := dot_S20000x128_S128x128_S20000x128_1_0_0_1_n_n_wf
def gather_S20000x128_S1000000x1_S1000000x128_1_0_n_n_0_1_1128 : GatherDims S20000x128 S1000000x1 S1000000x128 where
  offsetDims := [1]
  collapsedSliceDims := [0]
  operandBatchingDims := []
  startIndicesBatchingDims := []
  startIndexMap := [0]
  indexVectorDim := 1
  sliceSizes := ![1, 128]
  wf := gather_S20000x128_S1000000x1_S1000000x128_1_0_n_n_0_1_1128_wf
def scatter_S10000x128_S1000000x1_S1000000x128_1_0_0_1 : ScatterDims S10000x128 S1000000x1 S1000000x128 where
  updateWindowDims := [1]
  insertedWindowDims := [0]
  scatterDimsToOperandDims := [0]
  indexVectorDim := 1
  wf := scatter_S10000x128_S1000000x1_S1000000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S10000x128_S500000x1_S500000x128_1_0_n_n_0_1_1128 : GatherDims S10000x128 S500000x1 S500000x128 where
  offsetDims := [1]
  collapsedSliceDims := [0]
  operandBatchingDims := []
  startIndicesBatchingDims := []
  startIndexMap := [0]
  indexVectorDim := 1
  sliceSizes := ![1, 128]
  wf := gather_S10000x128_S500000x1_S500000x128_1_0_n_n_0_1_1128_wf
def gather_S20000x128_S500000x1_S500000x128_1_0_n_n_0_1_1128 : GatherDims S20000x128 S500000x1 S500000x128 where
  offsetDims := [1]
  collapsedSliceDims := [0]
  operandBatchingDims := []
  startIndicesBatchingDims := []
  startIndexMap := [0]
  indexVectorDim := 1
  sliceSizes := ![1, 128]
  wf := gather_S20000x128_S500000x1_S500000x128_1_0_n_n_0_1_1128_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def dot_S500000x128_S128x1_S500000x1_1_0_0_1_n_n : DotDims S500000x128 S128x1 S500000x1 where
  lhsContracting := [1]
  rhsContracting := [0]
  lhsNonContracting := [0]
  rhsNonContracting := [1]
  lhsBatch := []
  rhsBatch := []
  wf := dot_S500000x128_S128x1_S500000x1_1_0_0_1_n_n_wf

class Facts : Prop extends Facts₀ where

variable [Facts]
-- ==== Proof.HostK.lean ====
/-
  The host stretches of the idealized kernel program, read from arbitrary buffer contents.

  Before each of its first four kernel regions the program aggregates neighbour features: it wraps negative
  indices, gathers the source rows named by one index vector, and adds each gathered row into the row of a zero
  array named by the other index vector.  The two directions of the graph give two such aggregations, and each is
  used in both layers.  Before the last region it gathers the rows of the two final embeddings named by the label
  index vectors and cuts the decoder's first weight into its upper and lower halves.  Every stretch also recasts a
  bias vector as a one-row matrix.

  Each stretch is read here as a function of whatever its operands hold when it starts, and every buffer a stretch
  does not write is shown to keep its contents through it.  Nothing here looks inside a gather or a scatter-add.
-/
import proofs.«149563_j82532091560585_2_alg».proof.Proof.Gen.KernelIdeal.Frame
import Idealize.ShloMosaic.Lib.StableHlo.Run

set_option maxRecDepth 16384

noncomputable section

namespace Cert.KernelIdeal.HostK

open Cert.KernelIdeal Cert.KernelIdeal.Gen
open Idealize.ShloMosaic Idealize.ShloMosaic.TcCoe Idealize.SL.Sem Idealize.ShloMosaic.StableHlo

variable {F : FTy → Type} [FloatOps F]

/-! ## The aggregations and the label gathers, as the program spells them -/

/-- Index vector of a million entries with negative entries wrapped by n. -/
def wrapE (n : BitVec 32) (ix : (⟨S1000000, .i32⟩ : BufTy).Contents (Elt F)) : (⟨S1000000x1, .i32⟩ : BufTy).Contents (Elt F) :=
  broadcastInDim S1000000x1 ![0] bcast_S1000000_S1000000x1_0
    (select (cmpi .slt ix (broadcastInDim S1000000 ![] bcast_S_S1000000 (constantI S_ 32 0#32)))
      (addi ix (broadcastInDim S1000000 ![] bcast_S_S1000000 (constantI S_ 32 n))) ix)

/-- Index vector of half a million entries with negative entries wrapped by n. -/
def wrapL (n : BitVec 32) (ix : (⟨S500000, .i32⟩ : BufTy).Contents (Elt F)) : (⟨S500000x1, .i32⟩ : BufTy).Contents (Elt F) :=
  broadcastInDim S500000x1 ![0] bcast_S500000_S500000x1_0
    (select (cmpi .slt ix (broadcastInDim S500000 ![] bcast_S_S500000 (constantI S_ 32 0#32)))
      (addi ix (broadcastInDim S500000 ![] bcast_S_S500000 (constantI S_ 32 n))) ix)

/-- Rows of a 10000-row array gathered at row, added into the rows col of a zero 20000-row array. -/
def segP (x : (⟨S10000x128, .f32⟩ : BufTy).Contents (Elt F)) (row col : (⟨S1000000, .i32⟩ : BufTy).Contents (Elt F)) : (⟨S20000x128, .f32⟩ : BufTy).Contents (Elt F) :=
  Host.scatterAdd scatter_S20000x128_S1000000x1_S1000000x128_1_0_0_1
    (broadcastInDim S20000x128 ![] bcast_S_S20000x128 (constant S_ .f32 0x00000000#32))
    (broadcastInDim S1000000x1 ![0] bcast_S1000000_S1000000x1_0 col)
    (Host.gather gather_S10000x128_S1000000x1_S1000000x128_1_0_n_n_0_1_1128 x (wrapE 10000#32 row))

/-- Rows of a 20000-row array gathered at col, added into the rows row of a zero 10000-row array. -/
def segD (x : (⟨S20000x128, .f32⟩ : BufTy).Contents (Elt F)) (row col : (⟨S1000000, .i32⟩ : BufTy).Contents (Elt F)) : (⟨S10000x128, .f32⟩ : BufTy).Contents (Elt F) :=
  Host.scatterAdd scatter_S10000x128_S1000000x1_S1000000x128_1_0_0_1
    (broadcastInDim S10000x128 ![] bcast_S_S10000x128 (constant S_ .f32 0x00000000#32))
    (broadcastInDim S1000000x1 ![0] bcast_S1000000_S1000000x1_0 row)
    (Host.gather gather_S20000x128_S1000000x1_S1000000x128_1_0_n_n_0_1_1128 x (wrapE 20000#32 col))

/-- Rows of a 10000-row array gathered at the first label index vector. -/
def gatD (z : (⟨S10000x128, .f32⟩ : BufTy).Contents (Elt F)) (lrow : (⟨S500000, .i32⟩ : BufTy).Contents (Elt F)) : (⟨S500000x128, .f32⟩ : BufTy).Contents (Elt F) :=
  Host.gather gather_S10000x128_S500000x1_S500000x128_1_0_n_n_0_1_1128 z (wrapL 10000#32 lrow)

/-- Rows of a 20000-row array gathered at the second label index vector. -/
def gatP (z : (⟨S20000x128, .f32⟩ : BufTy).Contents (Elt F)) (lcol : (⟨S500000, .i32⟩ : BufTy).Contents (Elt F)) : (⟨S500000x128, .f32⟩ : BufTy).Contents (Elt F) :=
  Host.gather gather_S20000x128_S500000x1_S500000x128_1_0_n_n_0_1_1128 z (wrapL 20000#32 lcol)

/-! ## Each stretch's results from the contents it starts from -/

section Stretches
variable (W : Valuation τ sig (Elt F))

theorem s0_agg : StableHlo.after (hostOps0 (F := F)) W (Proc.devRef .tc main_v9)
    = segP (W (Proc.devRef .tc main_arg0)) (W (Proc.devRef .tc main_arg2)) (W (Proc.devRef .tc main_arg3)) := by
  after_results_simp <;> rfl
theorem s0_bias : StableHlo.after (hostOps0 (F := F)) W (Proc.devRef .tc main_v10)
    = shapeCast S1x128 (W (Proc.devRef .tc main_arg7)) shapeCasts_S128_S1x128 := by
  after_results_simp <;> rfl

theorem s1_agg : StableHlo.after (hostOps1 (F := F)) W (Proc.devRef .tc main_v21)
    = segD (W (Proc.devRef .tc main_arg1)) (W (Proc.devRef .tc main_arg2)) (W (Proc.devRef .tc main_arg3)) := by
  after_results_simp <;> rfl
theorem s1_bias : StableHlo.after (hostOps1 (F := F)) W (Proc.devRef .tc main_v22)
    = shapeCast S1x128 (W (Proc.devRef .tc main_arg10)) shapeCasts_S128_S1x128 := by
  after_results_simp <;> rfl

theorem s2_agg : StableHlo.after (hostOps2 (F := F)) W (Proc.devRef .tc main_v33)
    = segP (W (Proc.devRef .tc main_v23)) (W (Proc.devRef .tc main_arg2)) (W (Proc.devRef .tc main_arg3)) := by
  after_results_simp <;> rfl
theorem s2_bias : StableHlo.after (hostOps2 (F := F)) W (Proc.devRef .tc main_v34)
    = shapeCast S1x128 (W (Proc.devRef .tc main_arg13)) shapeCasts_S128_S1x128 := by
  after_results_simp <;> rfl

theorem s3_agg : StableHlo.after (hostOps3 (F := F)) W (Proc.devRef .tc main_v45)
    = segD (W (Proc.devRef .tc main_v11)) (W (Proc.devRef .tc main_arg2)) (W (Proc.devRef .tc main_arg3)) := by
  after_results_simp <;> rfl
theorem s3_bias : StableHlo.after (hostOps3 (F := F)) W (Proc.devRef .tc main_v46)
    = shapeCast S1x128 (W (Proc.devRef .tc main_arg16)) shapeCasts_S128_S1x128 := by
  after_results_simp <;> rfl

theorem s4_gatD : StableHlo.after (hostOps4 (F := F)) W (Proc.devRef .tc main_v54)
    = gatD (W (Proc.devRef .tc main_v47)) (W (Proc.devRef .tc main_arg4)) := by
  after_results_simp <;> rfl
theorem s4_gatP : StableHlo.after (hostOps4 (F := F)) W (Proc.devRef .tc main_v61)
    = gatP (W (Proc.devRef .tc main_v35)) (W (Proc.devRef .tc main_arg5)) := by
  after_results_simp <;> rfl
theorem s4_upper : StableHlo.after (hostOps4 (F := F)) W (Proc.devRef .tc main_v62)
    = extractStridedSlice S128x128 ![0, 0] (W (Proc.devRef .tc main_arg18)) slices_S256x128_S128x128_0_0 := by
  after_results_simp <;> rfl
theorem s4_lower : StableHlo.after (hostOps4 (F := F)) W (Proc.devRef .tc main_v63)
    = extractStridedSlice S128x128 ![128, 0] (W (Proc.devRef .tc main_arg18)) slices_S256x128_S128x128_128_0 := by
  after_results_simp <;> rfl
theorem s4_bias1 : StableHlo.after (hostOps4 (F := F)) W (Proc.devRef .tc main_v64)
    = shapeCast S1x128 (W (Proc.devRef .tc main_arg19)) shapeCasts_S128_S1x128 := by
  after_results_simp <;> rfl
theorem s4_bias2 : StableHlo.after (hostOps4 (F := F)) W (Proc.devRef .tc main_v65)
    = shapeCast S1x1 (W (Proc.devRef .tc main_arg21)) shapeCasts_S1_S1x1 := by
  after_results_simp <;> rfl

theorem s5_out : StableHlo.after (hostOps5 (F := F)) W (Proc.devRef .tc main_v67)
    = shapeCast S500000 (W (Proc.devRef .tc main_v66)) shapeCasts_S500000x1_S500000 := by
  after_results_simp <;> rfl

end Stretches

/-! ## What a stretch does not write, it keeps -/

/-- The references stretch 0 writes. -/
def wr0 : List (Ref sig .tc) := [main_c, main_v0, main_v1, main_c_0, main_v2, main_v3, main_v4, main_v5, main_v6, main_cst, main_v7, main_v8, main_v9, main_v10]

/-- A buffer stretch 0 does not write keeps its contents through it, from any contents. -/
theorem keep0 (W : Valuation τ sig (Elt F)) (b : Ref sig .tc) (hb : ∀ r ∈ wr0, b ≠ r) :
    StableHlo.after (hostOps0 (F := F)) W (Proc.devRef .tc b) = W (Proc.devRef .tc b) :=
  StableHlo.after_of_forall_not_mem (b := Proc.devRef .tc b) _ _ (List.forall_iff_forall_mem.mp (by
    simp only [hostOps0, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The references stretch 1 writes. -/
def wr1 : List (Ref sig .tc) := [main_c_1, main_v12, main_v13, main_c_2, main_v14, main_v15, main_v16, main_v17, main_v18, main_cst_3, main_v19, main_v20, main_v21, main_v22]

/-- A buffer stretch 1 does not write keeps its contents through it, from any contents. -/
theorem keep1 (W : Valuation τ sig (Elt F)) (b : Ref sig .tc) (hb : ∀ r ∈ wr1, b ≠ r) :
    StableHlo.after (hostOps1 (F := F)) W (Proc.devRef .tc b) = W (Proc.devRef .tc b) :=
  StableHlo.after_of_forall_not_mem (b := Proc.devRef .tc b) _ _ (List.forall_iff_forall_mem.mp (by
    simp only [hostOps1, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The references stretch 2 writes. -/
def wr2 : List (Ref sig .tc) := [main_c_4, main_v24, main_v25, main_c_5, main_v26, main_v27, main_v28, main_v29, main_v30, main_cst_6, main_v31, main_v32, main_v33, main_v34]

/-- A buffer stretch 2 does not write keeps its contents through it, from any contents. -/
theorem keep2 (W : Valuation τ sig (Elt F)) (b : Ref sig .tc) (hb : ∀ r ∈ wr2, b ≠ r) :
    StableHlo.after (hostOps2 (F := F)) W (Proc.devRef .tc b) = W (Proc.devRef .tc b) :=
  StableHlo.after_of_forall_not_mem (b := Proc.devRef .tc b) _ _ (List.forall_iff_forall_mem.mp (by
    simp only [hostOps2, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The references stretch 3 writes. -/
def wr3 : List (Ref sig .tc) := [main_c_7, main_v36, main_v37, main_c_8, main_v38, main_v39, main_v40, main_v41, main_v42, main_cst_9, main_v43, main_v44, main_v45, main_v46]

/-- A buffer stretch 3 does not write keeps its contents through it, from any contents. -/
theorem keep3 (W : Valuation τ sig (Elt F)) (b : Ref sig .tc) (hb : ∀ r ∈ wr3, b ≠ r) :
    StableHlo.after (hostOps3 (F := F)) W (Proc.devRef .tc b) = W (Proc.devRef .tc b) :=
  StableHlo.after_of_forall_not_mem (b := Proc.devRef .tc b) _ _ (List.forall_iff_forall_mem.mp (by
    simp only [hostOps3, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The references stretch 4 writes. -/
def wr4 : List (Ref sig .tc) := [main_c_10, main_v48, main_v49, main_c_11, main_v50, main_v51, main_v52, main_v53, main_v54, main_c_12, main_v55, main_v56, main_c_13, main_v57, main_v58, main_v59, main_v60, main_v61, main_v62, main_v63, main_v64, main_v65]

/-- A buffer stretch 4 does not write keeps its contents through it, from any contents. -/
theorem keep4 (W : Valuation τ sig (Elt F)) (b : Ref sig .tc) (hb : ∀ r ∈ wr4, b ≠ r) :
    StableHlo.after (hostOps4 (F := F)) W (Proc.devRef .tc b) = W (Proc.devRef .tc b) :=
  StableHlo.after_of_forall_not_mem (b := Proc.devRef .tc b) _ _ (List.forall_iff_forall_mem.mp (by
    simp only [hostOps4, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (hb _ (by decide))))

/-- The references stretch 5 writes. -/
def wr5 : List (Ref sig .tc) := [main_v67]

/-- A buffer stretch 5 does not write keeps its contents through it, from any contents. -/
theorem keep5 (W : Valuation τ sig (Elt F)) (b : Ref sig .tc) (hb : ∀ r ∈ wr5, b ≠ r) :
    StableHlo.after (hostOps5 (F := F)) W (Proc.devRef .tc b) = W (Proc.devRef .tc b) :=
  StableHlo.after_of_forall_not_mem (b := Proc.devRef .tc b) _ _ (List.forall_iff_forall_mem.mp (by
    simp only [hostOps5, List.Forall, StableHlo.nullary_writes, StableHlo.unary_writes, StableHlo.binary_writes, StableHlo.ternary_writes, StableHlo.quaternary_writes, StableHlo.reshape_writes, StableHlo.binaryIndexed_writes, Finset.mem_singleton]
    exact StableHlo.devRef_ne_of_ne (hb _ (by decide))))

end Cert.KernelIdeal.HostK

end
-- ==== Proof.KeepK.lean ====
/-
  What the regions and the stretches of the idealized kernel program leave alone.

  A region writes back only its output window's array; its input arrays are read through their windows and end
  as they were found, and no other buffer is touched.  With the stretches' own "unchanged" facts this carries the
  program's arguments, unchanged, to every boundary between its segments.
-/
import proofs.«149563_j82532091560585_2_alg».proof.Proof.HostK

set_option maxRecDepth 16384

noncomputable section

namespace Cert.KernelIdeal.KeepK

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Region 0 changes its output array only: an input array is read through its window and never written back,
    and a buffer that is none of the region's arrays is not touched. -/
theorem keepR0 (c : Dev nD) (b : Ref sig .tc) (hb : b ≠ main_v11) :
    W2 m ρ c (Proc.devRef .tc b) = W1 m ρ c (Proc.devRef .tc b) := by
  by_cases h : ∃ w : Fin cfg0.W, Pipeline.arrRef spec0 w = b
  · obtain ⟨w, rfl⟩ := h
    have key : ∀ w : Fin 6, Pipeline.arrRef spec0 w ≠ main_v11 →
        W2 m ρ c (Proc.devRef .tc (Pipeline.arrRef spec0 w)) = W1 m ρ c (Proc.devRef .tc (Pipeline.arrRef spec0 w)) := fun
      | 0 => fun _ => (W2_arr m ρ c 0).trans (((dat0 (V1 m ρ) c).arrAt_in 0 rfl _).trans (A_eq0 (V1 m ρ) c 0))
      | 1 => fun _ => (W2_arr m ρ c 1).trans (((dat0 (V1 m ρ) c).arrAt_in 1 rfl _).trans (A_eq0 (V1 m ρ) c 1))
      | 2 => fun _ => (W2_arr m ρ c 2).trans (((dat0 (V1 m ρ) c).arrAt_in 2 rfl _).trans (A_eq0 (V1 m ρ) c 2))
      | 3 => fun _ => (W2_arr m ρ c 3).trans (((dat0 (V1 m ρ) c).arrAt_in 3 rfl _).trans (A_eq0 (V1 m ρ) c 3))
      | 4 => fun _ => (W2_arr m ρ c 4).trans (((dat0 (V1 m ρ) c).arrAt_in 4 rfl _).trans (A_eq0 (V1 m ρ) c 4))
      | 5 => fun h => absurd rfl h
    exact key w hb
  · exact W2_of_ne m ρ c b (fun w e => h ⟨w, e⟩)

/-- Region 1 changes its output array only: an input array is read through its window and never written back,
    and a buffer that is none of the region's arrays is not touched. -/
theorem keepR1 (c : Dev nD) (b : Ref sig .tc) (hb : b ≠ main_v23) :
    W4 m ρ c (Proc.devRef .tc b) = W3 m ρ c (Proc.devRef .tc b) := by
  by_cases h : ∃ w : Fin cfg1.W, Pipeline.arrRef spec1 w = b
  · obtain ⟨w, rfl⟩ := h
    have key : ∀ w : Fin 6, Pipeline.arrRef spec1 w ≠ main_v23 →
        W4 m ρ c (Proc.devRef .tc (Pipeline.arrRef spec1 w)) = W3 m ρ c (Proc.devRef .tc (Pipeline.arrRef spec1 w)) := fun
      | 0 => fun _ => (W4_arr m ρ c 0).trans (((dat1 (V3 m ρ) c).arrAt_in 0 rfl _).trans (A_eq1 (V3 m ρ) c 0))
      | 1 => fun _ => (W4_arr m ρ c 1).trans (((dat1 (V3 m ρ) c).arrAt_in 1 rfl _).trans (A_eq1 (V3 m ρ) c 1))
      | 2 => fun _ => (W4_arr m ρ c 2).trans (((dat1 (V3 m ρ) c).arrAt_in 2 rfl _).trans (A_eq1 (V3 m ρ) c 2))
      | 3 => fun _ => (W4_arr m ρ c 3).trans (((dat1 (V3 m ρ) c).arrAt_in 3 rfl _).trans (A_eq1 (V3 m ρ) c 3))
      | 4 => fun _ => (W4_arr m ρ c 4).trans (((dat1 (V3 m ρ) c).arrAt_in 4 rfl _).trans (A_eq1 (V3 m ρ) c 4))
      | 5 => fun h => absurd rfl h
    exact key w hb
  · exact W4_of_ne m ρ c b (fun w e => h ⟨w, e⟩)

/-- Region 2 changes its output array only: an input array is read through its window and never written back,
    and a buffer that is none of the region's arrays is not touched. -/
theorem keepR2 (c : Dev nD) (b : Ref sig .tc) (hb : b ≠ main_v35) :
    W6 m ρ c (Proc.devRef .tc b) = W5 m ρ c (Proc.devRef .tc b) := by
  by_cases h : ∃ w : Fin cfg2.W, Pipeline.arrRef spec2 w = b
  · obtain ⟨w, rfl⟩ := h
    have key : ∀ w : Fin 6, Pipeline.arrRef spec2 w ≠ main_v35 →
        W6 m ρ c (Proc.devRef .tc (Pipeline.arrRef spec2 w)) = W5 m ρ c (Proc.devRef .tc (Pipeline.arrRef spec2 w)) := fun
      | 0 => fun _ => (W6_arr m ρ c 0).trans (((dat2 (V5 m ρ) c).arrAt_in 0 rfl _).trans (A_eq2 (V5 m ρ) c 0))
      | 1 => fun _ => (W6_arr m ρ c 1).trans (((dat2 (V5 m ρ) c).arrAt_in 1 rfl _).trans (A_eq2 (V5 m ρ) c 1))
      | 2 => fun _ => (W6_arr m ρ c 2).trans (((dat2 (V5 m ρ) c).arrAt_in 2 rfl _).trans (A_eq2 (V5 m ρ) c 2))
      | 3 => fun _ => (W6_arr m ρ c 3).trans (((dat2 (V5 m ρ) c).arrAt_in 3 rfl _).trans (A_eq2 (V5 m ρ) c 3))
      | 4 => fun _ => (W6_arr m ρ c 4).trans (((dat2 (V5 m ρ) c).arrAt_in 4 rfl _).trans (A_eq2 (V5 m ρ) c 4))
      | 5 => fun h => absurd rfl h
    exact key w hb
  · exact W6_of_ne m ρ c b (fun w e => h ⟨w, e⟩)

/-- Region 3 changes its output array only: an input array is read through its window and never written back,
    and a buffer that is none of the region's arrays is not touched. -/
theorem keepR3 (c : Dev nD) (b : Ref sig .tc) (hb : b ≠ main_v47) :
    W8 m ρ c (Proc.devRef .tc b) = W7 m ρ c (Proc.devRef .tc b) := by
  by_cases h : ∃ w : Fin cfg3.W, Pipeline.arrRef spec3 w = b
  · obtain ⟨w, rfl⟩ := h
    have key : ∀ w : Fin 6, Pipeline.arrRef spec3 w ≠ main_v47 →
        W8 m ρ c (Proc.devRef .tc (Pipeline.arrRef spec3 w)) = W7 m ρ c (Proc.devRef .tc (Pipeline.arrRef spec3 w)) := fun
      | 0 => fun _ => (W8_arr m ρ c 0).trans (((dat3 (V7 m ρ) c).arrAt_in 0 rfl _).trans (A_eq3 (V7 m ρ) c 0))
      | 1 => fun _ => (W8_arr m ρ c 1).trans (((dat3 (V7 m ρ) c).arrAt_in 1 rfl _).trans (A_eq3 (V7 m ρ) c 1))
      | 2 => fun _ => (W8_arr m ρ c 2).trans (((dat3 (V7 m ρ) c).arrAt_in 2 rfl _).trans (A_eq3 (V7 m ρ) c 2))
      | 3 => fun _ => (W8_arr m ρ c 3).trans (((dat3 (V7 m ρ) c).arrAt_in 3 rfl _).trans (A_eq3 (V7 m ρ) c 3))
      | 4 => fun _ => (W8_arr m ρ c 4).trans (((dat3 (V7 m ρ) c).arrAt_in 4 rfl _).trans (A_eq3 (V7 m ρ) c 4))
      | 5 => fun h => absurd rfl h
    exact key w hb
  · exact W8_of_ne m ρ c b (fun w e => h ⟨w, e⟩)

/-- Region 4 changes its output array only: an input array is read through its window and never written back,
    and a buffer that is none of the region's arrays is not touched. -/
theorem keepR4 (c : Dev nD) (b : Ref sig .tc) (hb : b ≠ main_v66) :
    W10 m ρ c (Proc.devRef .tc b) = W9 m ρ c (Proc.devRef .tc b) := by
  by_cases h : ∃ w : Fin cfg4.W, Pipeline.arrRef spec4 w = b
  · obtain ⟨w, rfl⟩ := h
    have key : ∀ w : Fin 8, Pipeline.arrRef spec4 w ≠ main_v66 →
        W10 m ρ c (Proc.devRef .tc (Pipeline.arrRef spec4 w)) = W9 m ρ c (Proc.devRef .tc (Pipeline.arrRef spec4 w)) := fun
      | 0 => fun _ => (W10_arr m ρ c 0).trans (((dat4 (V9 m ρ) c).arrAt_in 0 rfl _).trans (A_eq4 (V9 m ρ) c 0))
      | 1 => fun _ => (W10_arr m ρ c 1).trans (((dat4 (V9 m ρ) c).arrAt_in 1 rfl _).trans (A_eq4 (V9 m ρ) c 1))
      | 2 => fun _ => (W10_arr m ρ c 2).trans (((dat4 (V9 m ρ) c).arrAt_in 2 rfl _).trans (A_eq4 (V9 m ρ) c 2))
      | 3 => fun _ => (W10_arr m ρ c 3).trans (((dat4 (V9 m ρ) c).arrAt_in 3 rfl _).trans (A_eq4 (V9 m ρ) c 3))
      | 4 => fun _ => (W10_arr m ρ c 4).trans (((dat4 (V9 m ρ) c).arrAt_in 4 rfl _).trans (A_eq4 (V9 m ρ) c 4))
      | 5 => fun _ => (W10_arr m ρ c 5).trans (((dat4 (V9 m ρ) c).arrAt_in 5 rfl _).trans (A_eq4 (V9 m ρ) c 5))
      | 6 => fun _ => (W10_arr m ρ c 6).trans (((dat4 (V9 m ρ) c).arrAt_in 6 rfl _).trans (A_eq4 (V9 m ρ) c 6))
      | 7 => fun h => absurd rfl h
    exact key w hb
  · exact W10_of_ne m ρ c b (fun w e => h ⟨w, e⟩)

/-- The program's arguments. -/
def args : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

theorem args_not_written : ∀ b ∈ args, (∀ r ∈ HostK.wr0, b ≠ r) ∧ (∀ r ∈ HostK.wr1, b ≠ r) ∧ (∀ r ∈ HostK.wr2, b ≠ r)
    ∧ (∀ r ∈ HostK.wr3, b ≠ r) ∧ (∀ r ∈ HostK.wr4, b ≠ r) ∧ (∀ r ∈ HostK.wr5, b ≠ r)
    ∧ b ≠ main_v11 ∧ b ≠ main_v23 ∧ b ≠ main_v35 ∧ b ≠ main_v47 ∧ b ≠ main_v66 := by decide

/-- An argument holds its launch contents at every boundary of the program: no stretch and no region writes it. -/
theorem args_W1 (c : Dev nD) (b : Ref sig .tc) (hb : b ∈ args) : W1 m ρ c (Proc.devRef .tc b) = m ((c : Thread nD τ).loc b) :=
  (HostK.keep0 _ b (args_not_written b hb).1).trans rfl
theorem args_W2 (c : Dev nD) (b : Ref sig .tc) (hb : b ∈ args) : W2 m ρ c (Proc.devRef .tc b) = m ((c : Thread nD τ).loc b) :=
  (keepR0 m ρ c b (args_not_written b hb).2.2.2.2.2.2.1).trans (args_W1 m ρ c b hb)
theorem args_W3 (c : Dev nD) (b : Ref sig .tc) (hb : b ∈ args) : W3 m ρ c (Proc.devRef .tc b) = m ((c : Thread nD τ).loc b) :=
  (HostK.keep1 _ b (args_not_written b hb).2.1).trans (args_W2 m ρ c b hb)
theorem args_W4 (c : Dev nD) (b : Ref sig .tc) (hb : b ∈ args) : W4 m ρ c (Proc.devRef .tc b) = m ((c : Thread nD τ).loc b) :=
  (keepR1 m ρ c b (args_not_written b hb).2.2.2.2.2.2.2.1).trans (args_W3 m ρ c b hb)
theorem args_W5 (c : Dev nD) (b : Ref sig .tc) (hb : b ∈ args) : W5 m ρ c (Proc.devRef .tc b) = m ((c : Thread nD τ).loc b) :=
  (HostK.keep2 _ b (args_not_written b hb).2.2.1).trans (args_W4 m ρ c b hb)
theorem args_W6 (c : Dev nD) (b : Ref sig .tc) (hb : b ∈ args) : W6 m ρ c (Proc.devRef .tc b) = m ((c : Thread nD τ).loc b) :=
  (keepR2 m ρ c b (args_not_written b hb).2.2.2.2.2.2.2.2.1).trans (args_W5 m ρ c b hb)
theorem args_W7 (c : Dev nD) (b : Ref sig .tc) (hb : b ∈ args) : W7 m ρ c (Proc.devRef .tc b) = m ((c : Thread nD τ).loc b) :=
  (HostK.keep3 _ b (args_not_written b hb).2.2.2.1).trans (args_W6 m ρ c b hb)
theorem args_W8 (c : Dev nD) (b : Ref sig .tc) (hb : b ∈ args) : W8 m ρ c (Proc.devRef .tc b) = m ((c : Thread nD τ).loc b) :=
  (keepR3 m ρ c b (args_not_written b hb).2.2.2.2.2.2.2.2.2.1).trans (args_W7 m ρ c b hb)
theorem args_W9 (c : Dev nD) (b : Ref sig .tc) (hb : b ∈ args) : W9 m ρ c (Proc.devRef .tc b) = m ((c : Thread nD τ).loc b) :=
  (HostK.keep4 _ b (args_not_written b hb).2.2.2.2.1).trans (args_W8 m ρ c b hb)
theorem args_W10 (c : Dev nD) (b : Ref sig .tc) (hb : b ∈ args) : W10 m ρ c (Proc.devRef .tc b) = m ((c : Thread nD τ).loc b) :=
  (keepR4 m ρ c b (args_not_written b hb).2.2.2.2.2.2.2.2.2.2).trans (args_W9 m ρ c b hb)
theorem args_W11 (c : Dev nD) (b : Ref sig .tc) (hb : b ∈ args) : W11 m ρ c (Proc.devRef .tc b) = m ((c : Thread nD τ).loc b) :=
  (HostK.keep5 _ b (args_not_written b hb).2.2.2.2.2.1).trans (args_W10 m ρ c b hb)

end Cert.KernelIdeal.KeepK

end
-- ==== Proof.Spec.lean ====
/-
  The dense steps of the network as functions of arrays, entry by entry, on the extended reals.

  A combine step takes an aggregated neighbour array A and the destination features X, both n x 128, two
  128 x 128 weights and a bias, and gives at (p, q)
      (sum_k A(p,k) Wl(k,q) + sum_k X(p,k) Wr(k,q)) + b(q),
  optionally followed by the maximum with zero.  The decoder takes two gathered L x 128 arrays, a 256 x 128
  weight whose upper half multiplies the first and whose lower half the second, a bias, the maximum with zero,
  a 128 x 1 weight and a scalar bias.  The aggregation itself (gather, then scatter-add) never appears here:
  both programs compute it by the same host operations, so it is an argument.

  Two rearrangements of sums join the two programs, and neither needs finiteness: the bias may be added
  before or after the second product (addition on the extended reals is commutative and associative), and a sum
  over 256 terms is the sum of its first 128 and its last 128.
-/
import Idealize.ShloMosaic.PureOps.Ideal.Laws
import Idealize.ShloMosaic.Lib.ValueIdx

noncomputable section

namespace Cert.Spec

open Idealize.ShloMosaic Idealize.ShloMosaic.ValueIdx

/-- The value of the zero word. -/
abbrev zero32 : Ideal .f32 := Ideal.ofBits .f32 0x00000000#32

/-- Row k of the upper half of a 256-row matrix. -/
abbrev lo (k : Fin 128) : Fin 256 := ⟨k.val, by omega⟩
/-- Row k of the lower half of a 256-row matrix. -/
abbrev hi (k : Fin 128) : Fin 256 := ⟨k.val + 128, by omega⟩

/-- One entry of a combine step: the two products first, then the bias. -/
def comb {n : ℕ} (A X : (⟨2, ![n, 128]⟩ : Shape).Idx → Ideal .f32) (Wl Wr : (⟨2, ![128, 128]⟩ : Shape).Idx → Ideal .f32)
    (b : (⟨1, ![128]⟩ : Shape).Idx → Ideal .f32) (p : Fin n) (q : Fin 128) : Ideal .f32 :=
  ((∑ k : Fin 128, A (ix2 p k) * Wl (ix2 k q)) + ∑ k : Fin 128, X (ix2 p k) * Wr (ix2 k q)) + b (ix1 q)

/-- Adding the bias between the two products gives the same entry. -/
theorem comb_bias_between {n : ℕ} (A X : (⟨2, ![n, 128]⟩ : Shape).Idx → Ideal .f32)
    (Wl Wr : (⟨2, ![128, 128]⟩ : Shape).Idx → Ideal .f32) (b : (⟨1, ![128]⟩ : Shape).Idx → Ideal .f32) (p : Fin n) (q : Fin 128) :
    ((∑ k : Fin 128, A (ix2 p k) * Wl (ix2 k q)) + b (ix1 q)) + ∑ k : Fin 128, X (ix2 p k) * Wr (ix2 k q)
      = comb A X Wl Wr b p q :=
  add_right_comm _ _ _

/-- A combine step without the maximum, as an array. -/
def combArr {n : ℕ} (A X : (⟨2, ![n, 128]⟩ : Shape).Idx → Ideal .f32) (Wl Wr : (⟨2, ![128, 128]⟩ : Shape).Idx → Ideal .f32)
    (b : (⟨1, ![128]⟩ : Shape).Idx → Ideal .f32) : (⟨2, ![n, 128]⟩ : Shape).Idx → Ideal .f32 :=
  fun j => comb A X Wl Wr b (j 0) (j 1)

/-- A combine step followed by the maximum with zero, as an array. -/
def combReluArr {n : ℕ} (A X : (⟨2, ![n, 128]⟩ : Shape).Idx → Ideal .f32) (Wl Wr : (⟨2, ![128, 128]⟩ : Shape).Idx → Ideal .f32)
    (b : (⟨1, ![128]⟩ : Shape).Idx → Ideal .f32) : (⟨2, ![n, 128]⟩ : Shape).Idx → Ideal .f32 :=
  fun j => max (comb A X Wl Wr b (j 0) (j 1)) zero32

/-- One hidden unit of the decoder: the first array against the upper half of the weight, the second against the
    lower half, the bias, the maximum with zero. -/
def hid {L : ℕ} (Zd Zp : (⟨2, ![L, 128]⟩ : Shape).Idx → Ideal .f32) (Wd : (⟨2, ![256, 128]⟩ : Shape).Idx → Ideal .f32)
    (b1 : (⟨1, ![128]⟩ : Shape).Idx → Ideal .f32) (p : Fin L) (k : Fin 128) : Ideal .f32 :=
  max (((∑ j : Fin 128, Zd (ix2 p j) * Wd (ix2 (lo j) k)) + ∑ j : Fin 128, Zp (ix2 p j) * Wd (ix2 (hi j) k)) + b1 (ix1 k)) zero32

/-- One output of the decoder. -/
def dec {L : ℕ} (Zd Zp : (⟨2, ![L, 128]⟩ : Shape).Idx → Ideal .f32) (Wd : (⟨2, ![256, 128]⟩ : Shape).Idx → Ideal .f32)
    (b1 : (⟨1, ![128]⟩ : Shape).Idx → Ideal .f32) (W2 : (⟨2, ![128, 1]⟩ : Shape).Idx → Ideal .f32)
    (b2 : (⟨1, ![1]⟩ : Shape).Idx → Ideal .f32) (p : Fin L) : Ideal .f32 :=
  (∑ k : Fin 128, hid Zd Zp Wd b1 p k * W2 (ix2 k 0)) + b2 (ix1 0)

/-- The decoder's outputs as a vector. -/
def decArr {L : ℕ} (Zd Zp : (⟨2, ![L, 128]⟩ : Shape).Idx → Ideal .f32) (Wd : (⟨2, ![256, 128]⟩ : Shape).Idx → Ideal .f32)
    (b1 : (⟨1, ![128]⟩ : Shape).Idx → Ideal .f32) (W2 : (⟨2, ![128, 1]⟩ : Shape).Idx → Ideal .f32)
    (b2 : (⟨1, ![1]⟩ : Shape).Idx → Ideal .f32) : (⟨1, ![L]⟩ : Shape).Idx → Ideal .f32 :=
  fun j => dec Zd Zp Wd b1 W2 b2 (j 0)

/-- A sum over 256 terms is the sum of its first 128 and its last 128, in any additive commutative monoid. -/
theorem sum_halves {M : Type} [AddCommMonoid M] (f : Fin 256 → M) :
    ∑ k : Fin 256, f k = (∑ j : Fin 128, f (lo j)) + ∑ j : Fin 128, f (hi j) := by
  have h := Fin.sum_univ_add (M := M) (a := 128) (b := 128) (fun i : Fin (128 + 128) => f ⟨i.val, by omega⟩)
  refine h.trans ?_
  refine congrArg₂ (· + ·) (Finset.sum_congr rfl fun j _ => ?_) (Finset.sum_congr rfl fun j _ => ?_)
  · exact congrArg f (Fin.ext rfl)
  · exact congrArg f (Fin.ext (by show 128 + j.val = j.val + 128; omega))

end Cert.Spec

end
-- ==== Proof.NetK.lean ====
/-
  The network as functions of the argument arrays, with the aggregations as the kernel program spells them.

      h_prot = max(comb(agg_P x_drug, x_prot), 0)      h_drug = max(comb(agg_D x_prot, x_drug), 0)
      z_prot = comb(agg_P h_drug, h_prot)              z_drug = comb(agg_D h_prot, h_drug)
      out    = dec(gather z_drug at the first label indices, gather z_prot at the second)
-/
import proofs.«149563_j82532091560585_2_alg».proof.Proof.HostK
import proofs.«149563_j82532091560585_2_alg».proof.Proof.Spec

noncomputable section

namespace Cert.KernelIdeal.NetK

open Cert.KernelIdeal
open Idealize.ShloMosaic Idealize.ShloMosaic.TcCoe Idealize.ShloMosaic.ValueIdx

def hprot (x0 : (⟨S10000x128, .f32⟩ : BufTy).Contents (Elt Ideal)) (x1 : (⟨S20000x128, .f32⟩ : BufTy).Contents (Elt Ideal)) (x2 x3 : (⟨S1000000, .i32⟩ : BufTy).Contents (Elt Ideal))
    (x6 : (⟨S128x128, .f32⟩ : BufTy).Contents (Elt Ideal)) (x7 : (⟨S128, .f32⟩ : BufTy).Contents (Elt Ideal)) (x8 : (⟨S128x128, .f32⟩ : BufTy).Contents (Elt Ideal)) : (⟨S20000x128, .f32⟩ : BufTy).Contents (Elt Ideal) :=
  Cert.Spec.combReluArr (n := 20000) (HostK.segP x0 x2 x3) x1 x6 x8 x7

def hdrug (x0 : (⟨S10000x128, .f32⟩ : BufTy).Contents (Elt Ideal)) (x1 : (⟨S20000x128, .f32⟩ : BufTy).Contents (Elt Ideal)) (x2 x3 : (⟨S1000000, .i32⟩ : BufTy).Contents (Elt Ideal))
    (x9 : (⟨S128x128, .f32⟩ : BufTy).Contents (Elt Ideal)) (x10 : (⟨S128, .f32⟩ : BufTy).Contents (Elt Ideal)) (x11 : (⟨S128x128, .f32⟩ : BufTy).Contents (Elt Ideal)) : (⟨S10000x128, .f32⟩ : BufTy).Contents (Elt Ideal) :=
  Cert.Spec.combReluArr (n := 10000) (HostK.segD x1 x2 x3) x0 x9 x11 x10

def zprot (hd : (⟨S10000x128, .f32⟩ : BufTy).Contents (Elt Ideal)) (hp : (⟨S20000x128, .f32⟩ : BufTy).Contents (Elt Ideal)) (x2 x3 : (⟨S1000000, .i32⟩ : BufTy).Contents (Elt Ideal))
    (x12 : (⟨S128x128, .f32⟩ : BufTy).Contents (Elt Ideal)) (x13 : (⟨S128, .f32⟩ : BufTy).Contents (Elt Ideal)) (x14 : (⟨S128x128, .f32⟩ : BufTy).Contents (Elt Ideal)) : (⟨S20000x128, .f32⟩ : BufTy).Contents (Elt Ideal) :=
  Cert.Spec.combArr (n := 20000) (HostK.segP hd x2 x3) hp x12 x14 x13

def zdrug (hd : (⟨S10000x128, .f32⟩ : BufTy).Contents (Elt Ideal)) (hp : (⟨S20000x128, .f32⟩ : BufTy).Contents (Elt Ideal)) (x2 x3 : (⟨S1000000, .i32⟩ : BufTy).Contents (Elt Ideal))
    (x15 : (⟨S128x128, .f32⟩ : BufTy).Contents (Elt Ideal)) (x16 : (⟨S128, .f32⟩ : BufTy).Contents (Elt Ideal)) (x17 : (⟨S128x128, .f32⟩ : BufTy).Contents (Elt Ideal)) : (⟨S10000x128, .f32⟩ : BufTy).Contents (Elt Ideal) :=
  Cert.Spec.combArr (n := 10000) (HostK.segD hp x2 x3) hd x15 x17 x16

def out (zd : (⟨S10000x128, .f32⟩ : BufTy).Contents (Elt Ideal)) (zp : (⟨S20000x128, .f32⟩ : BufTy).Contents (Elt Ideal)) (x4 x5 : (⟨S500000, .i32⟩ : BufTy).Contents (Elt Ideal))
    (x18 : (⟨S256x128, .f32⟩ : BufTy).Contents (Elt Ideal)) (x19 : (⟨S128, .f32⟩ : BufTy).Contents (Elt Ideal)) (x20 : (⟨S128x1, .f32⟩ : BufTy).Contents (Elt Ideal)) (x21 : (⟨S1, .f32⟩ : BufTy).Contents (Elt Ideal)) : (⟨S500000, .f32⟩ : BufTy).Contents (Elt Ideal) :=
  Cert.Spec.decArr (L := 500000) (HostK.gatD zd x4) (HostK.gatP zp x5) x18 x19 x20 x21

end Cert.KernelIdeal.NetK

end
-- ==== Proof.LibMatmulPlain.lean ====
/-
  A matrix product into a zero accumulator, read at an entry, on the extended reals.

  For the plain dimension numbers (contract the left operand's axis 1 with the right operand's axis 0, no batch
  axes: an M x K matrix times a K x N matrix), the entry (p, q) of the product accumulated into the zero matrix is
  the sum over k of left (p, k) times right (k, q).  No program is imported: the dimension record is a variable,
  constrained only by its six lists.
-/
import Idealize.ShloMosaic.PureOps.Ideal.Laws
import Idealize.ShloMosaic.Lib.ValueIdx

noncomputable section

namespace Cert.LibMatmulPlain

open Idealize.ShloMosaic Idealize.ShloMosaic.ValueIdx

/-- Entry (p, q) of an M x K by K x N product into the zero accumulator is the sum over the contracted axis. -/
theorem matmul_zero_apply {M K N : ℕ} {φ₁ φ₂ : FTy}
    (D : DotDims ⟨2, ![M, K]⟩ ⟨2, ![K, N]⟩ ⟨2, ![M, N]⟩)
    (h1 : D.lhsContracting = [1]) (h2 : D.rhsContracting = [0])
    (h3 : D.lhsNonContracting = [0]) (h4 : D.rhsNonContracting = [1])
    (h5 : D.lhsBatch = []) (h6 : D.rhsBatch = [])
    (l : FVec Ideal ⟨2, ![M, K]⟩ φ₁) (r : FVec Ideal ⟨2, ![K, N]⟩ φ₂) (p : Fin M) (q : Fin N) :
    matmul D none l r (constant (F := Ideal) ⟨2, ![M, N]⟩ .f32 0x00000000#32) (ix2 p q)
      = ∑ k : Fin K, l (ix2 p k) * r (ix2 k q) := by
  obtain ⟨lc, rc, ln, rn, lb, rb, wf⟩ := D
  dsimp only at h1 h2 h3 h4 h5 h6
  subst h1 h2 h3 h4 h5 h6
  refine (Ideal.matmul_constant_zero_apply _ none l r (ix2 p q)).trans ?_
  rw [← Equiv.sum_comp (contrEquiv1 _ K rfl rfl).symm]
  refine Finset.sum_congr rfl fun k _ => ?_
  have hk := contrEquiv1_symm_val (DotDims.mk (sl := ⟨2, ![M, K]⟩) (sr := ⟨2, ![K, N]⟩) (so := ⟨2, ![M, N]⟩) [1] [0] [0] [1] [] [] wf) K rfl rfl k
  have el : (DotDims.mk (sl := ⟨2, ![M, K]⟩) (sr := ⟨2, ![K, N]⟩) (so := ⟨2, ![M, N]⟩) [1] [0] [0] [1] [] [] wf).lhsIdx (ix2 p q)
      ((contrEquiv1 _ K rfl rfl).symm k) = ix2 p k := funext fun a => Fin.ext (by
    match a with
    | ⟨0, _⟩ =>
      unfold DotDims.lhsIdx
      rw [dif_neg (show ¬ (⟨0, by decide⟩ : Fin 2) ∈ ([] : List (Fin 2)) from List.not_mem_nil),
        dif_pos (show (⟨0, by decide⟩ : Fin 2) ∈ ([0] : List (Fin 2)) from List.mem_singleton.2 rfl)]
      rfl
    | ⟨1, _⟩ => exact (DotDims.lhsIdx_val_of_single _ rfl _ _).trans hk)
  have er : (DotDims.mk (sl := ⟨2, ![M, K]⟩) (sr := ⟨2, ![K, N]⟩) (so := ⟨2, ![M, N]⟩) [1] [0] [0] [1] [] [] wf).rhsIdx (ix2 p q)
      ((contrEquiv1 _ K rfl rfl).symm k) = ix2 k q := funext fun a => Fin.ext (by
    match a with
    | ⟨0, _⟩ => exact (DotDims.rhsIdx_val_of_single _ rfl _ _).trans hk
    | ⟨1, _⟩ =>
      unfold DotDims.rhsIdx
      rw [dif_neg (show ¬ (⟨1, by decide⟩ : Fin 2) ∈ ([] : List (Fin 2)) from List.not_mem_nil),
        dif_pos (show (⟨1, by decide⟩ : Fin 2) ∈ ([1] : List (Fin 2)) from List.mem_singleton.2 rfl)]
      rfl)
  rw [el, er]

end Cert.LibMatmulPlain

end
-- ==== Proof.Region0.lean ====
/-
  Region 0: a combine step followed by the maximum with zero, as one function of whole arrays.

  The region walks the 20000 rows of its two row arrays A and X in 10 blocks of 2000 rows. At each block it
  holds both 128 x 128 weights and the 1 x 128 bias whole, and writes, at row p and column q of the block,
      (sum_k A(p,k) Wl(k,q) + sum_k X(p,k) Wr(k,q)) + b(0,q), then the maximum with zero.
  An entry of the result depends only on its own row of A and of X, so block t of the result is the same
  expression of rows 2000 t .. 2000 t + 1999 of the arrays; the 10 blocks are disjoint and fill the array (row r
  lies in block r / 2000), hence the array the region leaves is the combine step of the arrays it found.
-/
import proofs.«149563_j82532091560585_2_alg».proof.Proof.Gen.KernelIdeal.Frame
import proofs.«149563_j82532091560585_2_alg».proof.Proof.Spec
import proofs.«149563_j82532091560585_2_alg».proof.Proof.LibMatmulPlain
import Idealize.ShloMosaic.Lib.Pipeline.Value
import Idealize.ShloMosaic.Lib.ValueIdx

noncomputable section

namespace Cert.KernelIdeal.Region0

open Cert.KernelIdeal Cert.KernelIdeal.Gen Idealize.ShloMosaic Idealize.ShloMosaic.TcCoe Idealize.SL.Sem
open Idealize.ShloMosaic.ValueIdx
open Idealize.ShloMosaic.Pipeline (Dat)

variable {V : (c : Dev nD) → (b : Ref sig .tc) → Buf (Elt Ideal) ((c : Thread nD τ).loc b)}

/-! ## One entry of the block the body writes -/

/-- A one-row array repeated down n rows reads, at (p, q), entry q of the row. -/
theorem bcast_row_apply {n : ℕ} (x : (⟨2, ![1, 128]⟩ : Shape).Idx → Ideal .f32)
    (h : (⟨2, ![1, 128]⟩ : Shape).Broadcasts ⟨2, ![n, 128]⟩) (p : Fin n) (q : Fin 128) :
    broadcastTo ⟨2, ![n, 128]⟩ x h (ix2 p q) = x (ix2 0 q) :=
  broadcastTo_apply x h (ix2 p q) (ix2 0 q) fun a => by
    match a with
    | ⟨0, _⟩ => rfl
    | ⟨1, _⟩ => rfl

/-- The written block at (p, q), from the five staged blocks: the two products are sums over the 128 shared
    columns (on the extended reals a change of float format is the identity, and a product accumulated into the
    zero matrix is the plain sum), then the bias row's entry q, then the maximum with zero. -/
theorem pay_apply (x0 x1 : Vec Ideal S2000x128 .f32) (x2 x4 : Vec Ideal S128x128 .f32) (x3 : Vec Ideal S1x128 .f32)
    (p : Fin 2000) (q : Fin 128) :
    Gen.k0_pay1 x0 x1 x2 x4 x3 (ix2 p q)
      = max (((∑ k : Fin 128, x0 (ix2 p k) * x2 (ix2 k q)) + ∑ k : Fin 128, x1 (ix2 p k) * x4 (ix2 k q)) + x3 (ix2 0 q))
          Cert.Spec.zero32 := by
  unfold Gen.k0_pay1
  rw [shapeCast_self x0, shapeCast_self x3]
  have m1 := Cert.LibMatmulPlain.matmul_zero_apply dot_S2000x128_S128x128_S2000x128_1_0_0_1_n_n rfl rfl rfl rfl rfl rfl
    (truncf .bf16 x0 bitsLt_bf16_f32) (truncf .bf16 x2 bitsLt_bf16_f32) p q
  have m2 := Cert.LibMatmulPlain.matmul_zero_apply dot_S2000x128_S128x128_S2000x128_1_0_0_1_n_n rfl rfl rfl rfl rfl rfl
    (truncf .bf16 x1 bitsLt_bf16_f32) (truncf .bf16 x4 bitsLt_bf16_f32) p q
  have b := bcast_row_apply (n := 2000) x3 broadcasts_S1x128_S2000x128 p q
  exact congrArg₂ max (congrArg₂ (· + ·) (congrArg₂ (· + ·) m1 m2) b) rfl

/-- A block of rows: if the two staged row blocks are rows 2000 r .. 2000 r + 1999 of A and of X, and the weights and
    the bias are staged whole, the written block at (p, q) is the combine step's entry (2000 r + p, q). -/
theorem block_apply (r : ℕ) (hr : r * 2000 + 2000 ≤ 20000)
    (A X : S20000x128.Idx → Ideal .f32) (Wl Wr : S128x128.Idx → Ideal .f32) (B : S1x128.Idx → Ideal .f32)
    (x0 x1 : Vec Ideal S2000x128 .f32) (x2 x4 : Vec Ideal S128x128 .f32) (x3 : Vec Ideal S1x128 .f32)
    (h0 : ∀ (p : Fin 2000) (k : Fin 128), x0 (ix2 p k) = A (ix2 (⟨r * 2000 + p.val, by omega⟩ : Fin 20000) k))
    (h1 : ∀ (p : Fin 2000) (k : Fin 128), x1 (ix2 p k) = X (ix2 (⟨r * 2000 + p.val, by omega⟩ : Fin 20000) k))
    (h2 : x2 = Wl) (h4 : x4 = Wr) (h3 : x3 = B) (p : Fin 2000) (q : Fin 128) :
    Gen.k0_pay1 x0 x1 x2 x4 x3 (ix2 p q)
      = Cert.Spec.combReluArr A X Wl Wr (fun j => B (ix2 0 (j 0))) (ix2 (⟨r * 2000 + p.val, by omega⟩ : Fin 20000) q) := by
  rw [pay_apply]
  subst h2 h4 h3
  unfold Cert.Spec.combReluArr Cert.Spec.comb
  simp only [h0, h1]

/-! ## Which rows each block holds -/

theorem hz : (![0, 0] : Fin 2 → Nat) = fun _ => 0 := funext fun a => by fin_cases a <;> rfl

/-- The block indices at grid point t: the two row arrays and the result are at row block t, the weights and the bias
    at block 0 (checked at each of the 10 points). -/
theorem idx_facts : ∀ t : Fin cfg0.N,
    win0_0.index t (0 : Fin 2) = t.val ∧ win0_0.index t (1 : Fin 2) = 0
  ∧ win0_1.index t (0 : Fin 2) = t.val ∧ win0_1.index t (1 : Fin 2) = 0
  ∧ win0_2.index t (0 : Fin 2) = 0 ∧ win0_2.index t (1 : Fin 2) = 0
  ∧ win0_3.index t (0 : Fin 2) = 0 ∧ win0_3.index t (1 : Fin 2) = 0
  ∧ win0_4.index t (0 : Fin 2) = 0 ∧ win0_4.index t (1 : Fin 2) = 0
  ∧ win0_5.index t (0 : Fin 2) = t.val ∧ win0_5.index t (1 : Fin 2) = 0 :=
  (by decide +kernel : ∀ t : Fin grid0.N, _)

/-- Two functions of a matrix index agree if they agree at every (row, column). -/
theorem ext_ix2 {α : Type} {n0 n1 : ℕ} (f g : (⟨2, ![n0, n1]⟩ : Shape).Idx → α)
    (h : ∀ (p : Fin n0) (q : Fin n1), f (ix2 p q) = g (ix2 p q)) : f = g :=
  funext fun j => by rw [eq_ix2 j]; exact h _ _

/-- Row p of block t is a row of the array. -/
theorem row_lt (t : Fin cfg0.N) (p : Fin 2000) : t.val * 2000 + p.val < 20000 := by
  have := Nat.lt_of_lt_of_eq t.isLt N_0; omega

/-- The block of row array 0 staged at point t is rows 2000 t .. 2000 t + 1999 of the array. -/
theorem rows0_apply (c : Dev nD) (t : Fin cfg0.N) (p : Fin 2000) (k : Fin 128) :
    Gen.iblk0 V c 0 t (ix2 p k)
      = V c (Pipeline.arrRef spec0 0) (ix2 (⟨t.val * 2000 + p.val, row_lt t p⟩ : Fin 20000) k) := by
  obtain ⟨a00, a01, a10, a11, -⟩ := idx_facts t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 2000 + 1 * p.val = t.val * 2000 + p.val; omega
  | ⟨1, _⟩ => show win0_0.index t (1 : Fin 2) * 128 + 1 * k.val = k.val; omega

/-- The block of row array 1 staged at point t is rows 2000 t .. 2000 t + 1999 of the array. -/
theorem rows1_apply (c : Dev nD) (t : Fin cfg0.N) (p : Fin 2000) (k : Fin 128) :
    Gen.iblk0 V c 1 t (ix2 p k)
      = V c (Pipeline.arrRef spec0 1) (ix2 (⟨t.val * 2000 + p.val, row_lt t p⟩ : Fin 20000) k) := by
  obtain ⟨a00, a01, a10, a11, -⟩ := idx_facts t
  show V c (Pipeline.arrRef spec0 1) (((cfg0.win 1).blk t).view.emb (ix2 p k)) = _
  refine congrArg (V c (Pipeline.arrRef spec0 1)) (funext fun a => Fin.ext ?_)
  match a with
  | ⟨0, _⟩ => show win0_1.index t (0 : Fin 2) * 2000 + 1 * p.val = t.val * 2000 + p.val; omega
  | ⟨1, _⟩ => show win0_1.index t (1 : Fin 2) * 128 + 1 * k.val = k.val; omega

/-- The first weight staged at any point is the whole array. -/
theorem whole2_eq (c : Dev nD) (t : Fin cfg0.N) : Gen.iblk0 V c 2 t = V c (Pipeline.arrRef spec0 2) := by
  obtain ⟨-, -, -, -, a20, a21, a30, a31, a40, a41, -⟩ := idx_facts t
  refine ext_ix2 (n0 := 128) (n1 := 128) _ _ fun a b => ?_
  show V c (Pipeline.arrRef spec0 2) (((cfg0.win 2).blk t).view.emb (ix2 a b)) = _
  refine congrArg (V c (Pipeline.arrRef spec0 2)) (funext fun d => Fin.ext ?_)
  match d with
  | ⟨0, _⟩ => show win0_2.index t (0 : Fin 2) * 128 + 1 * a.val = a.val; omega
  | ⟨1, _⟩ => show win0_2.index t (1 : Fin 2) * 128 + 1 * b.val = b.val; omega

/-- The second weight staged at any point is the whole array. -/
theorem whole4_eq (c : Dev nD) (t : Fin cfg0.N) : Gen.iblk0 V c 4 t = V c (Pipeline.arrRef spec0 4) := by
  obtain ⟨-, -, -, -, a20, a21, a30, a31, a40, a41, -⟩ := idx_facts t
  refine ext_ix2 (n0 := 128) (n1 := 128) _ _ fun a b => ?_
  show V c (Pipeline.arrRef spec0 4) (((cfg0.win 4).blk t).view.emb (ix2 a b)) = _
  refine congrArg (V c (Pipeline.arrRef spec0 4)) (funext fun d => Fin.ext ?_)
  match d with
  | ⟨0, _⟩ => show win0_4.index t (0 : Fin 2) * 128 + 1 * a.val = a.val; omega
  | ⟨1, _⟩ => show win0_4.index t (1 : Fin 2) * 128 + 1 * b.val = b.val; omega

/-- The bias row staged at any point is the whole array. -/
theorem whole3_eq (c : Dev nD) (t : Fin cfg0.N) : Gen.iblk0 V c 3 t = V c (Pipeline.arrRef spec0 3) := by
  obtain ⟨-, -, -, -, a20, a21, a30, a31, a40, a41, -⟩ := idx_facts t
  refine ext_ix2 (n0 := 1) (n1 := 128) _ _ fun a b => ?_
  show V c (Pipeline.arrRef spec0 3) (((cfg0.win 3).blk t).view.emb (ix2 a b)) = _
  refine congrArg (V c (Pipeline.arrRef spec0 3)) (funext fun d => Fin.ext ?_)
  match d with
  | ⟨0, _⟩ => show win0_3.index t (0 : Fin 2) * 1 + 1 * a.val = a.val; omega
  | ⟨1, _⟩ => show win0_3.index t (1 : Fin 2) * 128 + 1 * b.val = b.val; omega

/-- Entry (p, q) of the block point t writes back lands at entry (2000 t + p, q) of the array. -/
theorem out_emb (t : Fin cfg0.N) (p : Fin 2000) (q : Fin 128) :
    ((cfg0.win 5).blk t).view.emb (ix2 p q) = ix2 (⟨t.val * 2000 + p.val, row_lt t p⟩ : Fin 20000) q := by
  obtain ⟨-, -, -, -, -, -, -, -, -, -, a50, a51⟩ := idx_facts t
  funext a; apply Fin.ext
  match a with
  | ⟨0, _⟩ => show win0_5.index t (0 : Fin 2) * 2000 + 1 * p.val = t.val * 2000 + p.val; omega
  | ⟨1, _⟩ => show win0_5.index t (1 : Fin 2) * 128 + 1 * q.val = q.val; omega

/-- The array the region leaves: the combine step of the arrays as the region finds them. -/
abbrev G (V : (c : Dev nD) → (b : Ref sig .tc) → Buf (Elt Ideal) ((c : Thread nD τ).loc b)) (c : Dev nD) : S20000x128.Idx → Ideal .f32 :=
  Cert.Spec.combReluArr (n := 20000) (V c (Pipeline.arrRef spec0 0)) (V c (Pipeline.arrRef spec0 1)) (V c (Pipeline.arrRef spec0 2))
    (V c (Pipeline.arrRef spec0 4)) (fun j => V c (Pipeline.arrRef spec0 3) (ix2 0 (j 0)))

/-- What grid point t writes back is rows 2000 t .. 2000 t + 1999 of the combine step. -/
theorem flushed_eq (c : Dev nD) (t : Fin cfg0.N) :
    (Gen.dat0 (F := Ideal) V c).flushed 5 t = ((cfg0.win 5).blk t).view.read (Elt Ideal) (G V c) := by
  show (cfg0.win 5).cut (grid0.coords t) ((Gen.dat0 (F := Ideal) V c).after 5 t) = _
  rw [Gen.after0_5]
  unfold Gen.out0_5
  rw [View.canon_unit_zero hz]
  simp only [View.ld_unit_zero (S := S2000x128) hz, View.ld_unit_zero (S := S128x128) hz, View.ld_unit_zero (S := S1x128) hz]
  have htN : t.val < 10 := Nat.lt_of_lt_of_eq t.isLt N_0
  refine ext_ix2 (n0 := 2000) (n1 := 128) _ _ fun p q => ?_
  show Gen.k0_pay1 (Gen.iblk0 V c 0 t) (Gen.iblk0 V c 1 t) (Gen.iblk0 V c 2 t) (Gen.iblk0 V c 4 t) (Gen.iblk0 V c 3 t) (ix2 p q)
    = G V c (((cfg0.win 5).blk t).view.emb (ix2 p q))
  rw [out_emb t p q]
  exact block_apply t.val (by omega) (V c (Pipeline.arrRef spec0 0)) (V c (Pipeline.arrRef spec0 1)) (V c (Pipeline.arrRef spec0 2))
    (V c (Pipeline.arrRef spec0 4)) (V c (Pipeline.arrRef spec0 3)) (Gen.iblk0 V c 0 t) (Gen.iblk0 V c 1 t) (Gen.iblk0 V c 2 t)
    (Gen.iblk0 V c 4 t) (Gen.iblk0 V c 3 t) (rows0_apply c t) (rows1_apply c t) (whole2_eq c t) (whole4_eq c t) (whole3_eq c t) p q

/-! ## The blocks fill the array -/

/-- An index of the array is in point t's block iff each coordinate is in the block's range on its axis. -/
theorem mem_blk (t : Fin cfg0.N) (i : S20000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole (Pipeline.arrRef spec0 5)).slice (win0_5.rect t)).set ↔ _
  rw [View.set_slice_whole, Rect.mem_set_unit]
  exact Iff.rfl

/-- Row r of the array lies in the block of point r / 2000, which writes back. -/
theorem cover (i : S20000x128.Idx) : ∃ t : Fin cfg0.N, (cfg0.win 5).flush t = true ∧ i ∈ ((cfg0.win 5).blk t).view.set := by
  have hi0 : (i 0).val < 20000 := (i 0).isLt
  have hi1 : (i 1).val < 128 := (i 1).isLt
  have hN : cfg0.N = 10 := N_0
  let t : Fin cfg0.N := ⟨(i 0).val / 2000, by rw [hN]; omega⟩
  obtain ⟨_, _, _, _, _, _, _, _, _, _, e0, e1⟩ := idx_facts t
  have ht : t.val = (i 0).val / 2000 := rfl
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 128 ≤ (i 1).val ∧ (i 1).val < win0_5.index t (1 : Fin 2) * 128 + 128; omega

/-! ## The array after the region -/

/-- The array after the region is the combine step with the maximum, entry by entry, of the arrays as the region finds them:
    the two row arrays, the two weights, and the bias read along its one row. -/
theorem final (V : (c : Dev nD) → (b : Ref sig .tc) → Buf (Elt Ideal) ((c : Thread nD τ).loc b)) (c : Dev nD) :
    (Gen.dat0 (F := Ideal) V c).arrAt 5 cfg0.N
      = Cert.Spec.combReluArr (V c (Pipeline.arrRef spec0 0)) (V c (Pipeline.arrRef spec0 1)) (V c (Pipeline.arrRef spec0 2))
          (V c (Pipeline.arrRef spec0 4)) (fun j => V c (Pipeline.arrRef spec0 3) (ValueIdx.ix2 0 (j 0))) :=
  (Gen.dat0 (F := Ideal) V c).arrAt_eq_of_cover 5 (G V c) (fun t _ => flushed_eq c t) cover

end Cert.KernelIdeal.Region0

end
-- ==== Proof.Region1.lean ====
/-
  Region 1: a combine step followed by the maximum with zero, as one function of whole arrays.

  The region walks the 10000 rows of its two row arrays A and X in 5 blocks of 2000 rows. At each block it
  holds both 128 x 128 weights and the 1 x 128 bias whole, and writes, at row p and column q of the block,
      (sum_k A(p,k) Wl(k,q) + sum_k X(p,k) Wr(k,q)) + b(0,q), then the maximum with zero.
  An entry of the result depends only on its own row of A and of X, so block t of the result is the same
  expression of rows 2000 t .. 2000 t + 1999 of the arrays; the 5 blocks are disjoint and fill the array (row r
  lies in block r / 2000), hence the array the region leaves is the combine step of the arrays it found.
-/
import proofs.«149563_j82532091560585_2_alg».proof.Proof.Gen.KernelIdeal.Frame
import proofs.«149563_j82532091560585_2_alg».proof.Proof.Spec
import proofs.«149563_j82532091560585_2_alg».proof.Proof.LibMatmulPlain
import Idealize.ShloMosaic.Lib.Pipeline.Value
import Idealize.ShloMosaic.Lib.ValueIdx

noncomputable section

namespace Cert.KernelIdeal.Region1

open Cert.KernelIdeal Cert.KernelIdeal.Gen Idealize.ShloMosaic Idealize.ShloMosaic.TcCoe Idealize.SL.Sem
open Idealize.ShloMosaic.ValueIdx
open Idealize.ShloMosaic.Pipeline (Dat)

variable {V : (c : Dev nD) → (b : Ref sig .tc) → Buf (Elt Ideal) ((c : Thread nD τ).loc b)}

/-! ## One entry of the block the body writes -/

/-- A one-row array repeated down n rows reads, at (p, q), entry q of the row. -/
theorem bcast_row_apply {n : ℕ} (x : (⟨2, ![1, 128]⟩ : Shape).Idx → Ideal .f32)
    (h : (⟨2, ![1, 128]⟩ : Shape).Broadcasts ⟨2, ![n, 128]⟩) (p : Fin n) (q : Fin 128) :
    broadcastTo ⟨2, ![n, 128]⟩ x h (ix2 p q) = x (ix2 0 q) :=
  broadcastTo_apply x h (ix2 p q) (ix2 0 q) fun a => by
    match a with
    | ⟨0, _⟩ => rfl
    | ⟨1, _⟩ => rfl

/-- The written block at (p, q), from the five staged blocks: the two products are sums over the 128 shared
    columns (on the extended reals a change of float format is the identity, and a product accumulated into the
    zero matrix is the plain sum), then the bias row's entry q, then the maximum with zero. -/
theorem pay_apply (x0 x1 : Vec Ideal S2000x128 .f32) (x2 x4 : Vec Ideal S128x128 .f32) (x3 : Vec Ideal S1x128 .f32)
    (p : Fin 2000) (q : Fin 128) :
    Gen.k1_pay1 x0 x1 x2 x4 x3 (ix2 p q)
      = max (((∑ k : Fin 128, x0 (ix2 p k) * x2 (ix2 k q)) + ∑ k : Fin 128, x1 (ix2 p k) * x4 (ix2 k q)) + x3 (ix2 0 q))
          Cert.Spec.zero32 := by
  unfold Gen.k1_pay1
  rw [shapeCast_self x0, shapeCast_self x3]
  have m1 := Cert.LibMatmulPlain.matmul_zero_apply dot_S2000x128_S128x128_S2000x128_1_0_0_1_n_n rfl rfl rfl rfl rfl rfl
    (truncf .bf16 x0 bitsLt_bf16_f32) (truncf .bf16 x2 bitsLt_bf16_f32) p q
  have m2 := Cert.LibMatmulPlain.matmul_zero_apply dot_S2000x128_S128x128_S2000x128_1_0_0_1_n_n rfl rfl rfl rfl rfl rfl
    (truncf .bf16 x1 bitsLt_bf16_f32) (truncf .bf16 x4 bitsLt_bf16_f32) p q
  have b := bcast_row_apply (n := 2000) x3 broadcasts_S1x128_S2000x128 p q
  exact congrArg₂ max (congrArg₂ (· + ·) (congrArg₂ (· + ·) m1 m2) b) rfl

/-- A block of rows: if the two staged row blocks are rows 2000 r .. 2000 r + 1999 of A and of X, and the weights and
    the bias are staged whole, the written block at (p, q) is the combine step's entry (2000 r + p, q). -/
theorem block_apply (r : ℕ) (hr : r * 2000 + 2000 ≤ 10000)
    (A X : S10000x128.Idx → Ideal .f32) (Wl Wr : S128x128.Idx → Ideal .f32) (B : S1x128.Idx → Ideal .f32)
    (x0 x1 : Vec Ideal S2000x128 .f32) (x2 x4 : Vec Ideal S128x128 .f32) (x3 : Vec Ideal S1x128 .f32)
    (h0 : ∀ (p : Fin 2000) (k : Fin 128), x0 (ix2 p k) = A (ix2 (⟨r * 2000 + p.val, by omega⟩ : Fin 10000) k))
    (h1 : ∀ (p : Fin 2000) (k : Fin 128), x1 (ix2 p k) = X (ix2 (⟨r * 2000 + p.val, by omega⟩ : Fin 10000) k))
    (h2 : x2 = Wl) (h4 : x4 = Wr) (h3 : x3 = B) (p : Fin 2000) (q : Fin 128) :
    Gen.k1_pay1 x0 x1 x2 x4 x3 (ix2 p q)
      = Cert.Spec.combReluArr A X Wl Wr (fun j => B (ix2 0 (j 0))) (ix2 (⟨r * 2000 + p.val, by omega⟩ : Fin 10000) q) := by
  rw [pay_apply]
  subst h2 h4 h3
  unfold Cert.Spec.combReluArr Cert.Spec.comb
  simp only [h0, h1]

/-! ## Which rows each block holds -/

theorem hz : (![0, 0] : Fin 2 → Nat) = fun _ => 0 := funext fun a => by fin_cases a <;> rfl

/-- The block indices at grid point t: the two row arrays and the result are at row block t, the weights and the bias
    at block 0 (checked at each of the 5 points). -/
theorem idx_facts : ∀ t : Fin cfg1.N,
    win1_0.index t (0 : Fin 2) = t.val ∧ win1_0.index t (1 : Fin 2) = 0
  ∧ win1_1.index t (0 : Fin 2) = t.val ∧ win1_1.index t (1 : Fin 2) = 0
  ∧ win1_2.index t (0 : Fin 2) = 0 ∧ win1_2.index t (1 : Fin 2) = 0
  ∧ win1_3.index t (0 : Fin 2) = 0 ∧ win1_3.index t (1 : Fin 2) = 0
  ∧ win1_4.index t (0 : Fin 2) = 0 ∧ win1_4.index t (1 : Fin 2) = 0
  ∧ win1_5.index t (0 : Fin 2) = t.val ∧ win1_5.index t (1 : Fin 2) = 0 :=
  (by decide +kernel : ∀ t : Fin grid1.N, _)

/-- Two functions of a matrix index agree if they agree at every (row, column). -/
theorem ext_ix2 {α : Type} {n0 n1 : ℕ} (f g : (⟨2, ![n0, n1]⟩ : Shape).Idx → α)
    (h : ∀ (p : Fin n0) (q : Fin n1), f (ix2 p q) = g (ix2 p q)) : f = g :=
  funext fun j => by rw [eq_ix2 j]; exact h _ _

/-- Row p of block t is a row of the array. -/
theorem row_lt (t : Fin cfg1.N) (p : Fin 2000) : t.val * 2000 + p.val < 10000 := by
  have := Nat.lt_of_lt_of_eq t.isLt N_1; omega

/-- The block of row array 0 staged at point t is rows 2000 t .. 2000 t + 1999 of the array. -/
theorem rows0_apply (c : Dev nD) (t : Fin cfg1.N) (p : Fin 2000) (k : Fin 128) :
    Gen.iblk1 V c 0 t (ix2 p k)
      = V c (Pipeline.arrRef spec1 0) (ix2 (⟨t.val * 2000 + p.val, row_lt t p⟩ : Fin 10000) k) := by
  obtain ⟨a00, a01, a10, a11, -⟩ := idx_facts t
  show V c (Pipeline.arrRef spec1 0) (((cfg1.win 0).blk t).view.emb (ix2 p k)) = _
  refine congrArg (V c (Pipeline.arrRef spec1 0)) (funext fun a => Fin.ext ?_)
  match a with
  | ⟨0, _⟩ => show win1_0.index t (0 : Fin 2) * 2000 + 1 * p.val = t.val * 2000 + p.val; omega
  | ⟨1, _⟩ => show win1_0.index t (1 : Fin 2) * 128 + 1 * k.val = k.val; omega

/-- The block of row array 1 staged at point t is rows 2000 t .. 2000 t + 1999 of the array. -/
theorem rows1_apply (c : Dev nD) (t : Fin cfg1.N) (p : Fin 2000) (k : Fin 128) :
    Gen.iblk1 V c 1 t (ix2 p k)
      = V c (Pipeline.arrRef spec1 1) (ix2 (⟨t.val * 2000 + p.val, row_lt t p⟩ : Fin 10000) k) := by
  obtain ⟨a00, a01, a10, a11, -⟩ := idx_facts t
  show V c (Pipeline.arrRef spec1 1) (((cfg1.win 1).blk t).view.emb (ix2 p k)) = _
  refine congrArg (V c (Pipeline.arrRef spec1 1)) (funext fun a => Fin.ext ?_)
  match a with
  | ⟨0, _⟩ => show win1_1.index t (0 : Fin 2) * 2000 + 1 * p.val = t.val * 2000 + p.val; omega
  | ⟨1, _⟩ => show win1_1.index t (1 : Fin 2) * 128 + 1 * k.val = k.val; omega

/-- The first weight staged at any point is the whole array. -/
theorem whole2_eq (c : Dev nD) (t : Fin cfg1.N) : Gen.iblk1 V c 2 t = V c (Pipeline.arrRef spec1 2) := by
  obtain ⟨-, -, -, -, a20, a21, a30, a31, a40, a41, -⟩ := idx_facts t
  refine ext_ix2 (n0 := 128) (n1 := 128) _ _ fun a b => ?_
  show V c (Pipeline.arrRef spec1 2) (((cfg1.win 2).blk t).view.emb (ix2 a b)) = _
  refine congrArg (V c (Pipeline.arrRef spec1 2)) (funext fun d => Fin.ext ?_)
  match d with
  | ⟨0, _⟩ => show win1_2.index t (0 : Fin 2) * 128 + 1 * a.val = a.val; omega
  | ⟨1, _⟩ => show win1_2.index t (1 : Fin 2) * 128 + 1 * b.val = b.val; omega

/-- The second weight staged at any point is the whole array. -/
theorem whole4_eq (c : Dev nD) (t : Fin cfg1.N) : Gen.iblk1 V c 4 t = V c (Pipeline.arrRef spec1 4) := by
  obtain ⟨-, -, -, -, a20, a21, a30, a31, a40, a41, -⟩ := idx_facts t
  refine ext_ix2 (n0 := 128) (n1 := 128) _ _ fun a b => ?_
  show V c (Pipeline.arrRef spec1 4) (((cfg1.win 4).blk t).view.emb (ix2 a b)) = _
  refine congrArg (V c (Pipeline.arrRef spec1 4)) (funext fun d => Fin.ext ?_)
  match d with
  | ⟨0, _⟩ => show win1_4.index t (0 : Fin 2) * 128 + 1 * a.val = a.val; omega
  | ⟨1, _⟩ => show win1_4.index t (1 : Fin 2) * 128 + 1 * b.val = b.val; omega

/-- The bias row staged at any point is the whole array. -/
theorem whole3_eq (c : Dev nD) (t : Fin cfg1.N) : Gen.iblk1 V c 3 t = V c (Pipeline.arrRef spec1 3) := by
  obtain ⟨-, -, -, -, a20, a21, a30, a31, a40, a41, -⟩ := idx_facts t
  refine ext_ix2 (n0 := 1) (n1 := 128) _ _ fun a b => ?_
  show V c (Pipeline.arrRef spec1 3) (((cfg1.win 3).blk t).view.emb (ix2 a b)) = _
  refine congrArg (V c (Pipeline.arrRef spec1 3)) (funext fun d => Fin.ext ?_)
  match d with
  | ⟨0, _⟩ => show win1_3.index t (0 : Fin 2) * 1 + 1 * a.val = a.val; omega
  | ⟨1, _⟩ => show win1_3.index t (1 : Fin 2) * 128 + 1 * b.val = b.val; omega

/-- Entry (p, q) of the block point t writes back lands at entry (2000 t + p, q) of the array. -/
theorem out_emb (t : Fin cfg1.N) (p : Fin 2000) (q : Fin 128) :
    ((cfg1.win 5).blk t).view.emb (ix2 p q) = ix2 (⟨t.val * 2000 + p.val, row_lt t p⟩ : Fin 10000) q := by
  obtain ⟨-, -, -, -, -, -, -, -, -, -, a50, a51⟩ := idx_facts t
  funext a; apply Fin.ext
  match a with
  | ⟨0, _⟩ => show win1_5.index t (0 : Fin 2) * 2000 + 1 * p.val = t.val * 2000 + p.val; omega
  | ⟨1, _⟩ => show win1_5.index t (1 : Fin 2) * 128 + 1 * q.val = q.val; omega

/-- The array the region leaves: the combine step of the arrays as the region finds them. -/
abbrev G (V : (c : Dev nD) → (b : Ref sig .tc) → Buf (Elt Ideal) ((c : Thread nD τ).loc b)) (c : Dev nD) : S10000x128.Idx → Ideal .f32 :=
  Cert.Spec.combReluArr (n := 10000) (V c (Pipeline.arrRef spec1 0)) (V c (Pipeline.arrRef spec1 1)) (V c (Pipeline.arrRef spec1 2))
    (V c (Pipeline.arrRef spec1 4)) (fun j => V c (Pipeline.arrRef spec1 3) (ix2 0 (j 0)))

/-- What grid point t writes back is rows 2000 t .. 2000 t + 1999 of the combine step. -/
theorem flushed_eq (c : Dev nD) (t : Fin cfg1.N) :
    (Gen.dat1 (F := Ideal) V c).flushed 5 t = ((cfg1.win 5).blk t).view.read (Elt Ideal) (G V c) := by
  show (cfg1.win 5).cut (grid1.coords t) ((Gen.dat1 (F := Ideal) V c).after 5 t) = _
  rw [Gen.after1_5]
  unfold Gen.out1_5
  rw [View.canon_unit_zero hz]
  simp only [View.ld_unit_zero (S := S2000x128) hz, View.ld_unit_zero (S := S128x128) hz, View.ld_unit_zero (S := S1x128) hz]
  have htN : t.val < 5 := Nat.lt_of_lt_of_eq t.isLt N_1
  refine ext_ix2 (n0 := 2000) (n1 := 128) _ _ fun p q => ?_
  show Gen.k1_pay1 (Gen.iblk1 V c 0 t) (Gen.iblk1 V c 1 t) (Gen.iblk1 V c 2 t) (Gen.iblk1 V c 4 t) (Gen.iblk1 V c 3 t) (ix2 p q)
    = G V c (((cfg1.win 5).blk t).view.emb (ix2 p q))
  rw [out_emb t p q]
  exact block_apply t.val (by omega) (V c (Pipeline.arrRef spec1 0)) (V c (Pipeline.arrRef spec1 1)) (V c (Pipeline.arrRef spec1 2))
    (V c (Pipeline.arrRef spec1 4)) (V c (Pipeline.arrRef spec1 3)) (Gen.iblk1 V c 0 t) (Gen.iblk1 V c 1 t) (Gen.iblk1 V c 2 t)
    (Gen.iblk1 V c 4 t) (Gen.iblk1 V c 3 t) (rows0_apply c t) (rows1_apply c t) (whole2_eq c t) (whole4_eq c t) (whole3_eq c t) p q

/-! ## The blocks fill the array -/

/-- An index of the array is in point t's block iff each coordinate is in the block's range on its axis. -/
theorem mem_blk (t : Fin cfg1.N) (i : S10000x128.Idx) :
    i ∈ ((cfg1.win 5).blk t).view.set ↔ ∀ a : Fin 2, win1_5.index t a * S2000x128.size a ≤ (i a).val ∧ (i a).val < win1_5.index t a * S2000x128.size a + S2000x128.size a := by
  show i ∈ ((View.whole (Pipeline.arrRef spec1 5)).slice (win1_5.rect t)).set ↔ _
  rw [View.set_slice_whole, Rect.mem_set_unit]
  exact Iff.rfl

/-- Row r of the array lies in the block of point r / 2000, which writes back. -/
theorem cover (i : S10000x128.Idx) : ∃ t : Fin cfg1.N, (cfg1.win 5).flush t = true ∧ i ∈ ((cfg1.win 5).blk t).view.set := by
  have hi0 : (i 0).val < 10000 := (i 0).isLt
  have hi1 : (i 1).val < 128 := (i 1).isLt
  have hN : cfg1.N = 5 := N_1
  let t : Fin cfg1.N := ⟨(i 0).val / 2000, by rw [hN]; omega⟩
  obtain ⟨_, _, _, _, _, _, _, _, _, _, e0, e1⟩ := idx_facts t
  have ht : t.val = (i 0).val / 2000 := rfl
  refine ⟨t, flush1_5 t, ?_⟩
  rw [mem_blk]
  intro a
  match a with
  | ⟨0, _⟩ => show win1_5.index t (0 : Fin 2) * 2000 ≤ (i 0).val ∧ (i 0).val < win1_5.index t (0 : Fin 2) * 2000 + 2000; omega
  | ⟨1, _⟩ => show win1_5.index t (1 : Fin 2) * 128 ≤ (i 1).val ∧ (i 1).val < win1_5.index t (1 : Fin 2) * 128 + 128; omega

/-! ## The array after the region -/

/-- The array after the region is the combine step with the maximum, entry by entry, of the arrays as the region finds them:
    the two row arrays, the two weights, and the bias read along its one row. -/
theorem final (V : (c : Dev nD) → (b : Ref sig .tc) → Buf (Elt Ideal) ((c : Thread nD τ).loc b)) (c : Dev nD) :
    (Gen.dat1 (F := Ideal) V c).arrAt 5 cfg1.N
      = Cert.Spec.combReluArr (V c (Pipeline.arrRef spec1 0)) (V c (Pipeline.arrRef spec1 1)) (V c (Pipeline.arrRef spec1 2))
          (V c (Pipeline.arrRef spec1 4)) (fun j => V c (Pipeline.arrRef spec1 3) (ValueIdx.ix2 0 (j 0))) :=
  (Gen.dat1 (F := Ideal) V c).arrAt_eq_of_cover 5 (G V c) (fun t _ => flushed_eq c t) cover

end Cert.KernelIdeal.Region1

end
-- ==== Proof.Region2.lean ====
/-
  Region 2: a combine step without a maximum, as one function of whole arrays.

  The region walks the 20000 rows of its two row arrays A and X in 10 blocks of 2000 rows. At each block it
  holds both 128 x 128 weights and the 1 x 128 bias whole, and writes, at row p and column q of the block,
      (sum_k A(p,k) Wl(k,q) + sum_k X(p,k) Wr(k,q)) + b(0,q).
  An entry of the result depends only on its own row of A and of X, so block t of the result is the same
  expression of rows 2000 t .. 2000 t + 1999 of the arrays; the 10 blocks are disjoint and fill the array (row r
  lies in block r / 2000), hence the array the region leaves is the combine step of the arrays it found.
-/
import proofs.«149563_j82532091560585_2_alg».proof.Proof.Gen.KernelIdeal.Frame
import proofs.«149563_j82532091560585_2_alg».proof.Proof.Spec
import proofs.«149563_j82532091560585_2_alg».proof.Proof.LibMatmulPlain
import Idealize.ShloMosaic.Lib.Pipeline.Value
import Idealize.ShloMosaic.Lib.ValueIdx

noncomputable section

namespace Cert.KernelIdeal.Region2

open Cert.KernelIdeal Cert.KernelIdeal.Gen Idealize.ShloMosaic Idealize.ShloMosaic.TcCoe Idealize.SL.Sem
open Idealize.ShloMosaic.ValueIdx
open Idealize.ShloMosaic.Pipeline (Dat)

variable {V : (c : Dev nD) → (b : Ref sig .tc) → Buf (Elt Ideal) ((c : Thread nD τ).loc b)}

/-! ## One entry of the block the body writes -/

/-- A one-row array repeated down n rows reads, at (p, q), entry q of the row. -/
theorem bcast_row_apply {n : ℕ} (x : (⟨2, ![1, 128]⟩ : Shape).Idx → Ideal .f32)
    (h : (⟨2, ![1, 128]⟩ : Shape).Broadcasts ⟨2, ![n, 128]⟩) (p : Fin n) (q : Fin 128) :
    broadcastTo ⟨2, ![n, 128]⟩ x h (ix2 p q) = x (ix2 0 q) :=
  broadcastTo_apply x h (ix2 p q) (ix2 0 q) fun a => by
    match a with
    | ⟨0, _⟩ => rfl
    | ⟨1, _⟩ => rfl

/-- The written block at (p, q), from the five staged blocks: the two products are sums over the 128 shared
    columns (on the extended reals a change of float format is the identity, and a product accumulated into the
    zero matrix is the plain sum), then the bias row's entry q. -/
theorem pay_apply (x0 x1 : Vec Ideal S2000x128 .f32) (x2 x4 : Vec Ideal S128x128 .f32) (x3 : Vec Ideal S1x128 .f32)
    (p : Fin 2000) (q : Fin 128) :
    Gen.k2_pay1 x0 x1 x2 x4 x3 (ix2 p q)
      = ((∑ k : Fin 128, x0 (ix2 p k) * x2 (ix2 k q)) + ∑ k : Fin 128, x1 (ix2 p k) * x4 (ix2 k q)) + x3 (ix2 0 q) := by
  unfold Gen.k2_pay1
  rw [shapeCast_self x0, shapeCast_self x1, shapeCast_self x3]
  have m1 := Cert.LibMatmulPlain.matmul_zero_apply dot_S2000x128_S128x128_S2000x128_1_0_0_1_n_n rfl rfl rfl rfl rfl rfl
    (truncf .bf16 x0 bitsLt_bf16_f32) (truncf .bf16 x2 bitsLt_bf16_f32) p q
  have m2 := Cert.LibMatmulPlain.matmul_zero_apply dot_S2000x128_S128x128_S2000x128_1_0_0_1_n_n rfl rfl rfl rfl rfl rfl
    (truncf .bf16 x1 bitsLt_bf16_f32) (truncf .bf16 x4 bitsLt_bf16_f32) p q
  have b := bcast_row_apply (n := 2000) x3 broadcasts_S1x128_S2000x128 p q
  exact congrArg₂ (· + ·) (congrArg₂ (· + ·) m1 m2) b

/-- A block of rows: if the two staged row blocks are rows 2000 r .. 2000 r + 1999 of A and of X, and the weights and
    the bias are staged whole, the written block at (p, q) is the combine step's entry (2000 r + p, q). -/
theorem block_apply (r : ℕ) (hr : r * 2000 + 2000 ≤ 20000)
    (A X : S20000x128.Idx → Ideal .f32) (Wl Wr : S128x128.Idx → Ideal .f32) (B : S1x128.Idx → Ideal .f32)
    (x0 x1 : Vec Ideal S2000x128 .f32) (x2 x4 : Vec Ideal S128x128 .f32) (x3 : Vec Ideal S1x128 .f32)
    (h0 : ∀ (p : Fin 2000) (k : Fin 128), x0 (ix2 p k) = A (ix2 (⟨r * 2000 + p.val, by omega⟩ : Fin 20000) k))
    (h1 : ∀ (p : Fin 2000) (k : Fin 128), x1 (ix2 p k) = X (ix2 (⟨r * 2000 + p.val, by omega⟩ : Fin 20000) k))
    (h2 : x2 = Wl) (h4 : x4 = Wr) (h3 : x3 = B) (p : Fin 2000) (q : Fin 128) :
    Gen.k2_pay1 x0 x1 x2 x4 x3 (ix2 p q)
      = Cert.Spec.combArr A X Wl Wr (fun j => B (ix2 0 (j 0))) (ix2 (⟨r * 2000 + p.val, by omega⟩ : Fin 20000) q) := by
  rw [pay_apply]
  subst h2 h4 h3
  unfold Cert.Spec.combArr Cert.Spec.comb
  simp only [h0, h1]

/-! ## Which rows each block holds -/

theorem hz : (![0, 0] : Fin 2 → Nat) = fun _ => 0 := funext fun a => by fin_cases a <;> rfl

/-- The block indices at grid point t: the two row arrays and the result are at row block t, the weights and the bias
    at block 0 (checked at each of the 10 points). -/
theorem idx_facts : ∀ t : Fin cfg2.N,
    win2_0.index t (0 : Fin 2) = t.val ∧ win2_0.index t (1 : Fin 2) = 0
  ∧ win2_1.index t (0 : Fin 2) = t.val ∧ win2_1.index t (1 : Fin 2) = 0
  ∧ win2_2.index t (0 : Fin 2) = 0 ∧ win2_2.index t (1 : Fin 2) = 0
  ∧ win2_3.index t (0 : Fin 2) = 0 ∧ win2_3.index t (1 : Fin 2) = 0
  ∧ win2_4.index t (0 : Fin 2) = 0 ∧ win2_4.index t (1 : Fin 2) = 0
  ∧ win2_5.index t (0 : Fin 2) = t.val ∧ win2_5.index t (1 : Fin 2) = 0 :=
  (by decide +kernel : ∀ t : Fin grid2.N, _)

/-- Two functions of a matrix index agree if they agree at every (row, column). -/
theorem ext_ix2 {α : Type} {n0 n1 : ℕ} (f g : (⟨2, ![n0, n1]⟩ : Shape).Idx → α)
    (h : ∀ (p : Fin n0) (q : Fin n1), f (ix2 p q) = g (ix2 p q)) : f = g :=
  funext fun j => by rw [eq_ix2 j]; exact h _ _

/-- Row p of block t is a row of the array. -/
theorem row_lt (t : Fin cfg2.N) (p : Fin 2000) : t.val * 2000 + p.val < 20000 := by
  have := Nat.lt_of_lt_of_eq t.isLt N_2; omega

/-- The block of row array 0 staged at point t is rows 2000 t .. 2000 t + 1999 of the array. -/
theorem rows0_apply (c : Dev nD) (t : Fin cfg2.N) (p : Fin 2000) (k : Fin 128) :
    Gen.iblk2 V c 0 t (ix2 p k)
      = V c (Pipeline.arrRef spec2 0) (ix2 (⟨t.val * 2000 + p.val, row_lt t p⟩ : Fin 20000) k) := by
  obtain ⟨a00, a01, a10, a11, -⟩ := idx_facts t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 2000 + 1 * p.val = t.val * 2000 + p.val; omega
  | ⟨1, _⟩ => show win2_0.index t (1 : Fin 2) * 128 + 1 * k.val = k.val; omega

/-- The block of row array 1 staged at point t is rows 2000 t .. 2000 t + 1999 of the array. -/
theorem rows1_apply (c : Dev nD) (t : Fin cfg2.N) (p : Fin 2000) (k : Fin 128) :
    Gen.iblk2 V c 1 t (ix2 p k)
      = V c (Pipeline.arrRef spec2 1) (ix2 (⟨t.val * 2000 + p.val, row_lt t p⟩ : Fin 20000) k) := by
  obtain ⟨a00, a01, a10, a11, -⟩ := idx_facts t
  show V c (Pipeline.arrRef spec2 1) (((cfg2.win 1).blk t).view.emb (ix2 p k)) = _
  refine congrArg (V c (Pipeline.arrRef spec2 1)) (funext fun a => Fin.ext ?_)
  match a with
  | ⟨0, _⟩ => show win2_1.index t (0 : Fin 2) * 2000 + 1 * p.val = t.val * 2000 + p.val; omega
  | ⟨1, _⟩ => show win2_1.index t (1 : Fin 2) * 128 + 1 * k.val = k.val; omega

/-- The first weight staged at any point is the whole array. -/
theorem whole2_eq (c : Dev nD) (t : Fin cfg2.N) : Gen.iblk2 V c 2 t = V c (Pipeline.arrRef spec2 2) := by
  obtain ⟨-, -, -, -, a20, a21, a30, a31, a40, a41, -⟩ := idx_facts t
  refine ext_ix2 (n0 := 128) (n1 := 128) _ _ fun a b => ?_
  show V c (Pipeline.arrRef spec2 2) (((cfg2.win 2).blk t).view.emb (ix2 a b)) = _
  refine congrArg (V c (Pipeline.arrRef spec2 2)) (funext fun d => Fin.ext ?_)
  match d with
  | ⟨0, _⟩ => show win2_2.index t (0 : Fin 2) * 128 + 1 * a.val = a.val; omega
  | ⟨1, _⟩ => show win2_2.index t (1 : Fin 2) * 128 + 1 * b.val = b.val; omega

/-- The second weight staged at any point is the whole array. -/
theorem whole4_eq (c : Dev nD) (t : Fin cfg2.N) : Gen.iblk2 V c 4 t = V c (Pipeline.arrRef spec2 4) := by
  obtain ⟨-, -, -, -, a20, a21, a30, a31, a40, a41, -⟩ := idx_facts t
  refine ext_ix2 (n0 := 128) (n1 := 128) _ _ fun a b => ?_
  show V c (Pipeline.arrRef spec2 4) (((cfg2.win 4).blk t).view.emb (ix2 a b)) = _
  refine congrArg (V c (Pipeline.arrRef spec2 4)) (funext fun d => Fin.ext ?_)
  match d with
  | ⟨0, _⟩ => show win2_4.index t (0 : Fin 2) * 128 + 1 * a.val = a.val; omega
  | ⟨1, _⟩ => show win2_4.index t (1 : Fin 2) * 128 + 1 * b.val = b.val; omega

/-- The bias row staged at any point is the whole array. -/
theorem whole3_eq (c : Dev nD) (t : Fin cfg2.N) : Gen.iblk2 V c 3 t = V c (Pipeline.arrRef spec2 3) := by
  obtain ⟨-, -, -, -, a20, a21, a30, a31, a40, a41, -⟩ := idx_facts t
  refine ext_ix2 (n0 := 1) (n1 := 128) _ _ fun a b => ?_
  show V c (Pipeline.arrRef spec2 3) (((cfg2.win 3).blk t).view.emb (ix2 a b)) = _
  refine congrArg (V c (Pipeline.arrRef spec2 3)) (funext fun d => Fin.ext ?_)
  match d with
  | ⟨0, _⟩ => show win2_3.index t (0 : Fin 2) * 1 + 1 * a.val = a.val; omega
  | ⟨1, _⟩ => show win2_3.index t (1 : Fin 2) * 128 + 1 * b.val = b.val; omega

/-- Entry (p, q) of the block point t writes back lands at entry (2000 t + p, q) of the array. -/
theorem out_emb (t : Fin cfg2.N) (p : Fin 2000) (q : Fin 128) :
    ((cfg2.win 5).blk t).view.emb (ix2 p q) = ix2 (⟨t.val * 2000 + p.val, row_lt t p⟩ : Fin 20000) q := by
  obtain ⟨-, -, -, -, -, -, -, -, -, -, a50, a51⟩ := idx_facts t
  funext a; apply Fin.ext
  match a with
  | ⟨0, _⟩ => show win2_5.index t (0 : Fin 2) * 2000 + 1 * p.val = t.val * 2000 + p.val; omega
  | ⟨1, _⟩ => show win2_5.index t (1 : Fin 2) * 128 + 1 * q.val = q.val; omega

/-- The array the region leaves: the combine step of the arrays as the region finds them. -/
abbrev G (V : (c : Dev nD) → (b : Ref sig .tc) → Buf (Elt Ideal) ((c : Thread nD τ).loc b)) (c : Dev nD) : S20000x128.Idx → Ideal .f32 :=
  Cert.Spec.combArr (n := 20000) (V c (Pipeline.arrRef spec2 0)) (V c (Pipeline.arrRef spec2 1)) (V c (Pipeline.arrRef spec2 2))
    (V c (Pipeline.arrRef spec2 4)) (fun j => V c (Pipeline.arrRef spec2 3) (ix2 0 (j 0)))

/-- What grid point t writes back is rows 2000 t .. 2000 t + 1999 of the combine step. -/
theorem flushed_eq (c : Dev nD) (t : Fin cfg2.N) :
    (Gen.dat2 (F := Ideal) V c).flushed 5 t = ((cfg2.win 5).blk t).view.read (Elt Ideal) (G V c) := by
  show (cfg2.win 5).cut (grid2.coords t) ((Gen.dat2 (F := Ideal) V c).after 5 t) = _
  rw [Gen.after2_5]
  unfold Gen.out2_5
  rw [View.canon_unit_zero hz]
  simp only [View.ld_unit_zero (S := S2000x128) hz, View.ld_unit_zero (S := S128x128) hz, View.ld_unit_zero (S := S1x128) hz]
  have htN : t.val < 10 := Nat.lt_of_lt_of_eq t.isLt N_2
  refine ext_ix2 (n0 := 2000) (n1 := 128) _ _ fun p q => ?_
  show Gen.k2_pay1 (Gen.iblk2 V c 0 t) (Gen.iblk2 V c 1 t) (Gen.iblk2 V c 2 t) (Gen.iblk2 V c 4 t) (Gen.iblk2 V c 3 t) (ix2 p q)
    = G V c (((cfg2.win 5).blk t).view.emb (ix2 p q))
  rw [out_emb t p q]
  exact block_apply t.val (by omega) (V c (Pipeline.arrRef spec2 0)) (V c (Pipeline.arrRef spec2 1)) (V c (Pipeline.arrRef spec2 2))
    (V c (Pipeline.arrRef spec2 4)) (V c (Pipeline.arrRef spec2 3)) (Gen.iblk2 V c 0 t) (Gen.iblk2 V c 1 t) (Gen.iblk2 V c 2 t)
    (Gen.iblk2 V c 4 t) (Gen.iblk2 V c 3 t) (rows0_apply c t) (rows1_apply c t) (whole2_eq c t) (whole4_eq c t) (whole3_eq c t) p q

/-! ## The blocks fill the array -/

/-- An index of the array is in point t's block iff each coordinate is in the block's range on its axis. -/
theorem mem_blk (t : Fin cfg2.N) (i : S20000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole (Pipeline.arrRef spec2 5)).slice (win2_5.rect t)).set ↔ _
  rw [View.set_slice_whole, Rect.mem_set_unit]
  exact Iff.rfl

/-- Row r of the array lies in the block of point r / 2000, which writes back. -/
theorem cover (i : S20000x128.Idx) : ∃ t : Fin cfg2.N, (cfg2.win 5).flush t = true ∧ i ∈ ((cfg2.win 5).blk t).view.set := by
  have hi0 : (i 0).val < 20000 := (i 0).isLt
  have hi1 : (i 1).val < 128 := (i 1).isLt
  have hN : cfg2.N = 10 := N_2
  let t : Fin cfg2.N := ⟨(i 0).val / 2000, by rw [hN]; omega⟩
  obtain ⟨_, _, _, _, _, _, _, _, _, _, e0, e1⟩ := idx_facts t
  have ht : t.val = (i 0).val / 2000 := rfl
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 128 ≤ (i 1).val ∧ (i 1).val < win2_5.index t (1 : Fin 2) * 128 + 128; omega

/-! ## The array after the region -/

/-- The array after the region is the combine step, entry by entry, of the arrays as the region finds them:
    the two row arrays, the two weights, and the bias read along its one row. -/
theorem final (V : (c : Dev nD) → (b : Ref sig .tc) → Buf (Elt Ideal) ((c : Thread nD τ).loc b)) (c : Dev nD) :
    (Gen.dat2 (F := Ideal) V c).arrAt 5 cfg2.N
      = Cert.Spec.combArr (V c (Pipeline.arrRef spec2 0)) (V c (Pipeline.arrRef spec2 1)) (V c (Pipeline.arrRef spec2 2))
          (V c (Pipeline.arrRef spec2 4)) (fun j => V c (Pipeline.arrRef spec2 3) (ValueIdx.ix2 0 (j 0))) :=
  (Gen.dat2 (F := Ideal) V c).arrAt_eq_of_cover 5 (G V c) (fun t _ => flushed_eq c t) cover

end Cert.KernelIdeal.Region2

end
-- ==== Proof.Region3.lean ====
/-
  Region 3: a combine step without a maximum, as one function of whole arrays.

  The region walks the 10000 rows of its two row arrays A and X in 5 blocks of 2000 rows. At each block it
  holds both 128 x 128 weights and the 1 x 128 bias whole, and writes, at row p and column q of the block,
      (sum_k A(p,k) Wl(k,q) + sum_k X(p,k) Wr(k,q)) + b(0,q).
  An entry of the result depends only on its own row of A and of X, so block t of the result is the same
  expression of rows 2000 t .. 2000 t + 1999 of the arrays; the 5 blocks are disjoint and fill the array (row r
  lies in block r / 2000), hence the array the region leaves is the combine step of the arrays it found.
-/
import proofs.«149563_j82532091560585_2_alg».proof.Proof.Gen.KernelIdeal.Frame
import proofs.«149563_j82532091560585_2_alg».proof.Proof.Spec
import proofs.«149563_j82532091560585_2_alg».proof.Proof.LibMatmulPlain
import Idealize.ShloMosaic.Lib.Pipeline.Value
import Idealize.ShloMosaic.Lib.ValueIdx

noncomputable section

namespace Cert.KernelIdeal.Region3

open Cert.KernelIdeal Cert.KernelIdeal.Gen Idealize.ShloMosaic Idealize.ShloMosaic.TcCoe Idealize.SL.Sem
open Idealize.ShloMosaic.ValueIdx
open Idealize.ShloMosaic.Pipeline (Dat)

variable {V : (c : Dev nD) → (b : Ref sig .tc) → Buf (Elt Ideal) ((c : Thread nD τ).loc b)}

/-! ## One entry of the block the body writes -/

/-- A one-row array repeated down n rows reads, at (p, q), entry q of the row. -/
theorem bcast_row_apply {n : ℕ} (x : (⟨2, ![1, 128]⟩ : Shape).Idx → Ideal .f32)
    (h : (⟨2, ![1, 128]⟩ : Shape).Broadcasts ⟨2, ![n, 128]⟩) (p : Fin n) (q : Fin 128) :
    broadcastTo ⟨2, ![n, 128]⟩ x h (ix2 p q) = x (ix2 0 q) :=
  broadcastTo_apply x h (ix2 p q) (ix2 0 q) fun a => by
    match a with
    | ⟨0, _⟩ => rfl
    | ⟨1, _⟩ => rfl

/-- The written block at (p, q), from the five staged blocks: the two products are sums over the 128 shared
    columns (on the extended reals a change of float format is the identity, and a product accumulated into the
    zero matrix is the plain sum), then the bias row's entry q. -/
theorem pay_apply (x0 x1 : Vec Ideal S2000x128 .f32) (x2 x4 : Vec Ideal S128x128 .f32) (x3 : Vec Ideal S1x128 .f32)
    (p : Fin 2000) (q : Fin 128) :
    Gen.k3_pay1 x0 x1 x2 x4 x3 (ix2 p q)
      = ((∑ k : Fin 128, x0 (ix2 p k) * x2 (ix2 k q)) + ∑ k : Fin 128, x1 (ix2 p k) * x4 (ix2 k q)) + x3 (ix2 0 q) := by
  unfold Gen.k3_pay1
  rw [shapeCast_self x0, shapeCast_self x1, shapeCast_self x3]
  have m1 := Cert.LibMatmulPlain.matmul_zero_apply dot_S2000x128_S128x128_S2000x128_1_0_0_1_n_n rfl rfl rfl rfl rfl rfl
    (truncf .bf16 x0 bitsLt_bf16_f32) (truncf .bf16 x2 bitsLt_bf16_f32) p q
  have m2 := Cert.LibMatmulPlain.matmul_zero_apply dot_S2000x128_S128x128_S2000x128_1_0_0_1_n_n rfl rfl rfl rfl rfl rfl
    (truncf .bf16 x1 bitsLt_bf16_f32) (truncf .bf16 x4 bitsLt_bf16_f32) p q
  have b := bcast_row_apply (n := 2000) x3 broadcasts_S1x128_S2000x128 p q
  exact congrArg₂ (· + ·) (congrArg₂ (· + ·) m1 m2) b

/-- A block of rows: if the two staged row blocks are rows 2000 r .. 2000 r + 1999 of A and of X, and the weights and
    the bias are staged whole, the written block at (p, q) is the combine step's entry (2000 r + p, q). -/
theorem block_apply (r : ℕ) (hr : r * 2000 + 2000 ≤ 10000)
    (A X : S10000x128.Idx → Ideal .f32) (Wl Wr : S128x128.Idx → Ideal .f32) (B : S1x128.Idx → Ideal .f32)
    (x0 x1 : Vec Ideal S2000x128 .f32) (x2 x4 : Vec Ideal S128x128 .f32) (x3 : Vec Ideal S1x128 .f32)
    (h0 : ∀ (p : Fin 2000) (k : Fin 128), x0 (ix2 p k) = A (ix2 (⟨r * 2000 + p.val, by omega⟩ : Fin 10000) k))
    (h1 : ∀ (p : Fin 2000) (k : Fin 128), x1 (ix2 p k) = X (ix2 (⟨r * 2000 + p.val, by omega⟩ : Fin 10000) k))
    (h2 : x2 = Wl) (h4 : x4 = Wr) (h3 : x3 = B) (p : Fin 2000) (q : Fin 128) :
    Gen.k3_pay1 x0 x1 x2 x4 x3 (ix2 p q)
      = Cert.Spec.combArr A X Wl Wr (fun j => B (ix2 0 (j 0))) (ix2 (⟨r * 2000 + p.val, by omega⟩ : Fin 10000) q) := by
  rw [pay_apply]
  subst h2 h4 h3
  unfold Cert.Spec.combArr Cert.Spec.comb
  simp only [h0, h1]

/-! ## Which rows each block holds -/

theorem hz : (![0, 0] : Fin 2 → Nat) = fun _ => 0 := funext fun a => by fin_cases a <;> rfl

/-- The block indices at grid point t: the two row arrays and the result are at row block t, the weights and the bias
    at block 0 (checked at each of the 5 points). -/
theorem idx_facts : ∀ t : Fin cfg3.N,
    win3_0.index t (0 : Fin 2) = t.val ∧ win3_0.index t (1 : Fin 2) = 0
  ∧ win3_1.index t (0 : Fin 2) = t.val ∧ win3_1.index t (1 : Fin 2) = 0
  ∧ win3_2.index t (0 : Fin 2) = 0 ∧ win3_2.index t (1 : Fin 2) = 0
  ∧ win3_3.index t (0 : Fin 2) = 0 ∧ win3_3.index t (1 : Fin 2) = 0
  ∧ win3_4.index t (0 : Fin 2) = 0 ∧ win3_4.index t (1 : Fin 2) = 0
  ∧ win3_5.index t (0 : Fin 2) = t.val ∧ win3_5.index t (1 : Fin 2) = 0 :=
  (by decide +kernel : ∀ t : Fin grid3.N, _)

/-- Two functions of a matrix index agree if they agree at every (row, column). -/
theorem ext_ix2 {α : Type} {n0 n1 : ℕ} (f g : (⟨2, ![n0, n1]⟩ : Shape).Idx → α)
    (h : ∀ (p : Fin n0) (q : Fin n1), f (ix2 p q) = g (ix2 p q)) : f = g :=
  funext fun j => by rw [eq_ix2 j]; exact h _ _

/-- Row p of block t is a row of the array. -/
theorem row_lt (t : Fin cfg3.N) (p : Fin 2000) : t.val * 2000 + p.val < 10000 := by
  have := Nat.lt_of_lt_of_eq t.isLt N_3; omega

/-- The block of row array 0 staged at point t is rows 2000 t .. 2000 t + 1999 of the array. -/
theorem rows0_apply (c : Dev nD) (t : Fin cfg3.N) (p : Fin 2000) (k : Fin 128) :
    Gen.iblk3 V c 0 t (ix2 p k)
      = V c (Pipeline.arrRef spec3 0) (ix2 (⟨t.val * 2000 + p.val, row_lt t p⟩ : Fin 10000) k) := by
  obtain ⟨a00, a01, a10, a11, -⟩ := idx_facts t
  show V c (Pipeline.arrRef spec3 0) (((cfg3.win 0).blk t).view.emb (ix2 p k)) = _
  refine congrArg (V c (Pipeline.arrRef spec3 0)) (funext fun a => Fin.ext ?_)
  match a with
  | ⟨0, _⟩ => show win3_0.index t (0 : Fin 2) * 2000 + 1 * p.val = t.val * 2000 + p.val; omega
  | ⟨1, _⟩ => show win3_0.index t (1 : Fin 2) * 128 + 1 * k.val = k.val; omega

/-- The block of row array 1 staged at point t is rows 2000 t .. 2000 t + 1999 of the array. -/
theorem rows1_apply (c : Dev nD) (t : Fin cfg3.N) (p : Fin 2000) (k : Fin 128) :
    Gen.iblk3 V c 1 t (ix2 p k)
      = V c (Pipeline.arrRef spec3 1) (ix2 (⟨t.val * 2000 + p.val, row_lt t p⟩ : Fin 10000) k) := by
  obtain ⟨a00, a01, a10, a11, -⟩ := idx_facts t
  show V c (Pipeline.arrRef spec3 1) (((cfg3.win 1).blk t).view.emb (ix2 p k)) = _
  refine congrArg (V c (Pipeline.arrRef spec3 1)) (funext fun a => Fin.ext ?_)
  match a with
  | ⟨0, _⟩ => show win3_1.index t (0 : Fin 2) * 2000 + 1 * p.val = t.val * 2000 + p.val; omega
  | ⟨1, _⟩ => show win3_1.index t (1 : Fin 2) * 128 + 1 * k.val = k.val; omega

/-- The first weight staged at any point is the whole array. -/
theorem whole2_eq (c : Dev nD) (t : Fin cfg3.N) : Gen.iblk3 V c 2 t = V c (Pipeline.arrRef spec3 2) := by
  obtain ⟨-, -, -, -, a20, a21, a30, a31, a40, a41, -⟩ := idx_facts t
  refine ext_ix2 (n0 := 128) (n1 := 128) _ _ fun a b => ?_
  show V c (Pipeline.arrRef spec3 2) (((cfg3.win 2).blk t).view.emb (ix2 a b)) = _
  refine congrArg (V c (Pipeline.arrRef spec3 2)) (funext fun d => Fin.ext ?_)
  match d with
  | ⟨0, _⟩ => show win3_2.index t (0 : Fin 2) * 128 + 1 * a.val = a.val; omega
  | ⟨1, _⟩ => show win3_2.index t (1 : Fin 2) * 128 + 1 * b.val = b.val; omega

/-- The second weight staged at any point is the whole array. -/
theorem whole4_eq (c : Dev nD) (t : Fin cfg3.N) : Gen.iblk3 V c 4 t = V c (Pipeline.arrRef spec3 4) := by
  obtain ⟨-, -, -, -, a20, a21, a30, a31, a40, a41, -⟩ := idx_facts t
  refine ext_ix2 (n0 := 128) (n1 := 128) _ _ fun a b => ?_
  show V c (Pipeline.arrRef spec3 4) (((cfg3.win 4).blk t).view.emb (ix2 a b)) = _
  refine congrArg (V c (Pipeline.arrRef spec3 4)) (funext fun d => Fin.ext ?_)
  match d with
  | ⟨0, _⟩ => show win3_4.index t (0 : Fin 2) * 128 + 1 * a.val = a.val; omega
  | ⟨1, _⟩ => show win3_4.index t (1 : Fin 2) * 128 + 1 * b.val = b.val; omega

/-- The bias row staged at any point is the whole array. -/
theorem whole3_eq (c : Dev nD) (t : Fin cfg3.N) : Gen.iblk3 V c 3 t = V c (Pipeline.arrRef spec3 3) := by
  obtain ⟨-, -, -, -, a20, a21, a30, a31, a40, a41, -⟩ := idx_facts t
  refine ext_ix2 (n0 := 1) (n1 := 128) _ _ fun a b => ?_
  show V c (Pipeline.arrRef spec3 3) (((cfg3.win 3).blk t).view.emb (ix2 a b)) = _
  refine congrArg (V c (Pipeline.arrRef spec3 3)) (funext fun d => Fin.ext ?_)
  match d with
  | ⟨0, _⟩ => show win3_3.index t (0 : Fin 2) * 1 + 1 * a.val = a.val; omega
  | ⟨1, _⟩ => show win3_3.index t (1 : Fin 2) * 128 + 1 * b.val = b.val; omega

/-- Entry (p, q) of the block point t writes back lands at entry (2000 t + p, q) of the array. -/
theorem out_emb (t : Fin cfg3.N) (p : Fin 2000) (q : Fin 128) :
    ((cfg3.win 5).blk t).view.emb (ix2 p q) = ix2 (⟨t.val * 2000 + p.val, row_lt t p⟩ : Fin 10000) q := by
  obtain ⟨-, -, -, -, -, -, -, -, -, -, a50, a51⟩ := idx_facts t
  funext a; apply Fin.ext
  match a with
  | ⟨0, _⟩ => show win3_5.index t (0 : Fin 2) * 2000 + 1 * p.val = t.val * 2000 + p.val; omega
  | ⟨1, _⟩ => show win3_5.index t (1 : Fin 2) * 128 + 1 * q.val = q.val; omega

/-- The array the region leaves: the combine step of the arrays as the region finds them. -/
abbrev G (V : (c : Dev nD) → (b : Ref sig .tc) → Buf (Elt Ideal) ((c : Thread nD τ).loc b)) (c : Dev nD) : S10000x128.Idx → Ideal .f32 :=
  Cert.Spec.combArr (n := 10000) (V c (Pipeline.arrRef spec3 0)) (V c (Pipeline.arrRef spec3 1)) (V c (Pipeline.arrRef spec3 2))
    (V c (Pipeline.arrRef spec3 4)) (fun j => V c (Pipeline.arrRef spec3 3) (ix2 0 (j 0)))

/-- What grid point t writes back is rows 2000 t .. 2000 t + 1999 of the combine step. -/
theorem flushed_eq (c : Dev nD) (t : Fin cfg3.N) :
    (Gen.dat3 (F := Ideal) V c).flushed 5 t = ((cfg3.win 5).blk t).view.read (Elt Ideal) (G V c) := by
  show (cfg3.win 5).cut (grid3.coords t) ((Gen.dat3 (F := Ideal) V c).after 5 t) = _
  rw [Gen.after3_5]
  unfold Gen.out3_5
  rw [View.canon_unit_zero hz]
  simp only [View.ld_unit_zero (S := S2000x128) hz, View.ld_unit_zero (S := S128x128) hz, View.ld_unit_zero (S := S1x128) hz]
  have htN : t.val < 5 := Nat.lt_of_lt_of_eq t.isLt N_3
  refine ext_ix2 (n0 := 2000) (n1 := 128) _ _ fun p q => ?_
  show Gen.k3_pay1 (Gen.iblk3 V c 0 t) (Gen.iblk3 V c 1 t) (Gen.iblk3 V c 2 t) (Gen.iblk3 V c 4 t) (Gen.iblk3 V c 3 t) (ix2 p q)
    = G V c (((cfg3.win 5).blk t).view.emb (ix2 p q))
  rw [out_emb t p q]
  exact block_apply t.val (by omega) (V c (Pipeline.arrRef spec3 0)) (V c (Pipeline.arrRef spec3 1)) (V c (Pipeline.arrRef spec3 2))
    (V c (Pipeline.arrRef spec3 4)) (V c (Pipeline.arrRef spec3 3)) (Gen.iblk3 V c 0 t) (Gen.iblk3 V c 1 t) (Gen.iblk3 V c 2 t)
    (Gen.iblk3 V c 4 t) (Gen.iblk3 V c 3 t) (rows0_apply c t) (rows1_apply c t) (whole2_eq c t) (whole4_eq c t) (whole3_eq c t) p q

/-! ## The blocks fill the array -/

/-- An index of the array is in point t's block iff each coordinate is in the block's range on its axis. -/
theorem mem_blk (t : Fin cfg3.N) (i : S10000x128.Idx) :
    i ∈ ((cfg3.win 5).blk t).view.set ↔ ∀ a : Fin 2, win3_5.index t a * S2000x128.size a ≤ (i a).val ∧ (i a).val < win3_5.index t a * S2000x128.size a + S2000x128.size a := by
  show i ∈ ((View.whole (Pipeline.arrRef spec3 5)).slice (win3_5.rect t)).set ↔ _
  rw [View.set_slice_whole, Rect.mem_set_unit]
  exact Iff.rfl

/-- Row r of the array lies in the block of point r / 2000, which writes back. -/
theorem cover (i : S10000x128.Idx) : ∃ t : Fin cfg3.N, (cfg3.win 5).flush t = true ∧ i ∈ ((cfg3.win 5).blk t).view.set := by
  have hi0 : (i 0).val < 10000 := (i 0).isLt
  have hi1 : (i 1).val < 128 := (i 1).isLt
  have hN : cfg3.N = 5 := N_3
  let t : Fin cfg3.N := ⟨(i 0).val / 2000, by rw [hN]; omega⟩
  obtain ⟨_, _, _, _, _, _, _, _, _, _, e0, e1⟩ := idx_facts t
  have ht : t.val = (i 0).val / 2000 := rfl
  refine ⟨t, flush3_5 t, ?_⟩
  rw [mem_blk]
  intro a
  match a with
  | ⟨0, _⟩ => show win3_5.index t (0 : Fin 2) * 2000 ≤ (i 0).val ∧ (i 0).val < win3_5.index t (0 : Fin 2) * 2000 + 2000; omega
  | ⟨1, _⟩ => show win3_5.index t (1 : Fin 2) * 128 ≤ (i 1).val ∧ (i 1).val < win3_5.index t (1 : Fin 2) * 128 + 128; omega

/-! ## The array after the region -/

/-- The array after the region is the combine step, entry by entry, of the arrays as the region finds them:
    the two row arrays, the two weights, and the bias read along its one row. -/
theorem final (V : (c : Dev nD) → (b : Ref sig .tc) → Buf (Elt Ideal) ((c : Thread nD τ).loc b)) (c : Dev nD) :
    (Gen.dat3 (F := Ideal) V c).arrAt 5 cfg3.N
      = Cert.Spec.combArr (V c (Pipeline.arrRef spec3 0)) (V c (Pipeline.arrRef spec3 1)) (V c (Pipeline.arrRef spec3 2))
          (V c (Pipeline.arrRef spec3 4)) (fun j => V c (Pipeline.arrRef spec3 3) (ValueIdx.ix2 0 (j 0))) :=
  (Gen.dat3 (F := Ideal) V c).arrAt_eq_of_cover 5 (G V c) (fun t _ => flushed_eq c t) cover

end Cert.KernelIdeal.Region3

end
-- ==== Proof.ChainK.lean ====
/-
  The two layers of the network, read off the idealized kernel program's fold.

  With the aggregations named (a gather followed by a scatter-add, one per direction of the graph), the hidden
  features and the final embeddings are the specification's combine steps:
      h_prot = max(comb(agg_P x_drug, x_prot), 0)      h_drug = max(comb(agg_D x_prot, x_drug), 0)
      z_prot = comb(agg_P h_drug, h_prot)              z_drug = comb(agg_D h_prot, h_drug)
  Each region's output array is its combine step of the arrays the region finds; the stretch before it supplies the
  aggregation and the bias as a one-row matrix; and everything a later segment needs from an earlier one is carried
  unchanged across the segments in between.
-/
import proofs.«149563_j82532091560585_2_alg».proof.Proof.KeepK
import proofs.«149563_j82532091560585_2_alg».proof.Proof.Spec
import proofs.«149563_j82532091560585_2_alg».proof.Proof.NetK
import proofs.«149563_j82532091560585_2_alg».proof.Proof.Region0
import proofs.«149563_j82532091560585_2_alg».proof.Proof.Region1
import proofs.«149563_j82532091560585_2_alg».proof.Proof.Region2
import proofs.«149563_j82532091560585_2_alg».proof.Proof.Region3
import Idealize.ShloMosaic.Lib.ValueLayout

set_option maxRecDepth 16384

noncomputable section

namespace Cert.KernelIdeal.ChainK

open Cert.KernelIdeal Cert.KernelIdeal.Gen Cert.KernelIdeal.NetK
open Idealize.ShloMosaic Idealize.ShloMosaic.TcCoe Idealize.SL.Sem Idealize.ShloMosaic.StableHlo Idealize.ShloMosaic.ValueIdx

/-! ## A bias vector recast as a one-row matrix, read at its row -/

theorem bias_row (x : (⟨S128, .f32⟩ : BufTy).Contents (Elt Ideal)) (h : S128.ShapeCasts S1x128) :
    (fun j : (⟨1, ![128]⟩ : Shape).Idx => shapeCast S1x128 x h (ix2 (0 : Fin 1) (j 0))) = x := by
  funext j
  refine (shapeCast_a_1a_apply (a := 128) x h 0 (j 0)).trans ?_
  exact congrArg x (eq_ix1 j).symm

variable (m : (ℓ : Loc nD τ sig) → Buf (Elt Ideal) ℓ) (ρ : Dev nD → PrngReg)

/-- The launch contents of an argument. -/
abbrev X (c : Dev nD) (b : Ref sig .tc) := m ((c : Thread nD τ).loc b)

/-! ## Layer 1 -/

/-- After region 0 its output array holds h_prot. -/
theorem W2_hprot (c : Dev nD) : W2 m ρ c (Proc.devRef .tc main_v11)
    = hprot (X m c main_arg0) (X m c main_arg1) (X m c main_arg2) (X m c main_arg3) (X m c main_arg6) (X m c main_arg7) (X m c main_arg8) := by
  refine (W2_arr m ρ c 5).trans ?_
  rw [Region0.final (V1 m ρ) c]
  have a0 : V1 m ρ c (Pipeline.arrRef spec0 0) = HostK.segP (X m c main_arg0) (X m c main_arg2) (X m c main_arg3) :=
    HostK.s0_agg (W0 m ρ c)
  have a1 : V1 m ρ c (Pipeline.arrRef spec0 1) = X m c main_arg1 := KeepK.args_W1 m ρ c main_arg1 (by decide)
  have a2 : V1 m ρ c (Pipeline.arrRef spec0 2) = X m c main_arg6 := KeepK.args_W1 m ρ c main_arg6 (by decide)
  have a4 : V1 m ρ c (Pipeline.arrRef spec0 4) = X m c main_arg8 := KeepK.args_W1 m ρ c main_arg8 (by decide)
  have a3 : V1 m ρ c (Pipeline.arrRef spec0 3) = shapeCast S1x128 (X m c main_arg7) shapeCasts_S128_S1x128 :=
    HostK.s0_bias (W0 m ρ c)
  rw [a0, a1, a2, a4, a3, bias_row]
  rfl

/-- After region 1 its output array holds h_drug. -/
theorem W4_hdrug (c : Dev nD) : W4 m ρ c (Proc.devRef .tc main_v23)
    = hdrug (X m c main_arg0) (X m c main_arg1) (X m c main_arg2) (X m c main_arg3) (X m c main_arg9) (X m c main_arg10) (X m c main_arg11) := by
  refine (W4_arr m ρ c 5).trans ?_
  rw [Region1.final (V3 m ρ) c]
  have a0 : V3 m ρ c (Pipeline.arrRef spec1 0) = HostK.segD (X m c main_arg1) (X m c main_arg2) (X m c main_arg3) := by
    refine (HostK.s1_agg (W2 m ρ c)).trans ?_
    rw [KeepK.args_W2 m ρ c main_arg1 (by decide), KeepK.args_W2 m ρ c main_arg2 (by decide), KeepK.args_W2 m ρ c main_arg3 (by decide)]
  have a1 : V3 m ρ c (Pipeline.arrRef spec1 1) = X m c main_arg0 := KeepK.args_W3 m ρ c main_arg0 (by decide)
  have a2 : V3 m ρ c (Pipeline.arrRef spec1 2) = X m c main_arg9 := KeepK.args_W3 m ρ c main_arg9 (by decide)
  have a4 : V3 m ρ c (Pipeline.arrRef spec1 4) = X m c main_arg11 := KeepK.args_W3 m ρ c main_arg11 (by decide)
  have a3 : V3 m ρ c (Pipeline.arrRef spec1 3) = shapeCast S1x128 (X m c main_arg10) shapeCasts_S128_S1x128 := by
    refine (HostK.s1_bias (W2 m ρ c)).trans ?_
    rw [KeepK.args_W2 m ρ c main_arg10 (by decide)]
  rw [a0, a1, a2, a4, a3, bias_row]
  rfl

/-! ## The hidden features carried to where layer 2 reads them -/

/-- h_prot, written by region 0, is still there when stretch 2 and region 2 (and stretch 3) read it. -/
theorem W3_hprot (c : Dev nD) : W3 m ρ c (Proc.devRef .tc main_v11) = W2 m ρ c (Proc.devRef .tc main_v11) :=
  HostK.keep1 _ main_v11 (by decide)
theorem W4_hprot (c : Dev nD) : W4 m ρ c (Proc.devRef .tc main_v11) = W2 m ρ c (Proc.devRef .tc main_v11) :=
  (KeepK.keepR1 m ρ c main_v11 (by decide)).trans (W3_hprot m ρ c)
theorem W5_hprot (c : Dev nD) : W5 m ρ c (Proc.devRef .tc main_v11) = W2 m ρ c (Proc.devRef .tc main_v11) :=
  (HostK.keep2 _ main_v11 (by decide)).trans (W4_hprot m ρ c)
theorem W6_hprot (c : Dev nD) : W6 m ρ c (Proc.devRef .tc main_v11) = W2 m ρ c (Proc.devRef .tc main_v11) :=
  (KeepK.keepR2 m ρ c main_v11 (by decide)).trans (W5_hprot m ρ c)

/-- h_drug, written by region 1, is still there when stretch 2 and region 3 read it. -/
theorem W5_hdrug (c : Dev nD) : W5 m ρ c (Proc.devRef .tc main_v23) = W4 m ρ c (Proc.devRef .tc main_v23) :=
  HostK.keep2 _ main_v23 (by decide)
theorem W6_hdrug (c : Dev nD) : W6 m ρ c (Proc.devRef .tc main_v23) = W4 m ρ c (Proc.devRef .tc main_v23) :=
  (KeepK.keepR2 m ρ c main_v23 (by decide)).trans (W5_hdrug m ρ c)
theorem W7_hdrug (c : Dev nD) : W7 m ρ c (Proc.devRef .tc main_v23) = W4 m ρ c (Proc.devRef .tc main_v23) :=
  (HostK.keep3 _ main_v23 (by decide)).trans (W6_hdrug m ρ c)

/-! ## Layer 2 -/

/-- After region 2 its output array holds z_prot. -/
theorem W6_zprot (c : Dev nD) : W6 m ρ c (Proc.devRef .tc main_v35)
    = zprot (W4 m ρ c (Proc.devRef .tc main_v23)) (W2 m ρ c (Proc.devRef .tc main_v11)) (X m c main_arg2) (X m c main_arg3)
        (X m c main_arg12) (X m c main_arg13) (X m c main_arg14) := by
  refine (W6_arr m ρ c 5).trans ?_
  rw [Region2.final (V5 m ρ) c]
  have a0 : V5 m ρ c (Pipeline.arrRef spec2 0) = HostK.segP (W4 m ρ c (Proc.devRef .tc main_v23)) (X m c main_arg2) (X m c main_arg3) := by
    refine (HostK.s2_agg (W4 m ρ c)).trans ?_
    rw [KeepK.args_W4 m ρ c main_arg2 (by decide), KeepK.args_W4 m ρ c main_arg3 (by decide)]
  have a1 : V5 m ρ c (Pipeline.arrRef spec2 1) = W2 m ρ c (Proc.devRef .tc main_v11) := W5_hprot m ρ c
  have a2 : V5 m ρ c (Pipeline.arrRef spec2 2) = X m c main_arg12 := KeepK.args_W5 m ρ c main_arg12 (by decide)
  have a4 : V5 m ρ c (Pipeline.arrRef spec2 4) = X m c main_arg14 := KeepK.args_W5 m ρ c main_arg14 (by decide)
  have a3 : V5 m ρ c (Pipeline.arrRef spec2 3) = shapeCast S1x128 (X m c main_arg13) shapeCasts_S128_S1x128 := by
    refine (HostK.s2_bias (W4 m ρ c)).trans ?_
    rw [KeepK.args_W4 m ρ c main_arg13 (by decide)]
  rw [a0, a1, a2, a4, a3, bias_row]
  rfl

/-- After region 3 its output array holds z_drug. -/
theorem W8_zdrug (c : Dev nD) : W8 m ρ c (Proc.devRef .tc main_v47)
    = zdrug (W4 m ρ c (Proc.devRef .tc main_v23)) (W2 m ρ c (Proc.devRef .tc main_v11)) (X m c main_arg2) (X m c main_arg3)
        (X m c main_arg15) (X m c main_arg16) (X m c main_arg17) := by
  refine (W8_arr m ρ c 5).trans ?_
  rw [Region3.final (V7 m ρ) c]
  have a0 : V7 m ρ c (Pipeline.arrRef spec3 0) = HostK.segD (W2 m ρ c (Proc.devRef .tc main_v11)) (X m c main_arg2) (X m c main_arg3) := by
    refine (HostK.s3_agg (W6 m ρ c)).trans ?_
    rw [KeepK.args_W6 m ρ c main_arg2 (by decide), KeepK.args_W6 m ρ c main_arg3 (by decide), W6_hprot m ρ c]
  have a1 : V7 m ρ c (Pipeline.arrRef spec3 1) = W4 m ρ c (Proc.devRef .tc main_v23) := W7_hdrug m ρ c
  have a2 : V7 m ρ c (Pipeline.arrRef spec3 2) = X m c main_arg15 := KeepK.args_W7 m ρ c main_arg15 (by decide)
  have a4 : V7 m ρ c (Pipeline.arrRef spec3 4) = X m c main_arg17 := KeepK.args_W7 m ρ c main_arg17 (by decide)
  have a3 : V7 m ρ c (Pipeline.arrRef spec3 3) = shapeCast S1x128 (X m c main_arg16) shapeCasts_S128_S1x128 := by
    refine (HostK.s3_bias (W6 m ρ c)).trans ?_
    rw [KeepK.args_W6 m ρ c main_arg16 (by decide)]
  rw [a0, a1, a2, a4, a3, bias_row]
  rfl

end Cert.KernelIdeal.ChainK

end
-- ==== Proof.RunK.lean ====
/-
  The idealized kernel program's run with every buffer named.

  The program is five kernel regions among six stretches of host operations.  Its generated frame follows the
  buffer contents through the program as a fold: after a stretch, the stretch's operations applied to the
  contents before it; after a region, the region's arrays at what its write-backs leave and every other buffer
  unchanged.  The frame keeps of the last contents only the arguments.  Here the same run is stated with the
  whole of the last contents: in every final state each buffer that outlives the program holds the fold's last
  value.  The three results are then read off that fold elsewhere.
-/
import proofs.«149563_j82532091560585_2_alg».proof.Proof.Gen.KernelIdeal.Frame

set_option maxRecDepth 16384

noncomputable section

namespace Cert.KernelIdeal.RunK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, and in its final state every buffer
    that outlives the program holds the last value of the fold through the program's segments. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

end Cert.KernelIdeal.RunK

end
-- ==== Proof.Region4Pay.lean ====
/-
  The decoder body's written block at an entry, on the extended reals.

  The body holds two 5000 x 128 row blocks Zd and Zp, the two 128 x 128 halves Wu and Wl of the first weight, the
  1 x 128 bias b1, the 128 x 1 second weight w2 and the 1 x 1 bias b2.  It forms the hidden block
      h(p, k) = max((sum_j Zd(p,j) Wu(j,k) + sum_j Zp(p,j) Wl(j,k)) + b1(0,k), 0)
  and writes, at row p of its one column,  sum_k h(p,k) w2(k,0) + b2(0,0).
  On the extended reals a change of float format is the identity, a product accumulated into the zero matrix is
  the plain sum over the shared axis, and a one-row array repeated down the rows reads its row.
-/
import proofs.«149563_j82532091560585_2_alg».proof.Proof.Gen.KernelIdeal.Skeleton
import proofs.«149563_j82532091560585_2_alg».proof.Proof.Spec
import proofs.«149563_j82532091560585_2_alg».proof.Proof.LibMatmulPlain
import Idealize.ShloMosaic.Lib.Pipeline.Value
import Idealize.ShloMosaic.Lib.ValueIdx

noncomputable section

namespace Cert.KernelIdeal.Region4Pay

open Cert.KernelIdeal Cert.KernelIdeal.Gen Idealize.ShloMosaic Idealize.ShloMosaic.ValueIdx

/-- The hidden block: the two products, the bias row repeated down the rows, the maximum with the zero block. -/
def hidArr (x0 x1 : Vec Ideal S5000x128 .f32) (x2 x3 : Vec Ideal S128x128 .f32) (x4 : Vec Ideal S1x128 .f32) :
    FVec Ideal S5000x128 .f32 :=
  maximumf
    (addf
      (addf
        (matmul dot_S5000x128_S128x128_S5000x128_1_0_0_1_n_n none (truncf .bf16 x0 bitsLt_bf16_f32) (truncf .bf16 x2 bitsLt_bf16_f32)
          (constant S5000x128 .f32 0x00000000#32))
        (matmul dot_S5000x128_S128x128_S5000x128_1_0_0_1_n_n none (truncf .bf16 x1 bitsLt_bf16_f32) (truncf .bf16 x3 bitsLt_bf16_f32)
          (constant S5000x128 .f32 0x00000000#32)))
      (broadcastTo S5000x128 x4 broadcasts_S1x128_S5000x128))
    (broadcast S5000x128 (Scalar.ofBits .f32 0x00000000#32))

/-- The hidden block at (p, k). -/
theorem hidArr_apply (x0 x1 : Vec Ideal S5000x128 .f32) (x2 x3 : Vec Ideal S128x128 .f32) (x4 : Vec Ideal S1x128 .f32)
    (p : Fin 5000) (k : Fin 128) :
    hidArr x0 x1 x2 x3 x4 (ix2 p k)
      = max (((∑ j : Fin 128, x0 (ix2 p j) * x2 (ix2 j k)) + ∑ j : Fin 128, x1 (ix2 p j) * x3 (ix2 j k)) + x4 (ix2 0 k))
          Cert.Spec.zero32 := by
  have m1 := Cert.LibMatmulPlain.matmul_zero_apply dot_S5000x128_S128x128_S5000x128_1_0_0_1_n_n rfl rfl rfl rfl rfl rfl
    (truncf .bf16 x0 bitsLt_bf16_f32) (truncf .bf16 x2 bitsLt_bf16_f32) p k
  have m2 := Cert.LibMatmulPlain.matmul_zero_apply dot_S5000x128_S128x128_S5000x128_1_0_0_1_n_n rfl rfl rfl rfl rfl rfl
    (truncf .bf16 x1 bitsLt_bf16_f32) (truncf .bf16 x3 bitsLt_bf16_f32) p k
  have b := broadcastTo_apply x4 broadcasts_S1x128_S5000x128 (ix2 p k) (ix2 0 k) fun a => by
    match a with
    | ⟨0, _⟩ => rfl
    | ⟨1, _⟩ => rfl
  exact congrArg₂ max (congrArg₂ (· + ·) (congrArg₂ (· + ·) m1 m2) b) rfl

/-- The written block at row p of its one column, from the seven staged blocks. -/
theorem pay_apply (x0 x1 : Vec Ideal S5000x128 .f32) (x2 x3 : Vec Ideal S128x128 .f32) (x4 : Vec Ideal S1x128 .f32)
    (x5 : Vec Ideal S128x1 .f32) (x6 : Vec Ideal S1x1 .f32) (p : Fin 5000) (u : Fin 1) :
    Gen.k4_pay1 (F := Ideal) x0 x1 x2 x3 x4 x5 x6 (ix2 p u)
      = (∑ k : Fin 128, max (((∑ j : Fin 128, x0 (ix2 p j) * x2 (ix2 j k)) + ∑ j : Fin 128, x1 (ix2 p j) * x3 (ix2 j k)) + x4 (ix2 0 k))
          Cert.Spec.zero32 * x5 (ix2 k 0)) + x6 (ix2 0 0) := by
  obtain rfl : u = 0 := Subsingleton.elim u 0
  unfold Gen.k4_pay1
  rw [shapeCast_self x0, shapeCast_self x1, shapeCast_self x2, shapeCast_self x3, shapeCast_self x4, shapeCast_self x6]
  have m3 := Cert.LibMatmulPlain.matmul_zero_apply dot_S5000x128_S128x1_S5000x1_1_0_0_1_n_n rfl rfl rfl rfl rfl rfl
    (truncf .bf16 (hidArr x0 x1 x2 x3 x4) bitsLt_bf16_f32) (truncf .bf16 x5 bitsLt_bf16_f32) p (0 : Fin 1)
  have b2 := broadcastTo_apply x6 broadcasts_S1x1_S5000x1 (ix2 p (0 : Fin 1)) (ix2 (0 : Fin 1) (0 : Fin 1)) fun a => by
    match a with
    | ⟨0, _⟩ => rfl
    | ⟨1, _⟩ => rfl
  exact congrArg₂ (· + ·)
    (m3.trans (Finset.sum_congr rfl fun k _ => congrArg (· * x5 (ix2 k 0)) (hidArr_apply x0 x1 x2 x3 x4 p k))) b2

end Cert.KernelIdeal.Region4Pay

end
-- ==== Proof.Region4.lean ====
/-
  Region 4: the edge decoder, as one function of whole arrays.

  The region walks the 500000 rows of the two gathered arrays Zd and Zp in 100 blocks of 5000 rows. At each block it
  holds the two 128 x 128 weight halves Wa and Wb, the 1 x 128 bias b1, the 128 x 1 weight W2 and the 1 x 1 bias b2
  whole, and writes at row p of the block's one column
      (sum_k max(((sum_j Zd(p,j) Wa(j,k)) + sum_j Zp(p,j) Wb(j,k)) + b1(0,k), 0) W2(k,0)) + b2(0,0).
  An output depends only on its own row of Zd and of Zp, so block t of the result is the same expression of rows
  5000 t .. 5000 t + 4999; the 100 blocks are disjoint and fill the column (row r lies in block r / 5000), hence
  the array the region leaves is the decoder of the arrays it found.
-/
import proofs.«149563_j82532091560585_2_alg».proof.Proof.Gen.KernelIdeal.Frame
import proofs.«149563_j82532091560585_2_alg».proof.Proof.Spec
import proofs.«149563_j82532091560585_2_alg».proof.Proof.LibMatmulPlain
import proofs.«149563_j82532091560585_2_alg».proof.Proof.Region4Pay
import Idealize.ShloMosaic.Lib.Pipeline.Value
import Idealize.ShloMosaic.Lib.ValueIdx

noncomputable section

namespace Cert.KernelIdeal.Region4

open Cert.KernelIdeal Cert.KernelIdeal.Gen Idealize.ShloMosaic Idealize.ShloMosaic.TcCoe Idealize.SL.Sem
open Idealize.ShloMosaic.ValueIdx
open Idealize.ShloMosaic.Pipeline (Dat)

variable {V : (c : Dev nD) → (b : Ref sig .tc) → Buf (Elt Ideal) ((c : Thread nD τ).loc b)}

/-! ## The decoder as a function of arrays -/

/-- The decoder's outputs as an L x 1 column: at row p, the hidden units (the first array against Wa, the second
    against Wb, the bias row, the maximum with zero) against the column W2, plus the scalar bias. The weight of
    the first layer enters as its two 128-row halves. -/
def colArr {L : ℕ} (Zd Zp : (⟨2, ![L, 128]⟩ : Shape).Idx → Ideal .f32) (Wa Wb : (⟨2, ![128, 128]⟩ : Shape).Idx → Ideal .f32)
    (b1 : (⟨2, ![1, 128]⟩ : Shape).Idx → Ideal .f32) (W2 : (⟨2, ![128, 1]⟩ : Shape).Idx → Ideal .f32)
    (b2 : (⟨2, ![1, 1]⟩ : Shape).Idx → Ideal .f32) : (⟨2, ![L, 1]⟩ : Shape).Idx → Ideal .f32 :=
  fun i => (∑ k : Fin 128, max (((∑ j : Fin 128, Zd (ix2 (i 0) j) * Wa (ix2 j k)) + ∑ j : Fin 128, Zp (ix2 (i 0) j) * Wb (ix2 j k))
      + b1 (ix2 0 k)) Cert.Spec.zero32 * W2 (ix2 k 0)) + b2 (ix2 0 0)

/-! ## One entry of the block the body writes -/

/-- A block of rows: if the two staged row blocks are rows 5000 r .. 5000 r + 4999 of Zd and of Zp, and the weights and
    biases are staged whole, the written block at row p is the decoder's output for row 5000 r + p. -/
theorem block_apply (r : ℕ) (hr : r * 5000 + 5000 ≤ 500000)
    (Zd Zp : S500000x128.Idx → Ideal .f32) (Wa Wb : S128x128.Idx → Ideal .f32) (B1 : S1x128.Idx → Ideal .f32)
    (W2 : S128x1.Idx → Ideal .f32) (B2 : S1x1.Idx → Ideal .f32)
    (x0 x1 : Vec Ideal S5000x128 .f32) (x2 x3 : Vec Ideal S128x128 .f32) (x4 : Vec Ideal S1x128 .f32)
    (x5 : Vec Ideal S128x1 .f32) (x6 : Vec Ideal S1x1 .f32)
    (h0 : ∀ (p : Fin 5000) (k : Fin 128), x0 (ix2 p k) = Zd (ix2 (⟨r * 5000 + p.val, by omega⟩ : Fin 500000) k))
    (h1 : ∀ (p : Fin 5000) (k : Fin 128), x1 (ix2 p k) = Zp (ix2 (⟨r * 5000 + p.val, by omega⟩ : Fin 500000) k))
    (h2 : x2 = Wa) (h3 : x3 = Wb) (h4 : x4 = B1) (h5 : x5 = W2) (h6 : x6 = B2) (p : Fin 5000) (u : Fin 1) :
    Gen.k4_pay1 x0 x1 x2 x3 x4 x5 x6 (ix2 p u)
      = colArr Zd Zp Wa Wb B1 W2 B2 (ix2 (⟨r * 5000 + p.val, by omega⟩ : Fin 500000) u) := by
  rw [Cert.KernelIdeal.Region4Pay.pay_apply]
  subst h2 h3 h4 h5 h6
  unfold colArr
  simp only [h0, h1]

/-! ## Which rows each block holds -/

theorem hz : (![0, 0] : Fin 2 → Nat) = fun _ => 0 := funext fun a => by fin_cases a <;> rfl

/-- The block indices at grid point t: the two gathered arrays and the result are at row block t, the weights and
    the biases at block 0 (checked at each of the 100 points). -/
theorem idx_facts : ∀ t : Fin cfg4.N,
    win4_0.index t (0 : Fin 2) = t.val ∧ win4_0.index t (1 : Fin 2) = 0
  ∧ win4_1.index t (0 : Fin 2) = t.val ∧ win4_1.index t (1 : Fin 2) = 0
  ∧ win4_2.index t (0 : Fin 2) = 0 ∧ win4_2.index t (1 : Fin 2) = 0
  ∧ win4_3.index t (0 : Fin 2) = 0 ∧ win4_3.index t (1 : Fin 2) = 0
  ∧ win4_4.index t (0 : Fin 2) = 0 ∧ win4_4.index t (1 : Fin 2) = 0
  ∧ win4_5.index t (0 : Fin 2) = 0 ∧ win4_5.index t (1 : Fin 2) = 0
  ∧ win4_6.index t (0 : Fin 2) = 0 ∧ win4_6.index t (1 : Fin 2) = 0
  ∧ win4_7.index t (0 : Fin 2) = t.val ∧ win4_7.index t (1 : Fin 2) = 0 :=
  (by decide +kernel : ∀ t : Fin grid4.N, _)

/-- Two functions of a matrix index agree if they agree at every (row, column). -/
theorem ext_ix2 {α : Type} {n0 n1 : ℕ} (f g : (⟨2, ![n0, n1]⟩ : Shape).Idx → α)
    (h : ∀ (p : Fin n0) (q : Fin n1), f (ix2 p q) = g (ix2 p q)) : f = g :=
  funext fun j => by rw [eq_ix2 j]; exact h _ _

/-- Row p of block t is a row of the array. -/
theorem row_lt (t : Fin cfg4.N) (p : Fin 5000) : t.val * 5000 + p.val < 500000 := by
  have := Nat.lt_of_lt_of_eq t.isLt N_4; omega

/-- The block of the first gathered array staged at point t is rows 5000 t .. 5000 t + 4999 of the array. -/
theorem rows0_apply (c : Dev nD) (t : Fin cfg4.N) (p : Fin 5000) (k : Fin 128) :
    Gen.iblk4 V c 0 t (ix2 p k)
      = V c (Pipeline.arrRef spec4 0) (ix2 (⟨t.val * 5000 + p.val, row_lt t p⟩ : Fin 500000) k) := by
  obtain ⟨a00, a01, a10, a11, -⟩ := idx_facts t
  show V c (Pipeline.arrRef spec4 0) (((cfg4.win 0).blk t).view.emb (ix2 p k)) = _
  refine congrArg (V c (Pipeline.arrRef spec4 0)) (funext fun a => Fin.ext ?_)
  match a with
  | ⟨0, _⟩ => show win4_0.index t (0 : Fin 2) * 5000 + 1 * p.val = t.val * 5000 + p.val; omega
  | ⟨1, _⟩ => show win4_0.index t (1 : Fin 2) * 128 + 1 * k.val = k.val; omega

/-- The block of the second gathered array staged at point t is rows 5000 t .. 5000 t + 4999 of the array. -/
theorem rows1_apply (c : Dev nD) (t : Fin cfg4.N) (p : Fin 5000) (k : Fin 128) :
    Gen.iblk4 V c 1 t (ix2 p k)
      = V c (Pipeline.arrRef spec4 1) (ix2 (⟨t.val * 5000 + p.val, row_lt t p⟩ : Fin 500000) k) := by
  obtain ⟨a00, a01, a10, a11, -⟩ := idx_facts t
  show V c (Pipeline.arrRef spec4 1) (((cfg4.win 1).blk t).view.emb (ix2 p k)) = _
  refine congrArg (V c (Pipeline.arrRef spec4 1)) (funext fun a => Fin.ext ?_)
  match a with
  | ⟨0, _⟩ => show win4_1.index t (0 : Fin 2) * 5000 + 1 * p.val = t.val * 5000 + p.val; omega
  | ⟨1, _⟩ => show win4_1.index t (1 : Fin 2) * 128 + 1 * k.val = k.val; omega

/-- The first weight half staged at any point is the whole array. -/
theorem whole2_eq (c : Dev nD) (t : Fin cfg4.N) : Gen.iblk4 V c 2 t = V c (Pipeline.arrRef spec4 2) := by
  obtain ⟨-, -, -, -, a20, a21, a30, a31, a40, a41, a50, a51, a60, a61, -⟩ := idx_facts t
  refine ext_ix2 (n0 := 128) (n1 := 128) _ _ fun a b => ?_
  show V c (Pipeline.arrRef spec4 2) (((cfg4.win 2).blk t).view.emb (ix2 a b)) = _
  refine congrArg (V c (Pipeline.arrRef spec4 2)) (funext fun d => Fin.ext ?_)
  match d with
  | ⟨0, _⟩ => show win4_2.index t (0 : Fin 2) * 128 + 1 * a.val = a.val; omega
  | ⟨1, _⟩ => show win4_2.index t (1 : Fin 2) * 128 + 1 * b.val = b.val; omega

/-- The second weight half staged at any point is the whole array. -/
theorem whole3_eq (c : Dev nD) (t : Fin cfg4.N) : Gen.iblk4 V c 3 t = V c (Pipeline.arrRef spec4 3) := by
  obtain ⟨-, -, -, -, a20, a21, a30, a31, a40, a41, a50, a51, a60, a61, -⟩ := idx_facts t
  refine ext_ix2 (n0 := 128) (n1 := 128) _ _ fun a b => ?_
  show V c (Pipeline.arrRef spec4 3) (((cfg4.win 3).blk t).view.emb (ix2 a b)) = _
  refine congrArg (V c (Pipeline.arrRef spec4 3)) (funext fun d => Fin.ext ?_)
  match d with
  | ⟨0, _⟩ => show win4_3.index t (0 : Fin 2) * 128 + 1 * a.val = a.val; omega
  | ⟨1, _⟩ => show win4_3.index t (1 : Fin 2) * 128 + 1 * b.val = b.val; omega

/-- The first bias row staged at any point is the whole array. -/
theorem whole4_eq (c : Dev nD) (t : Fin cfg4.N) : Gen.iblk4 V c 4 t = V c (Pipeline.arrRef spec4 4) := by
  obtain ⟨-, -, -, -, a20, a21, a30, a31, a40, a41, a50, a51, a60, a61, -⟩ := idx_facts t
  refine ext_ix2 (n0 := 1) (n1 := 128) _ _ fun a b => ?_
  show V c (Pipeline.arrRef spec4 4) (((cfg4.win 4).blk t).view.emb (ix2 a b)) = _
  refine congrArg (V c (Pipeline.arrRef spec4 4)) (funext fun d => Fin.ext ?_)
  match d with
  | ⟨0, _⟩ => show win4_4.index t (0 : Fin 2) * 1 + 1 * a.val = a.val; omega
  | ⟨1, _⟩ => show win4_4.index t (1 : Fin 2) * 128 + 1 * b.val = b.val; omega

/-- The second weight column staged at any point is the whole array. -/
theorem whole5_eq (c : Dev nD) (t : Fin cfg4.N) : Gen.iblk4 V c 5 t = V c (Pipeline.arrRef spec4 5) := by
  obtain ⟨-, -, -, -, a20, a21, a30, a31, a40, a41, a50, a51, a60, a61, -⟩ := idx_facts t
  refine ext_ix2 (n0 := 128) (n1 := 1) _ _ fun a b => ?_
  show V c (Pipeline.arrRef spec4 5) (((cfg4.win 5).blk t).view.emb (ix2 a b)) = _
  refine congrArg (V c (Pipeline.arrRef spec4 5)) (funext fun d => Fin.ext ?_)
  match d with
  | ⟨0, _⟩ => show win4_5.index t (0 : Fin 2) * 128 + 1 * a.val = a.val; omega
  | ⟨1, _⟩ => show win4_5.index t (1 : Fin 2) * 1 + 1 * b.val = b.val; omega

/-- The scalar bias staged at any point is the whole array. -/
theorem whole6_eq (c : Dev nD) (t : Fin cfg4.N) : Gen.iblk4 V c 6 t = V c (Pipeline.arrRef spec4 6) := by
  obtain ⟨-, -, -, -, a20, a21, a30, a31, a40, a41, a50, a51, a60, a61, -⟩ := idx_facts t
  refine ext_ix2 (n0 := 1) (n1 := 1) _ _ fun a b => ?_
  show V c (Pipeline.arrRef spec4 6) (((cfg4.win 6).blk t).view.emb (ix2 a b)) = _
  refine congrArg (V c (Pipeline.arrRef spec4 6)) (funext fun d => Fin.ext ?_)
  match d with
  | ⟨0, _⟩ => show win4_6.index t (0 : Fin 2) * 1 + 1 * a.val = a.val; omega
  | ⟨1, _⟩ => show win4_6.index t (1 : Fin 2) * 1 + 1 * b.val = b.val; omega

/-- Row p of the block point t writes back lands at row 5000 t + p of the array. -/
theorem out_emb (t : Fin cfg4.N) (p : Fin 5000) (u : Fin 1) :
    ((cfg4.win 7).blk t).view.emb (ix2 p u) = ix2 (⟨t.val * 5000 + p.val, row_lt t p⟩ : Fin 500000) u := by
  obtain ⟨-, -, -, -, -, -, -, -, -, -, -, -, -, -, a70, a71⟩ := idx_facts t
  funext a; apply Fin.ext
  match a with
  | ⟨0, _⟩ => show win4_7.index t (0 : Fin 2) * 5000 + 1 * p.val = t.val * 5000 + p.val; omega
  | ⟨1, _⟩ => show win4_7.index t (1 : Fin 2) * 1 + 1 * u.val = u.val; omega

/-- The array the region leaves: the decoder of the arrays as the region finds them. -/
abbrev G (V : (c : Dev nD) → (b : Ref sig .tc) → Buf (Elt Ideal) ((c : Thread nD τ).loc b)) (c : Dev nD) : S500000x1.Idx → Ideal .f32 :=
  colArr (L := 500000) (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)) (V c (Pipeline.arrRef spec4 6))

/-- What grid point t writes back is rows 5000 t .. 5000 t + 4999 of the decoder's column. -/
theorem flushed_eq (c : Dev nD) (t : Fin cfg4.N) :
    (Gen.dat4 (F := Ideal) V c).flushed 7 t = ((cfg4.win 7).blk t).view.read (Elt Ideal) (G V c) := by
  show (cfg4.win 7).cut (grid4.coords t) ((Gen.dat4 (F := Ideal) V c).after 7 t) = _
  rw [Gen.after4_7]
  unfold Gen.out4_7
  rw [View.canon_unit_zero hz]
  simp only [View.ld_unit_zero (S := S5000x128) hz, View.ld_unit_zero (S := S128x128) hz, View.ld_unit_zero (S := S1x128) hz,
    View.ld_unit_zero (S := S128x1) hz, View.ld_unit_zero (S := S1x1) hz]
  have htN : t.val < 100 := Nat.lt_of_lt_of_eq t.isLt N_4
  refine ext_ix2 (n0 := 5000) (n1 := 1) _ _ fun p u => ?_
  show Gen.k4_pay1 (Gen.iblk4 V c 0 t) (Gen.iblk4 V c 1 t) (Gen.iblk4 V c 2 t) (Gen.iblk4 V c 3 t) (Gen.iblk4 V c 4 t)
      (Gen.iblk4 V c 5 t) (Gen.iblk4 V c 6 t) (ix2 p u)
    = G V c (((cfg4.win 7).blk t).view.emb (ix2 p u))
  rw [out_emb t p u]
  exact block_apply t.val (by omega) (V c (Pipeline.arrRef spec4 0)) (V c (Pipeline.arrRef spec4 1)) (V c (Pipeline.arrRef spec4 2))
    (V c (Pipeline.arrRef spec4 3)) (V c (Pipeline.arrRef spec4 4)) (V c (Pipeline.arrRef spec4 5)) (V c (Pipeline.arrRef spec4 6))
    (Gen.iblk4 V c 0 t) (Gen.iblk4 V c 1 t) (Gen.iblk4 V c 2 t) (Gen.iblk4 V c 3 t) (Gen.iblk4 V c 4 t) (Gen.iblk4 V c 5 t)
    (Gen.iblk4 V c 6 t) (rows0_apply c t) (rows1_apply c t) (whole2_eq c t) (whole3_eq c t) (whole4_eq c t) (whole5_eq c t)
    (whole6_eq c t) p u

/-! ## The blocks fill the array -/

/-- An index of the array is in point t's block iff each coordinate is in the block's range on its axis. -/
theorem mem_blk (t : Fin cfg4.N) (i : S500000x1.Idx) :
    i ∈ ((cfg4.win 7).blk t).view.set ↔ ∀ a : Fin 2, win4_7.index t a * S5000x1.size a ≤ (i a).val ∧ (i a).val < win4_7.index t a * S5000x1.size a + S5000x1.size a := by
  show i ∈ ((View.whole (Pipeline.arrRef spec4 7)).slice (win4_7.rect t)).set ↔ _
  rw [View.set_slice_whole, Rect.mem_set_unit]
  exact Iff.rfl

/-- Row r of the array lies in the block of point r / 5000, which writes back. -/
theorem cover (i : S500000x1.Idx) : ∃ t : Fin cfg4.N, (cfg4.win 7).flush t = true ∧ i ∈ ((cfg4.win 7).blk t).view.set := by
  have hi0 : (i 0).val < 500000 := (i 0).isLt
  have hi1 : (i 1).val < 1 := (i 1).isLt
  have hN : cfg4.N = 100 := N_4
  let t : Fin cfg4.N := ⟨(i 0).val / 5000, by rw [hN]; omega⟩
  obtain ⟨_, _, _, _, _, _, _, _, _, _, _, _, _, _, e0, e1⟩ := idx_facts t
  have ht : t.val = (i 0).val / 5000 := rfl
  refine ⟨t, flush4_7 t, ?_⟩
  rw [mem_blk]
  intro a
  match a with
  | ⟨0, _⟩ => show win4_7.index t (0 : Fin 2) * 5000 ≤ (i 0).val ∧ (i 0).val < win4_7.index t (0 : Fin 2) * 5000 + 5000; omega
  | ⟨1, _⟩ => show win4_7.index t (1 : Fin 2) * 1 ≤ (i 1).val ∧ (i 1).val < win4_7.index t (1 : Fin 2) * 1 + 1; omega

/-! ## The array after the region -/

/-- The array after the region is the decoder's column, row by row, of the arrays as the region finds them: the two
    gathered arrays, the two weight halves, the bias row, the weight column and the scalar bias. -/
theorem final (V : (c : Dev nD) → (b : Ref sig .tc) → Buf (Elt Ideal) ((c : Thread nD τ).loc b)) (c : Dev nD) :
    (Gen.dat4 (F := Ideal) V c).arrAt 7 cfg4.N
      = colArr (V c (Pipeline.arrRef spec4 0)) (V c (Pipeline.arrRef spec4 1)) (V c (Pipeline.arrRef spec4 2))
          (V c (Pipeline.arrRef spec4 3)) (V c (Pipeline.arrRef spec4 4)) (V c (Pipeline.arrRef spec4 5))
          (V c (Pipeline.arrRef spec4 6)) :=
  (Gen.dat4 (F := Ideal) V c).arrAt_eq_of_cover 7 (G V c) (fun t _ => flushed_eq c t) cover

end Cert.KernelIdeal.Region4

end
-- ==== Proof.LibColumnFlat.lean ====
/-
  A one-column matrix recast as a vector, read at an index.

  Both layouts list the a entries in the same order, so entry i of the vector is entry (i, 0) of the column.
  No program is imported: the extent is a variable.
-/
import Idealize.ShloMosaic.Lib.Pipeline.Value
import Idealize.ShloMosaic.Lib.ValueIdx

namespace Cert.LibColumnFlat

open Idealize.ShloMosaic Idealize.ShloMosaic.ValueIdx

/-- Entry i of an [a, 1] array recast as an [a] vector is the array's entry (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Cert.LibColumnFlat
-- ==== Proof.FinalK.lean ====
/-
  The idealized kernel program's three results as the network's functions of its arguments.

  The final embeddings, written by regions 2 and 3, are carried unchanged to the end of the program.  The last
  stretch gathers their rows at the label indices, cuts the decoder's first weight into its two halves and recasts
  the two decoder biases; the last region applies the decoder to these, row by row; and the last operation recasts
  the resulting column as a vector.  Reading the halves of the weight back in the whole weight, and the recast
  biases and column back in the originals, gives the specification's decoder of the gathered embeddings.
-/
import proofs.«149563_j82532091560585_2_alg».proof.Proof.ChainK
import proofs.«149563_j82532091560585_2_alg».proof.Proof.RunK
import proofs.«149563_j82532091560585_2_alg».proof.Proof.Region4
import proofs.«149563_j82532091560585_2_alg».proof.Proof.LibColumnFlat
import Idealize.ShloMosaic.Lib.ValueLayout
import Idealize.ShloMosaic.Lib.Pipeline.Value

set_option maxRecDepth 16384

noncomputable section

namespace Cert.KernelIdeal.FinalK

open Cert.KernelIdeal Cert.KernelIdeal.Gen Cert.KernelIdeal.NetK Cert.KernelIdeal.ChainK
open Idealize.ShloMosaic Idealize.ShloMosaic.TcCoe Idealize.SL.Sem Idealize.ShloMosaic.StableHlo Idealize.ShloMosaic.ValueIdx

variable (m : (ℓ : Loc nD τ sig) → Buf (Elt Ideal) ℓ) (ρ : Dev nD → PrngReg)

/-! ## The hidden features and the embeddings, as functions of the arguments -/

abbrev HP (c : Dev nD) := hprot (X m c main_arg0) (X m c main_arg1) (X m c main_arg2) (X m c main_arg3) (X m c main_arg6) (X m c main_arg7) (X m c main_arg8)
abbrev HD (c : Dev nD) := hdrug (X m c main_arg0) (X m c main_arg1) (X m c main_arg2) (X m c main_arg3) (X m c main_arg9) (X m c main_arg10) (X m c main_arg11)
abbrev ZP (c : Dev nD) := zprot (HD m c) (HP m c) (X m c main_arg2) (X m c main_arg3) (X m c main_arg12) (X m c main_arg13) (X m c main_arg14)
abbrev ZD (c : Dev nD) := zdrug (HD m c) (HP m c) (X m c main_arg2) (X m c main_arg3) (X m c main_arg15) (X m c main_arg16) (X m c main_arg17)
abbrev OUT (c : Dev nD) := out (ZD m c) (ZP m c) (X m c main_arg4) (X m c main_arg5) (X m c main_arg18) (X m c main_arg19) (X m c main_arg20) (X m c main_arg21)

theorem W6_ZP (c : Dev nD) : W6 m ρ c (Proc.devRef .tc main_v35) = ZP m c := by
  rw [ChainK.W6_zprot, ChainK.W4_hdrug, ChainK.W2_hprot]
theorem W8_ZD (c : Dev nD) : W8 m ρ c (Proc.devRef .tc main_v47) = ZD m c := by
  rw [ChainK.W8_zdrug, ChainK.W4_hdrug, ChainK.W2_hprot]

/-! ## The embeddings carried to the end -/

theorem W8_ZP (c : Dev nD) : W8 m ρ c (Proc.devRef .tc main_v35) = ZP m c :=
  (KeepK.keepR3 m ρ c main_v35 (by decide)).trans ((HostK.keep3 _ main_v35 (by decide)).trans (W6_ZP m ρ c))
theorem W10_ZP (c : Dev nD) : W10 m ρ c (Proc.devRef .tc main_v35) = ZP m c :=
  (KeepK.keepR4 m ρ c main_v35 (by decide)).trans ((HostK.keep4 _ main_v35 (by decide)).trans (W8_ZP m ρ c))
theorem W11_ZP (c : Dev nD) : W11 m ρ c (Proc.devRef .tc main_v35) = ZP m c :=
  (HostK.keep5 _ main_v35 (by decide)).trans (W10_ZP m ρ c)
theorem W10_ZD (c : Dev nD) : W10 m ρ c (Proc.devRef .tc main_v47) = ZD m c :=
  (KeepK.keepR4 m ρ c main_v47 (by decide)).trans ((HostK.keep4 _ main_v47 (by decide)).trans (W8_ZD m ρ c))
theorem W11_ZD (c : Dev nD) : W11 m ρ c (Proc.devRef .tc main_v47) = ZD m c :=
  (HostK.keep5 _ main_v47 (by decide)).trans (W10_ZD m ρ c)

/-! ## The pieces the last stretch prepares, read back in the originals -/

theorem upper_row (x : (⟨S256x128, .f32⟩ : BufTy).Contents (Elt Ideal)) (j k : Fin 128) :
    extractStridedSlice S128x128 ![0, 0] x slices_S256x128_S128x128_0_0 (ix2 j k) = x (ix2 (Cert.Spec.lo j) k) :=
  extractStridedSlice_apply _ x _ _ _ (fun a => by
    match a with
    | ⟨0, _⟩ => show j.val = 0 + j.val; omega
    | ⟨1, _⟩ => show k.val = 0 + k.val; omega)

theorem lower_row (x : (⟨S256x128, .f32⟩ : BufTy).Contents (Elt Ideal)) (j k : Fin 128) :
    extractStridedSlice S128x128 ![128, 0] x slices_S256x128_S128x128_128_0 (ix2 j k) = x (ix2 (Cert.Spec.hi j) k) :=
  extractStridedSlice_apply _ x _ _ _ (fun a => by
    match a with
    | ⟨0, _⟩ => show j.val + 128 = 128 + j.val; omega
    | ⟨1, _⟩ => show k.val = 0 + k.val; omega)

/-- If a 500000 x 1 column holds, in row p, the decoder of row p of two gathered arrays with the weight's two halves cut
    out and the two biases recast as the last stretch does, then the column recast as a vector is the specification's
    decoder of those arrays with the whole weight and the original biases. -/
theorem dec_read (Zd Zp : (⟨S500000x128, .f32⟩ : BufTy).Contents (Elt Ideal)) (x18 : (⟨S256x128, .f32⟩ : BufTy).Contents (Elt Ideal))
    (x19 : (⟨S128, .f32⟩ : BufTy).Contents (Elt Ideal)) (x20 : (⟨S128x1, .f32⟩ : BufTy).Contents (Elt Ideal))
    (x21 : (⟨S1, .f32⟩ : BufTy).Contents (Elt Ideal)) (col : (⟨S500000x1, .f32⟩ : BufTy).Contents (Elt Ideal))
    (hcol : ∀ p : Fin 500000, col (ix2 p (0 : Fin 1))
      = (∑ k : Fin 128, max (((∑ j : Fin 128, Zd (ix2 p j) * extractStridedSlice S128x128 ![0, 0] x18 slices_S256x128_S128x128_0_0 (ix2 j k))
            + ∑ j : Fin 128, Zp (ix2 p j) * extractStridedSlice S128x128 ![128, 0] x18 slices_S256x128_S128x128_128_0 (ix2 j k))
            + shapeCast S1x128 x19 shapeCasts_S128_S1x128 (ix2 (0 : Fin 1) k)) Cert.Spec.zero32 * x20 (ix2 k (0 : Fin 1)))
          + shapeCast S1x1 x21 shapeCasts_S1_S1x1 (ix2 (0 : Fin 1) (0 : Fin 1))) :
    shapeCast S500000 col shapeCasts_S500000x1_S500000 = Cert.Spec.decArr (L := 500000) Zd Zp x18 x19 x20 x21 := by
  funext j
  obtain ⟨p, rfl⟩ : ∃ p : Fin 500000, j = ix1 p := ⟨j 0, eq_ix1 j⟩
  refine (Cert.LibColumnFlat.shapeCast_a1_a_apply (a := 500000) col shapeCasts_S500000x1_S500000 p).trans ?_
  rw [hcol p]
  unfold Cert.Spec.decArr Cert.Spec.dec Cert.Spec.hid
  rw [shapeCast_a_1a_apply (a := 1) x21 shapeCasts_S1_S1x1 0 0]
  simp only [shapeCast_a_1a_apply (a := 128) x19 shapeCasts_S128_S1x128 0]
  refine congrArg (· + x21 (ix1 0)) (Finset.sum_congr rfl fun k _ => ?_)
  refine congrArg (· * x20 (ix2 k (0 : Fin 1))) (congrArg (max · Cert.Spec.zero32) (congrArg (· + x19 (ix1 k)) ?_))
  refine congrArg₂ (· + ·) (Finset.sum_congr rfl fun j _ => ?_) (Finset.sum_congr rfl fun j _ => ?_)
  · exact congrArg (Zd (ix2 p j) * ·) (upper_row x18 j k)
  · exact congrArg (Zp (ix2 p j) * ·) (lower_row x18 j k)

/-! ## What region 4 finds in its seven input arrays -/

theorem V9_w0 (c : Dev nD) : V9 m ρ c (Pipeline.arrRef spec4 0) = HostK.gatD (ZD m c) (X m c main_arg4) := by
  refine (HostK.s4_gatD (W8 m ρ c)).trans ?_
  rw [W8_ZD m ρ c, KeepK.args_W8 m ρ c main_arg4 (by decide)]
theorem V9_w1 (c : Dev nD) : V9 m ρ c (Pipeline.arrRef spec4 1) = HostK.gatP (ZP m c) (X m c main_arg5) := by
  refine (HostK.s4_gatP (W8 m ρ c)).trans ?_
  rw [W8_ZP m ρ c, KeepK.args_W8 m ρ c main_arg5 (by decide)]
theorem V9_w2 (c : Dev nD) : V9 m ρ c (Pipeline.arrRef spec4 2)
    = extractStridedSlice S128x128 ![0, 0] (X m c main_arg18) slices_S256x128_S128x128_0_0 := by
  refine (HostK.s4_upper (W8 m ρ c)).trans ?_
  rw [KeepK.args_W8 m ρ c main_arg18 (by decide)]
theorem V9_w3 (c : Dev nD) : V9 m ρ c (Pipeline.arrRef spec4 3)
    = extractStridedSlice S128x128 ![128, 0] (X m c main_arg18) slices_S256x128_S128x128_128_0 := by
  refine (HostK.s4_lower (W8 m ρ c)).trans ?_
  rw [KeepK.args_W8 m ρ c main_arg18 (by decide)]
theorem V9_w4 (c : Dev nD) : V9 m ρ c (Pipeline.arrRef spec4 4) = shapeCast S1x128 (X m c main_arg19) shapeCasts_S128_S1x128 := by
  refine (HostK.s4_bias1 (W8 m ρ c)).trans ?_
  rw [KeepK.args_W8 m ρ c main_arg19 (by decide)]
theorem V9_w5 (c : Dev nD) : V9 m ρ c (Pipeline.arrRef spec4 5) = X m c main_arg20 :=
  KeepK.args_W9 m ρ c main_arg20 (by decide)
theorem V9_w6 (c : Dev nD) : V9 m ρ c (Pipeline.arrRef spec4 6) = shapeCast S1x1 (X m c main_arg21) shapeCasts_S1_S1x1 := by
  refine (HostK.s4_bias2 (W8 m ρ c)).trans ?_
  rw [KeepK.args_W8 m ρ c main_arg21 (by decide)]

/-- After region 4 its output column is the decoder, row by row, of the gathered embeddings, with the weight's halves and
    the recast biases as the last stretch prepares them. -/
theorem W10_colArr (c : Dev nD) : W10 m ρ c (Proc.devRef .tc main_v66)
    = Region4.colArr (L := 500000) (HostK.gatD (ZD m c) (X m c main_arg4)) (HostK.gatP (ZP m c) (X m c main_arg5))
        (extractStridedSlice S128x128 ![0, 0] (X m c main_arg18) slices_S256x128_S128x128_0_0)
        (extractStridedSlice S128x128 ![128, 0] (X m c main_arg18) slices_S256x128_S128x128_128_0)
        (shapeCast S1x128 (X m c main_arg19) shapeCasts_S128_S1x128) (X m c main_arg20)
        (shapeCast S1x1 (X m c main_arg21) shapeCasts_S1_S1x1) := by
  refine ((W10_arr m ρ c 7).trans (Region4.final (V9 m ρ) c)).trans ?_
  rw [V9_w0 m ρ c, V9_w1 m ρ c, V9_w2 m ρ c, V9_w3 m ρ c, V9_w4 m ρ c, V9_w5 m ρ c, V9_w6 m ρ c]

/-- The program's last result is the decoder's outputs. -/
theorem W11_OUT (c : Dev nD) : W11 m ρ c (Proc.devRef .tc main_v67) = OUT m c :=
  (HostK.s5_out (W10 m ρ c)).trans
    (dec_read (HostK.gatD (ZD m c) (X m c main_arg4)) (HostK.gatP (ZP m c) (X m c main_arg5)) (X m c main_arg18)
      (X m c main_arg19) (X m c main_arg20) (X m c main_arg21) (W10 m ρ c (Proc.devRef .tc main_v66)) (fun p => congrFun (W10_colArr m ρ c) (ix2 p (0 : Fin 1))))

/-! ## The run, with its results named -/

/-- Every weakly fair execution of the idealized kernel program terminates without a fault with the two final
    embeddings and the decoder's outputs at the network's functions of the arguments, the arguments unchanged. -/
theorem run : θ_run defs (onTc (τ := τ) (main (F := Ideal))) ⟨m, fun _ => 0, ρ⟩ (fun r => ∀ c : Dev nD,
      r.2.mem ((c.tc : Thread nD τ).loc main_v47) = ZD m c
      ∧ r.2.mem ((c.tc : Thread nD τ).loc main_v35) = ZP m c
      ∧ r.2.mem ((c.tc : Thread nD τ).loc main_v67) = OUT m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c => ⟨
      (h c _ (mem_uc main_v47 (by decide))).trans (W11_ZD m ρ c),
      (h c _ (mem_uc main_v35 (by decide))).trans (W11_ZP m ρ c),
      (h c _ (mem_uc main_v67 (by decide))).trans (W11_OUT m ρ c),
      (h c _ (mem_uc main_arg0 (by decide))).trans (W11_main_arg0 m ρ c),
      (h c _ (mem_uc main_arg1 (by decide))).trans (W11_main_arg1 m ρ c),
      (h c _ (mem_uc main_arg2 (by decide))).trans (W11_main_arg2 m ρ c),
      (h c _ (mem_uc main_arg3 (by decide))).trans (W11_main_arg3 m ρ c),
      (h c _ (mem_uc main_arg4 (by decide))).trans (W11_main_arg4 m ρ c),
      (h c _ (mem_uc main_arg5 (by decide))).trans (W11_main_arg5 m ρ c),
      (h c _ (mem_uc main_arg6 (by decide))).trans (W11_main_arg6 m ρ c),
      (h c _ (mem_uc main_arg7 (by decide))).trans (W11_main_arg7 m ρ c),
      (h c _ (mem_uc main_arg8 (by decide))).trans (W11_main_arg8 m ρ c),
      (h c _ (mem_uc main_arg9 (by decide))).trans (W11_main_arg9 m ρ c),
      (h c _ (mem_uc main_arg10 (by decide))).trans (W11_main_arg10 m ρ c),
      (h c _ (mem_uc main_arg11 (by decide))).trans (W11_main_arg11 m ρ c),
      (h c _ (mem_uc main_arg12 (by decide))).trans (W11_main_arg12 m ρ c),
      (h c _ (mem_uc main_arg13 (by decide))).trans (W11_main_arg13 m ρ c),
      (h c _ (mem_uc main_arg14 (by decide))).trans (W11_main_arg14 m ρ c),
      (h c _ (mem_uc main_arg15 (by decide))).trans (W11_main_arg15 m ρ c),
      (h c _ (mem_uc main_arg16 (by decide))).trans (W11_main_arg16 m ρ c),
      (h c _ (mem_uc main_arg17 (by decide))).trans (W11_main_arg17 m ρ c),
      (h c _ (mem_uc main_arg18 (by decide))).trans (W11_main_arg18 m ρ c),
      (h c _ (mem_uc main_arg19 (by decide))).trans (W11_main_arg19 m ρ c),
      (h c _ (mem_uc main_arg20 (by decide))).trans (W11_main_arg20 m ρ c),
      (h c _ (mem_uc main_arg21 (by decide))).trans (W11_main_arg21 m ρ c)⟩)
    (RunK.run_all m ρ)

end Cert.KernelIdeal.FinalK

end
-- ==== Proof.RefVal.lean ====
/-
  The reference program's three results as the specification's functions of its arguments, on the extended reals.

  The program aggregates by the same two host operations throughout: a gather of rows at wrapped indices followed by
  a scatter-add into a zero array.  Those are kept as they stand, under four names (two directions of the
  aggregation, two gathers of the decoder).  Everything between them is read entry by entry: a product is a sum over
  the contracted axis, a broadcast reads its operand, the maximum with the zero array is the maximum with zero.  Each
  layer's stage is then a combine step of the specification (the bias, which the program adds between the two
  products, moved behind them), and the last stage is the decoder, the product against the 256-row weight split
  into its two halves along the concatenated axis.
-/
import proofs.«149563_j82532091560585_2_alg».proof.Proof.Gen.ReferenceIdeal.Read
import proofs.«149563_j82532091560585_2_alg».proof.Proof.Spec

noncomputable section

namespace Cert.ReferenceIdeal.RefVal

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## The aggregations and the decoder's gathers, as the program spells them -/

/-- Rows of a 10000-row array gathered at the wrapped `row` indices and summed into 20000 rows by `col`. -/
def segP (x : (⟨S10000x128, .f32⟩ : BufTy).Contents (Elt Ideal)) (row col : (⟨S1000000, .i32⟩ : BufTy).Contents (Elt Ideal)) :
    (⟨S20000x128, .f32⟩ : BufTy).Contents (Elt Ideal) :=
  Host.scatterAdd (F := Ideal) (φ := .f32) scatter_S20000x128_S1000000x1_S1000000x128_1_0_0_1 (val_main_v7 (F := Ideal)) (val_main_v8 (F := Ideal) col)
    (Host.gather gather_S10000x128_S1000000x1_S1000000x128_1_0_n_n_0_1_1128 x (val_main_v5 (F := Ideal) row))

/-- Rows of a 20000-row array gathered at the wrapped `col` indices and summed into 10000 rows by `row`. -/
def segD (x : (⟨S20000x128, .f32⟩ : BufTy).Contents (Elt Ideal)) (row col : (⟨S1000000, .i32⟩ : BufTy).Contents (Elt Ideal)) :
    (⟨S10000x128, .f32⟩ : BufTy).Contents (Elt Ideal) :=
  Host.scatterAdd (F := Ideal) (φ := .f32) scatter_S10000x128_S1000000x1_S1000000x128_1_0_0_1 (val_main_v24 (F := Ideal)) (val_main_v25 (F := Ideal) row)
    (Host.gather gather_S20000x128_S1000000x1_S1000000x128_1_0_n_n_0_1_1128 x (val_main_v22 (F := Ideal) col))

/-- Rows of a 10000-row array gathered at the wrapped label indices. -/
def gatD (z : (⟨S10000x128, .f32⟩ : BufTy).Contents (Elt Ideal)) (lrow : (⟨S500000, .i32⟩ : BufTy).Contents (Elt Ideal)) :
    (⟨S500000x128, .f32⟩ : BufTy).Contents (Elt Ideal) :=
  Host.gather gather_S10000x128_S500000x1_S500000x128_1_0_n_n_0_1_1128 z (val_main_v71 (F := Ideal) lrow)

/-- Rows of a 20000-row array gathered at the wrapped label indices. -/
def gatP (z : (⟨S20000x128, .f32⟩ : BufTy).Contents (Elt Ideal)) (lcol : (⟨S500000, .i32⟩ : BufTy).Contents (Elt Ideal)) :
    (⟨S500000x128, .f32⟩ : BufTy).Contents (Elt Ideal) :=
  Host.gather gather_S20000x128_S500000x1_S500000x128_1_0_n_n_0_1_1128 z (val_main_v78 (F := Ideal) lcol)

variable (x0 : (⟨S10000x128, .f32⟩ : BufTy).Contents (Elt Ideal)) (x1 : (⟨S20000x128, .f32⟩ : BufTy).Contents (Elt Ideal))
  (x2 x3 : (⟨S1000000, .i32⟩ : BufTy).Contents (Elt Ideal)) (x4 x5 : (⟨S500000, .i32⟩ : BufTy).Contents (Elt Ideal))
  (x6 : (⟨S128x128, .f32⟩ : BufTy).Contents (Elt Ideal)) (x7 : (⟨S128, .f32⟩ : BufTy).Contents (Elt Ideal))
  (x8 x9 : (⟨S128x128, .f32⟩ : BufTy).Contents (Elt Ideal)) (x10 : (⟨S128, .f32⟩ : BufTy).Contents (Elt Ideal))
  (x11 x12 : (⟨S128x128, .f32⟩ : BufTy).Contents (Elt Ideal)) (x13 : (⟨S128, .f32⟩ : BufTy).Contents (Elt Ideal))
  (x14 x15 : (⟨S128x128, .f32⟩ : BufTy).Contents (Elt Ideal)) (x16 : (⟨S128, .f32⟩ : BufTy).Contents (Elt Ideal))
  (x17 : (⟨S128x128, .f32⟩ : BufTy).Contents (Elt Ideal)) (x18 : (⟨S256x128, .f32⟩ : BufTy).Contents (Elt Ideal))
  (x19 : (⟨S128, .f32⟩ : BufTy).Contents (Elt Ideal)) (x20 : (⟨S128x1, .f32⟩ : BufTy).Contents (Elt Ideal))
  (x21 : (⟨S1, .f32⟩ : BufTy).Contents (Elt Ideal))

/-- The first aggregation is `segP` of the first argument. -/
theorem val_main_v9_seg : val_main_v9 (F := Ideal) x0 x2 x3 = segP x0 x2 x3 := rfl
/-- The reverse aggregation is `segD` of the second argument. -/
theorem val_main_v26_seg : val_main_v26 (F := Ideal) x1 x2 x3 = segD x1 x2 x3 := rfl
/-- The second layer's aggregation is `segP` of the first layer's 10000-row result: the same operations on the same indices. -/
theorem val_main_v43_seg :
    val_main_v43 (F := Ideal) x0 x1 x2 x3 x9 x10 x11 = segP (val_main_v33 (F := Ideal) x0 x1 x2 x3 x9 x10 x11) x2 x3 := rfl
/-- The second layer's reverse aggregation is `segD` of the first layer's 20000-row result. -/
theorem val_main_v59_seg :
    val_main_v59 (F := Ideal) x0 x1 x2 x3 x6 x7 x8 = segD (val_main_v16 (F := Ideal) x0 x1 x2 x3 x6 x7 x8) x2 x3 := rfl
/-- The decoder's first gather is `gatD` of the second layer's 10000-row result. -/
theorem val_main_v72_gat :
    val_main_v72 (F := Ideal) x0 x1 x2 x3 x4 x6 x7 x8 x9 x10 x11 x15 x16 x17
      = gatD (val_main_v65 (F := Ideal) x0 x1 x2 x3 x6 x7 x8 x9 x10 x11 x15 x16 x17) x4 := rfl
/-- The decoder's second gather is `gatP` of the second layer's 20000-row result. -/
theorem val_main_v79_gat :
    val_main_v79 (F := Ideal) x0 x1 x2 x3 x5 x6 x7 x8 x9 x10 x11 x12 x13 x14
      = gatP (val_main_v49 (F := Ideal) x0 x1 x2 x3 x6 x7 x8 x9 x10 x11 x12 x13 x14) x5 := rfl

/-! ## The three results as functions of the arguments -/

/-- The first layer's 20000-row result. -/
def hprot : (⟨S20000x128, .f32⟩ : BufTy).Contents (Elt Ideal) := Cert.Spec.combReluArr (segP x0 x2 x3) x1 x6 x8 x7
/-- The first layer's 10000-row result. -/
def hdrug : (⟨S10000x128, .f32⟩ : BufTy).Contents (Elt Ideal) := Cert.Spec.combReluArr (segD x1 x2 x3) x0 x9 x11 x10
/-- The second layer's 20000-row result (no maximum). -/
def zprot : (⟨S20000x128, .f32⟩ : BufTy).Contents (Elt Ideal) :=
  Cert.Spec.combArr (segP (hdrug x0 x1 x2 x3 x9 x10 x11) x2 x3) (hprot x0 x1 x2 x3 x6 x7 x8) x12 x14 x13
/-- The second layer's 10000-row result (no maximum). -/
def zdrug : (⟨S10000x128, .f32⟩ : BufTy).Contents (Elt Ideal) :=
  Cert.Spec.combArr (segD (hprot x0 x1 x2 x3 x6 x7 x8) x2 x3) (hdrug x0 x1 x2 x3 x9 x10 x11) x15 x17 x16
/-- The decoder's output vector. -/
def out : (⟨S500000, .f32⟩ : BufTy).Contents (Elt Ideal) :=
  Cert.Spec.decArr (gatD (zdrug x0 x1 x2 x3 x6 x7 x8 x9 x10 x11 x15 x16 x17) x4)
    (gatP (zprot x0 x1 x2 x3 x6 x7 x8 x9 x10 x11 x12 x13 x14) x5) x18 x19 x20 x21

/-! ## The two layers -/

/-- The first layer's 20000-row stage is the combine step with the maximum: the entry is read through the two products, the broadcast bias and the zero array, and the bias moves behind the second product. -/
theorem val_main_v16_hprot : val_main_v16 (F := Ideal) x0 x1 x2 x3 x6 x7 x8 = hprot x0 x1 x2 x3 x6 x7 x8 := by
  funext i
  obtain ⟨p, q, rfl⟩ : ∃ (p : Fin 20000) (q : Fin 128), i = ix2 p q := ⟨i 0, i 1, eq_ix2 i⟩
  have el : ∀ k : Fin 128, lidx_main_v10 (ix2 p q) k = ix2 p k := fun k => funext fun a => Fin.ext (by match a with | ⟨0, _⟩ => rfl | ⟨1, _⟩ => rfl)
  have er : ∀ k : Fin 128, ridx_main_v10 (ix2 p q) k = ix2 k q := fun k => funext fun a => Fin.ext (by match a with | ⟨0, _⟩ => rfl | ⟨1, _⟩ => rfl)
  have el' : ∀ k : Fin 128, lidx_main_v14 (ix2 p q) k = ix2 p k := fun k => funext fun a => Fin.ext (by match a with | ⟨0, _⟩ => rfl | ⟨1, _⟩ => rfl)
  have er' : ∀ k : Fin 128, ridx_main_v14 (ix2 p q) k = ix2 k q := fun k => funext fun a => Fin.ext (by match a with | ⟨0, _⟩ => rfl | ⟨1, _⟩ => rfl)
  have eb : idx_main_v11 (idx_main_v12 (ix2 p q)) = ix1 q := funext fun a => Fin.ext (by match a with | ⟨0, _⟩ => rfl)
  rw [val_main_v16_apply, val_main_v15_apply, val_main_v13_apply, val_main_v10_apply, val_main_v12_apply, val_main_v11_apply,
    val_main_v14_apply, val_main_call0_v0_apply, val_main_call0_cst_apply, val_main_v9_seg, eb]
  simp only [el, er, el', er']
  exact congrArg (fun t => max t Cert.Spec.zero32) (Cert.Spec.comb_bias_between (segP x0 x2 x3) x1 x6 x8 x7 p q)

/-- The first layer's 10000-row stage is the combine step with the maximum, read in the same way. -/
theorem val_main_v33_hdrug : val_main_v33 (F := Ideal) x0 x1 x2 x3 x9 x10 x11 = hdrug x0 x1 x2 x3 x9 x10 x11 := by
  funext i
  obtain ⟨p, q, rfl⟩ : ∃ (p : Fin 10000) (q : Fin 128), i = ix2 p q := ⟨i 0, i 1, eq_ix2 i⟩
  have el : ∀ k : Fin 128, lidx_main_v27 (ix2 p q) k = ix2 p k := fun k => funext fun a => Fin.ext (by match a with | ⟨0, _⟩ => rfl | ⟨1, _⟩ => rfl)
  have er : ∀ k : Fin 128, ridx_main_v27 (ix2 p q) k = ix2 k q := fun k => funext fun a => Fin.ext (by match a with | ⟨0, _⟩ => rfl | ⟨1, _⟩ => rfl)
  have el' : ∀ k : Fin 128, lidx_main_v31 (ix2 p q) k = ix2 p k := fun k => funext fun a => Fin.ext (by match a with | ⟨0, _⟩ => rfl | ⟨1, _⟩ => rfl)
  have er' : ∀ k : Fin 128, ridx_main_v31 (ix2 p q) k = ix2 k q := fun k => funext fun a => Fin.ext (by match a with | ⟨0, _⟩ => rfl | ⟨1, _⟩ => rfl)
  have eb : idx_main_v28 (idx_main_v29 (ix2 p q)) = ix1 q := funext fun a => Fin.ext (by match a with | ⟨0, _⟩ => rfl)
  rw [val_main_v33_apply, val_main_v32_apply, val_main_v30_apply, val_main_v27_apply, val_main_v29_apply, val_main_v28_apply,
    val_main_v31_apply, val_main_call1_v0_apply, val_main_call1_cst_apply, val_main_v26_seg, eb]
  simp only [el, er, el', er']
  exact congrArg (fun t => max t Cert.Spec.zero32) (Cert.Spec.comb_bias_between (segD x1 x2 x3) x0 x9 x11 x10 p q)

/-- The second layer's 20000-row stage is the combine step of the aggregated first-layer 10000-row result and the first-layer 20000-row result. -/
theorem val_main_v49_zprot : val_main_v49 (F := Ideal) x0 x1 x2 x3 x6 x7 x8 x9 x10 x11 x12 x13 x14 = zprot x0 x1 x2 x3 x6 x7 x8 x9 x10 x11 x12 x13 x14 := by
  funext i
  obtain ⟨p, q, rfl⟩ : ∃ (p : Fin 20000) (q : Fin 128), i = ix2 p q := ⟨i 0, i 1, eq_ix2 i⟩
  have el : ∀ k : Fin 128, lidx_main_v44 (ix2 p q) k = ix2 p k := fun k => funext fun a => Fin.ext (by match a with | ⟨0, _⟩ => rfl | ⟨1, _⟩ => rfl)
  have er : ∀ k : Fin 128, ridx_main_v44 (ix2 p q) k = ix2 k q := fun k => funext fun a => Fin.ext (by match a with | ⟨0, _⟩ => rfl | ⟨1, _⟩ => rfl)
  have el' : ∀ k : Fin 128, lidx_main_v48 (ix2 p q) k = ix2 p k := fun k => funext fun a => Fin.ext (by match a with | ⟨0, _⟩ => rfl | ⟨1, _⟩ => rfl)
  have er' : ∀ k : Fin 128, ridx_main_v48 (ix2 p q) k = ix2 k q := fun k => funext fun a => Fin.ext (by match a with | ⟨0, _⟩ => rfl | ⟨1, _⟩ => rfl)
  have eb : idx_main_v45 (idx_main_v46 (ix2 p q)) = ix1 q := funext fun a => Fin.ext (by match a with | ⟨0, _⟩ => rfl)
  rw [val_main_v49_apply, val_main_v47_apply, val_main_v44_apply, val_main_v46_apply, val_main_v45_apply, val_main_v48_apply,
    val_main_v43_seg, val_main_v33_hdrug, val_main_v16_hprot, eb]
  simp only [el, er, el', er']
  exact Cert.Spec.comb_bias_between (segP (hdrug x0 x1 x2 x3 x9 x10 x11) x2 x3) (hprot x0 x1 x2 x3 x6 x7 x8) x12 x14 x13 p q

/-- The second layer's 10000-row stage is the combine step of the aggregated first-layer 20000-row result and the first-layer 10000-row result. -/
theorem val_main_v65_zdrug : val_main_v65 (F := Ideal) x0 x1 x2 x3 x6 x7 x8 x9 x10 x11 x15 x16 x17 = zdrug x0 x1 x2 x3 x6 x7 x8 x9 x10 x11 x15 x16 x17 := by
  funext i
  obtain ⟨p, q, rfl⟩ : ∃ (p : Fin 10000) (q : Fin 128), i = ix2 p q := ⟨i 0, i 1, eq_ix2 i⟩
  have el : ∀ k : Fin 128, lidx_main_v60 (ix2 p q) k = ix2 p k := fun k => funext fun a => Fin.ext (by match a with | ⟨0, _⟩ => rfl | ⟨1, _⟩ => rfl)
  have er : ∀ k : Fin 128, ridx_main_v60 (ix2 p q) k = ix2 k q := fun k => funext fun a => Fin.ext (by match a with | ⟨0, _⟩ => rfl | ⟨1, _⟩ => rfl)
  have el' : ∀ k : Fin 128, lidx_main_v64 (ix2 p q) k = ix2 p k := fun k => funext fun a => Fin.ext (by match a with | ⟨0, _⟩ => rfl | ⟨1, _⟩ => rfl)
  have er' : ∀ k : Fin 128, ridx_main_v64 (ix2 p q) k = ix2 k q := fun k => funext fun a => Fin.ext (by match a with | ⟨0, _⟩ => rfl | ⟨1, _⟩ => rfl)
  have eb : idx_main_v61 (idx_main_v62 (ix2 p q)) = ix1 q := funext fun a => Fin.ext (by match a with | ⟨0, _⟩ => rfl)
  rw [val_main_v65_apply, val_main_v63_apply, val_main_v60_apply, val_main_v62_apply, val_main_v61_apply, val_main_v64_apply,
    val_main_v59_seg, val_main_v16_hprot, val_main_v33_hdrug, eb]
  simp only [el, er, el', er']
  exact Cert.Spec.comb_bias_between (segD (hprot x0 x1 x2 x3 x6 x7 x8) x2 x3) (hdrug x0 x1 x2 x3 x9 x10 x11) x15 x17 x16 p q

/-! ## The decoder -/

/-- An entry of the concatenated array in the first 128 columns is the first gather's entry. -/
theorem val_main_v80_lo (p : Fin 500000) (j : Fin 128) :
    val_main_v80 (F := Ideal) x0 x1 x2 x3 x4 x5 x6 x7 x8 x9 x10 x11 x12 x13 x14 x15 x16 x17 (ix2 p (Cert.Spec.lo j))
      = val_main_v72 (F := Ideal) x0 x1 x2 x3 x4 x6 x7 x8 x9 x10 x11 x15 x16 x17 (ix2 p j) := by
  unfold val_main_v80
  exact concatenate_pair_apply_left _ _ _ concatenates_S500000x128_S500000x128_S500000x256_d1 (ix2 p (Cert.Spec.lo j)) rfl (ix2 p j)
    (fun b => by match b with | ⟨0, _⟩ => rfl | ⟨1, _⟩ => rfl)

/-- An entry of the concatenated array in the last 128 columns is the second gather's entry. -/
theorem val_main_v80_hi (p : Fin 500000) (j : Fin 128) :
    val_main_v80 (F := Ideal) x0 x1 x2 x3 x4 x5 x6 x7 x8 x9 x10 x11 x12 x13 x14 x15 x16 x17 (ix2 p (Cert.Spec.hi j))
      = val_main_v79 (F := Ideal) x0 x1 x2 x3 x5 x6 x7 x8 x9 x10 x11 x12 x13 x14 (ix2 p j) := by
  unfold val_main_v80
  exact concatenate_pair_apply_right _ _ _ concatenates_S500000x128_S500000x128_S500000x256_d1 (ix2 p (Cert.Spec.hi j)) rfl rfl (ix2 p j)
    (fun b => by match b with | ⟨0, _⟩ => exact fun _ => rfl | ⟨1, _⟩ => exact fun h => absurd rfl h) rfl

/-- A hidden unit of the decoder: the product against the 256-row weight is split into its two halves, each half
    reading one of the two gathers through the concatenation. -/
theorem val_main_v85_hid (p : Fin 500000) (k : Fin 128) :
    val_main_v85 (F := Ideal) x0 x1 x2 x3 x4 x5 x6 x7 x8 x9 x10 x11 x12 x13 x14 x15 x16 x17 x18 x19 (ix2 p k)
      = Cert.Spec.hid (gatD (zdrug x0 x1 x2 x3 x6 x7 x8 x9 x10 x11 x15 x16 x17) x4) (gatP (zprot x0 x1 x2 x3 x6 x7 x8 x9 x10 x11 x12 x13 x14) x5) x18 x19 p k := by
  have el : ∀ j : Fin 256, lidx_main_v81 (ix2 p k) j = ix2 p j := fun j => funext fun a => Fin.ext (by match a with | ⟨0, _⟩ => rfl | ⟨1, _⟩ => rfl)
  have er : ∀ j : Fin 256, ridx_main_v81 (ix2 p k) j = ix2 j k := fun j => funext fun a => Fin.ext (by match a with | ⟨0, _⟩ => rfl | ⟨1, _⟩ => rfl)
  have eb : idx_main_v82 (idx_main_v83 (ix2 p k)) = ix1 k := funext fun a => Fin.ext (by match a with | ⟨0, _⟩ => rfl)
  rw [val_main_v85_apply, val_main_v84_apply, val_main_v81_apply, val_main_v83_apply, val_main_v82_apply, val_main_call2_v0_apply,
    val_main_call2_cst_apply, eb]
  simp only [el, er]
  rw [Cert.Spec.sum_halves]
  simp only [val_main_v80_lo, val_main_v80_hi, val_main_v72_gat, val_main_v79_gat, val_main_v65_zdrug, val_main_v49_zprot]
  rfl

/-- The last stage is the decoder's output vector. -/
theorem val_main_v90_out : val_main_v90 (F := Ideal) x0 x1 x2 x3 x4 x5 x6 x7 x8 x9 x10 x11 x12 x13 x14 x15 x16 x17 x18 x19 x20 x21 = out x0 x1 x2 x3 x4 x5 x6 x7 x8 x9 x10 x11 x12 x13 x14 x15 x16 x17 x18 x19 x20 x21 := by
  funext i
  obtain ⟨p, rfl⟩ : ∃ p : Fin 500000, i = ix1 p := ⟨i 0, eq_ix1 i⟩
  have e90 : idx_main_v90 (ix1 p) = ix2 p (0 : Fin 1) :=
    funext fun a => Fin.ext (by match a with | ⟨0, _⟩ => exact Nat.div_one _ | ⟨1, _⟩ => rfl)
  have el : ∀ k : Fin 128, lidx_main_v86 (ix2 p (0 : Fin 1)) k = ix2 p k := fun k => funext fun a => Fin.ext (by match a with | ⟨0, _⟩ => rfl | ⟨1, _⟩ => rfl)
  have er : ∀ k : Fin 128, ridx_main_v86 (ix2 p (0 : Fin 1)) k = ix2 k (0 : Fin 1) := fun k => funext fun a => Fin.ext (by match a with | ⟨0, _⟩ => rfl | ⟨1, _⟩ => rfl)
  have eb : idx_main_v87 (idx_main_v88 (ix2 p (0 : Fin 1))) = ix1 (0 : Fin 1) := funext fun a => Fin.ext (by match a with | ⟨0, _⟩ => rfl)
  rw [val_main_v90_apply, e90, val_main_v89_apply, val_main_v86_apply, val_main_v88_apply, val_main_v87_apply, eb]
  simp only [el, er, val_main_v85_hid]
  rfl

/-! ## The run -/

/-- Every execution of the reference ends with its three results at the specification's functions of the arguments'
    launch contents, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = zdrug (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg15)) (m ((c.tc : Thread nD τ).loc main_arg16)) (m ((c.tc : Thread nD τ).loc main_arg17))
      ∧ r.2.mem ((c.tc : Thread nD τ).loc main_v49) = zprot (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_v90) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21) :=
  (θ_run defs _ _).mono (fun _ h c => by
    obtain ⟨h65, h49, h90, hargs⟩ := h c
    exact ⟨h65.trans ((val_main_v65_eq _ _ _ _ _ _ _ _ _ _ _ _ _).trans (val_main_v65_zdrug _ _ _ _ _ _ _ _ _ _ _ _ _)),
      h49.trans ((val_main_v49_eq _ _ _ _ _ _ _ _ _ _ _ _ _).trans (val_main_v49_zprot _ _ _ _ _ _ _ _ _ _ _ _ _)),
      h90.trans ((val_main_v90_eq m c).trans (val_main_v90_out _ _ _ _ _ _ _ _ _ _ _ _ _ _ _ _ _ _ _ _ _ _)), hargs⟩)
    (Cert.ReferenceIdeal.Value.run m ρ)

end Cert.ReferenceIdeal.RefVal

end
-- ==== Proof.Bridge.lean ====
/-
  The two programs name the same aggregations, and the same network.

  Each program spells its aggregation with its own copies of the dimension records and of the shapes; the copies
  hold the same literals, the wrapped index vectors are the same terms, and the zero array is the same broadcast of
  the same constant.  So the two spellings of each aggregation and of each label gather are equal as they stand,
  and with them the two spellings of the network's four arrays and of its output vector.
-/
import proofs.«149563_j82532091560585_2_alg».proof.Proof.RefVal
import proofs.«149563_j82532091560585_2_alg».proof.Proof.NetK

noncomputable section

namespace Cert.Bridge

open Cert.ReferenceIdeal Idealize.ShloMosaic Idealize.ShloMosaic.TcCoe
open Cert.ReferenceIdeal.RefVal (hprot hdrug zprot zdrug out)

/-! ## The aggregations and the label gathers -/

/-- The aggregation into 20000 rows is the same term in both programs. -/
theorem segP_eq (x : (⟨S10000x128, .f32⟩ : BufTy).Contents (Elt Ideal)) (row col : (⟨S1000000, .i32⟩ : BufTy).Contents (Elt Ideal)) :
    RefVal.segP x row col = Cert.KernelIdeal.HostK.segP (F := Ideal) x row col := rfl

/-- The aggregation into 10000 rows is the same term in both programs. -/
theorem segD_eq (x : (⟨S20000x128, .f32⟩ : BufTy).Contents (Elt Ideal)) (row col : (⟨S1000000, .i32⟩ : BufTy).Contents (Elt Ideal)) :
    RefVal.segD x row col = Cert.KernelIdeal.HostK.segD (F := Ideal) x row col := rfl

/-- The gather of a 10000-row array at the label indices is the same term in both programs. -/
theorem gatD_eq (z : (⟨S10000x128, .f32⟩ : BufTy).Contents (Elt Ideal)) (lrow : (⟨S500000, .i32⟩ : BufTy).Contents (Elt Ideal)) :
    RefVal.gatD z lrow = Cert.KernelIdeal.HostK.gatD (F := Ideal) z lrow := rfl

/-- The gather of a 20000-row array at the label indices is the same term in both programs. -/
theorem gatP_eq (z : (⟨S20000x128, .f32⟩ : BufTy).Contents (Elt Ideal)) (lcol : (⟨S500000, .i32⟩ : BufTy).Contents (Elt Ideal)) :
    RefVal.gatP z lcol = Cert.KernelIdeal.HostK.gatP (F := Ideal) z lcol := rfl

/-! ## The network -/

variable (x0 : (⟨S10000x128, .f32⟩ : BufTy).Contents (Elt Ideal)) (x1 : (⟨S20000x128, .f32⟩ : BufTy).Contents (Elt Ideal))
  (x2 x3 : (⟨S1000000, .i32⟩ : BufTy).Contents (Elt Ideal)) (x4 x5 : (⟨S500000, .i32⟩ : BufTy).Contents (Elt Ideal))
  (x6 : (⟨S128x128, .f32⟩ : BufTy).Contents (Elt Ideal)) (x7 : (⟨S128, .f32⟩ : BufTy).Contents (Elt Ideal))
  (x8 x9 : (⟨S128x128, .f32⟩ : BufTy).Contents (Elt Ideal)) (x10 : (⟨S128, .f32⟩ : BufTy).Contents (Elt Ideal))
  (x11 x12 : (⟨S128x128, .f32⟩ : BufTy).Contents (Elt Ideal)) (x13 : (⟨S128, .f32⟩ : BufTy).Contents (Elt Ideal))
  (x14 x15 : (⟨S128x128, .f32⟩ : BufTy).Contents (Elt Ideal)) (x16 : (⟨S128, .f32⟩ : BufTy).Contents (Elt Ideal))
  (x17 : (⟨S128x128, .f32⟩ : BufTy).Contents (Elt Ideal)) (x18 : (⟨S256x128, .f32⟩ : BufTy).Contents (Elt Ideal))
  (x19 : (⟨S128, .f32⟩ : BufTy).Contents (Elt Ideal)) (x20 : (⟨S128x1, .f32⟩ : BufTy).Contents (Elt Ideal))
  (x21 : (⟨S1, .f32⟩ : BufTy).Contents (Elt Ideal))

/-- The first layer's 20000-row array. -/
theorem hprot_eq : hprot x0 x1 x2 x3 x6 x7 x8 = Cert.KernelIdeal.NetK.hprot x0 x1 x2 x3 x6 x7 x8 := rfl

/-- The first layer's 10000-row array. -/
theorem hdrug_eq : hdrug x0 x1 x2 x3 x9 x10 x11 = Cert.KernelIdeal.NetK.hdrug x0 x1 x2 x3 x9 x10 x11 := rfl

/-- The second layer's 20000-row array, over the first layer's two arrays. -/
theorem zprot_eq : zprot x0 x1 x2 x3 x6 x7 x8 x9 x10 x11 x12 x13 x14 = Cert.KernelIdeal.NetK.zprot (Cert.KernelIdeal.NetK.hdrug x0 x1 x2 x3 x9 x10 x11) (Cert.KernelIdeal.NetK.hprot x0 x1 x2 x3 x6 x7 x8) x2 x3 x12 x13 x14 := rfl

/-- The second layer's 10000-row array, over the first layer's two arrays. -/
theorem zdrug_eq : zdrug x0 x1 x2 x3 x6 x7 x8 x9 x10 x11 x15 x16 x17 = Cert.KernelIdeal.NetK.zdrug (Cert.KernelIdeal.NetK.hdrug x0 x1 x2 x3 x9 x10 x11) (Cert.KernelIdeal.NetK.hprot x0 x1 x2 x3 x6 x7 x8) x2 x3 x15 x16 x17 := rfl

/-- The decoder's output vector, over the second layer's two arrays. -/
theorem out_eq : out x0 x1 x2 x3 x4 x5 x6 x7 x8 x9 x10 x11 x12 x13 x14 x15 x16 x17 x18 x19 x20 x21 = Cert.KernelIdeal.NetK.out (Cert.KernelIdeal.NetK.zdrug (Cert.KernelIdeal.NetK.hdrug x0 x1 x2 x3 x9 x10 x11) (Cert.KernelIdeal.NetK.hprot x0 x1 x2 x3 x6 x7 x8) x2 x3 x15 x16 x17) (Cert.KernelIdeal.NetK.zprot (Cert.KernelIdeal.NetK.hdrug x0 x1 x2 x3 x9 x10 x11) (Cert.KernelIdeal.NetK.hprot x0 x1 x2 x3 x6 x7 x8) x2 x3 x12 x13 x14) x4 x5 x18 x19 x20 x21 := rfl

end Cert.Bridge

end
-- ==== Proof.lean ====
/-
  A two-layer graph network with an edge decoder: the kernel program against its plain reference.

  Both programs aggregate neighbour features by the same host operations (a gather of source rows, then a
  scatter-add into destination rows).  The kernel program computes everything else in five kernel regions: four
  combine steps  agg·Wl + x·Wr + b  (the first two followed by the maximum with zero) over row blocks of 2000, and a
  decoder  max(zd·Wu + zp·Wv + b1, 0)·W2 + b2  over row blocks of 5000, with the 256-row weight cut into its two halves.
  The reference computes  (agg·Wl + b) + x·Wr  and one product of the concatenated gathered embeddings with the
  whole 256-row weight.

  On the extended reals the two agree entry by entry, by two rearrangements of sums that hold without any
  finiteness: the bias may be added before or after the second product, and a sum over 256 terms is the sum of its
  first 128 and its last 128.  Changes of float format are the identity there and the only float literal is zero, so
  nothing else differs.

  The three frames are the generated ones (the reference's is its generated run with the results dropped); the
  idealization rewrote nothing, so it preserves the kernel trivially; the kernel program's results are read off its
  generated frame's fold through the program (modules RunK, HostK, KeepK, Region0-4, ChainK, FinalK), the reference's
  off its generated run (RefVal), and Bridge identifies the two programs' spellings of the aggregations.
-/
import proofs.«149563_j82532091560585_2_alg».proof.Defs
import proofs.«149563_j82532091560585_2_alg».proof.Proof.Gen.Kernel
import proofs.«149563_j82532091560585_2_alg».proof.Proof.Gen.Kernel.Skeleton
import proofs.«149563_j82532091560585_2_alg».proof.Proof.Gen.Kernel.Launch
import proofs.«149563_j82532091560585_2_alg».proof.Proof.Gen.Kernel.Points
import proofs.«149563_j82532091560585_2_alg».proof.Proof.Gen.Kernel.Frame
import proofs.«149563_j82532091560585_2_alg».proof.Proof.Gen.KernelIdeal
import proofs.«149563_j82532091560585_2_alg».proof.Proof.Gen.KernelIdeal.Skeleton
import proofs.«149563_j82532091560585_2_alg».proof.Proof.Gen.KernelIdeal.Launch
import proofs.«149563_j82532091560585_2_alg».proof.Proof.Gen.KernelIdeal.Points
import proofs.«149563_j82532091560585_2_alg».proof.Proof.Gen.KernelIdeal.Frame
import proofs.«149563_j82532091560585_2_alg».proof.Proof.Gen.ReferenceIdeal
import proofs.«149563_j82532091560585_2_alg».proof.Proof.Gen.Pre_finite_inputs
import proofs.«149563_j82532091560585_2_alg».proof.Proof.Gen.ReferenceIdeal.Run
import proofs.«149563_j82532091560585_2_alg».proof.Proof.Gen.ReferenceIdeal.Read
import proofs.«149563_j82532091560585_2_alg».proof.Proof.FinalK
import proofs.«149563_j82532091560585_2_alg».proof.Proof.RefVal
import proofs.«149563_j82532091560585_2_alg».proof.Proof.Bridge
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the arguments both programs end with the two final embeddings and the decoder's
    outputs at the network's functions of the arguments: the kernel program's spelling of the aggregations and the
    reference's are the same terms, and the rest is the specification on both sides. -/
theorem algebraic : Cert.algebraic_KernelIdeal_ReferenceIdeal := by
  intro m ρ m' ρ' _ hagree
  refine ⟨fun c => Cert.KernelIdeal.FinalK.ZD m c, fun c => Cert.KernelIdeal.FinalK.ZP m c,
    fun c => Cert.KernelIdeal.FinalK.OUT m c, Cert.KernelIdeal.FinalK.run m ρ, ?_⟩
  refine (θ_run Cert.ReferenceIdeal.defs _ _).mono (fun _ h c => ?_) (Cert.ReferenceIdeal.RefVal.run m' ρ')
  obtain ⟨h0, h1, h2, hargs⟩ := h c
  obtain ⟨e0, e1, e2, e3, e4, e5, e6, e7, e8, e9, e10, e11, e12, e13, e14, e15, e16, e17, e18, e19, e20, e21⟩ := hagree c
  refine ⟨h0.trans ?_, h1.trans ?_, h2.trans ?_, hargs⟩
  · rw [e0, e1, e2, e3, e6, e7, e8, e9, e10, e11, e15, e16, e17]
    exact Cert.Bridge.zdrug_eq _ _ _ _ _ _ _ _ _ _ _ _ _
  · rw [e0, e1, e2, e3, e6, e7, e8, e9, e10, e11, e12, e13, e14]
    exact Cert.Bridge.zprot_eq _ _ _ _ _ _ _ _ _ _ _ _ _
  · rw [e0, e1, e2, e3, e4, e5, e6, e7, e8, e9, e10, e11, e12, e13, e14, e15, e16, e17, e18, e19, e20, e21]
    exact Cert.Bridge.out_eq _ _ _ _ _ _ _ _ _ _ _ _ _ _ _ _ _ _ _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
